-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x1 : Shape := ⟨2, ![500000, 1]⟩
abbrev S2x16000000 : Shape := ⟨2, ![2, 16000000]⟩
abbrev S16000000 : Shape := ⟨1, ![16000000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S500000x1 : S_.BroadcastsInDim S500000x1 (![] : Fin 0 → Fin S500000x1.rank)
  reducesTo_S500000x1_S_d0_1 : S500000x1.ReducesTo [0, 1] S_
  h_S_ : 0 < S_.numel
  bcast_S_S16000000 : S_.BroadcastsInDim S16000000 (![] : Fin 0 → Fin S16000000.rank)
  reducesTo_S16000000_S_d0 : S16000000.ReducesTo [0] S_
  bcast_S_S1x16 : S_.BroadcastsInDim S1x16 (![] : Fin 0 → Fin S1x16.rank)
  reducesTo_S1x16_S_d0_1 : S1x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_
  bcast_S_S2x16000000 : S_.BroadcastsInDim S2x16000000 (![] : Fin 0 → Fin S2x16000000.rank)
  reducesTo_S2x16000000_S_d0_1 : S2x16000000.ReducesTo [0, 1] S_

variable [Facts]

def fn_part2 {F : FTy → Type} [FloatOps F] (main_arg1 : IVec S2x16000000 32) (main_v32 : IVec S_ 1) (main_c_12 : IVec S_ 32) : IVec S_ 1 :=
  let main_v33 : IVec S2x16000000 32 := broadcastInDim S2x16000000 ![] bcast_S_S2x16000000 main_c_12
  let main_v34 : IVec S2x16000000 1 := cmpi .slt main_arg1 main_v33
  let main_c_13 : IVec S_ 1 := constantI S_ 1 1#1
  let main_v35 : IVec S_ 1 := (fun x v => Host.reduce IntOp.andi x v reducesTo_S2x16000000_S_d0_1 h_S_) main_v34 main_c_13
  let main_v36 : IVec S_ 1 := andi main_v32 main_v35
  main_v36

def fn_part1 {F : FTy → Type} [FloatOps F] (main_arg1 : IVec S2x16000000 32) (main_arg5 : FVec F S16x2 .f32) (main_arg6 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x2 .f32 := Host.absf main_arg5
  let main_cst_6 : FVec F S_ .f32 := constant S_ .f32 0x7F800000#32
  let main_v20 : FVec F S16x2 .f32 := broadcastInDim S16x2 ![] bcast_S_S16x2 main_cst_6
  let main_v21 : IVec S16x2 1 := cmpf .olt main_v19 main_v20
  let main_c_7 : IVec S_ 1 := constantI S_ 1 1#1
  let main_v22 : IVec S_ 1 := (fun x v => Host.reduce IntOp.andi x v reducesTo_S16x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  let main_c_10 : IVec S_ 32 := constantI S_ 32 0#32
  let main_v29 : IVec S2x16000000 32 := broadcastInDim S2x16000000 ![] bcast_S_S2x16000000 main_c_10
  let main_v30 : IVec S2x16000000 1 := cmpi .sge main_arg1 main_v29
  let main_c_11 : IVec S_ 1 := constantI S_ 1 1#1
  let main_v31 : IVec S_ 1 := (fun x v => Host.reduce IntOp.andi x v reducesTo_S2x16000000_S_d0_1 h_S_) main_v30 main_c_11
  let main_v32 : IVec S_ 1 := andi main_v28 main_v31
  let main_c_12 : IVec S_ 32 := constantI S_ 32 500000#32
  fn_part2 (F := F) main_arg1 main_v32 main_c_12

def fn {F : FTy → Type} [FloatOps F] (main_arg0 : FVec F S500000x1 .f32) (main_arg1 : IVec S2x16000000 32) (main_arg2 : FVec F S16000000 .f32) (main_arg3 : FVec F S1x16 .f32) (main_arg4 : FVec F S16 .f32) (main_arg5 : FVec F S16x2 .f32) (main_arg6 : FVec F S2 .f32) : IVec S_ 1 :=
  let main_v0 : FVec F S500000x1 .f32 := Host.absf main_arg0
  let main_cst : FVec F S_ .f32 := constant S_ .f32 0x7F800000#32
  let main_v1 : FVec F S500000x1 .f32 := broadcastInDim S500000x1 ![] bcast_S_S500000x1 main_cst
  let main_v2 : IVec S500000x1 1 := cmpf .olt main_v0 main_v1
  let main_c : IVec S_ 1 := constantI S_ 1 1#1
  let main_v3 : IVec S_ 1 := (fun x v => Host.reduce IntOp.andi x v reducesTo_S500000x1_S_d0_1 h_S_) main_v2 main_c
  let main_v4 : FVec F S16000000 .f32 := Host.absf main_arg2
  let main_cst_0 : FVec F S_ .f32 := constant S_ .f32 0x7F800000#32
  let main_v5 : FVec F S16000000 .f32 := broadcastInDim S16000000 ![] bcast_S_S16000000 main_cst_0
  let main_v6 : IVec S16000000 1 := cmpf .olt main_v4 main_v5
  let main_c_1 : IVec S_ 1 := constantI S_ 1 1#1
  let main_v7 : IVec S_ 1 := (fun x v => Host.reduce IntOp.andi x v reducesTo_S16000000_S_d0 h_S_) main_v6 main_c_1
  let main_v8 : IVec S_ 1 := andi main_v3 main_v7
  let main_v9 : FVec F S1x16 .f32 := Host.absf main_arg3
  let main_cst_2 : FVec F S_ .f32 := constant S_ .f32 0x7F800000#32
  let main_v10 : FVec F S1x16 .f32 := broadcastInDim S1x16 ![] bcast_S_S1x16 main_cst_2
  let main_v11 : IVec S1x16 1 := cmpf .olt main_v9 main_v10
  let main_c_3 : IVec S_ 1 := constantI S_ 1 1#1
  let main_v12 : IVec S_ 1 := (fun x v => Host.reduce IntOp.andi x v reducesTo_S1x16_S_d0_1 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg1 main_arg5 main_arg6 main_v13 main_v16
-- ==== Kernel.lean ====
abbrev S500000x1 : Shape := ⟨2, ![500000, 1]⟩
abbrev S2x16000000 : Shape := ⟨2, ![2, 16000000]⟩
abbrev S16000000 : Shape := ⟨1, ![16000000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S1x16000000 : Shape := ⟨2, ![1, 16000000]⟩
abbrev S500000 : Shape := ⟨1, ![500000]⟩
abbrev S16500000 : Shape := ⟨1, ![16500000]⟩
abbrev S_ : Shape := ⟨0, ![]⟩
abbrev S16500000x1 : Shape := ⟨2, ![16500000, 1]⟩
abbrev S500000x16 : Shape := ⟨2, ![500000, 16]⟩
abbrev S4000x1 : Shape := ⟨2, ![4000, 1]⟩
abbrev S4000x16 : Shape := ⟨2, ![4000, 16]⟩
abbrev S1x2 : Shape := ⟨2, ![1, 2]⟩
abbrev S1 : Shape := ⟨1, ![1]⟩
abbrev S1x1 : Shape := ⟨2, ![1, 1]⟩

abbrev nBuf : Space → Nat
  | .hbm => 77
  | .vmem => 14
  | .smem => 0
  | _ => 0

abbrev bufTy : (tb : Table) → Fin (tcTables nBuf tb) → BufTy
  | .hbm, ⟨0, _⟩ => ⟨S500000x1, .f32⟩
  | .hbm, ⟨1, _⟩ => ⟨S2x16000000, .i32⟩
  | .hbm, ⟨2, _⟩ => ⟨S16000000, .f32⟩
  | .hbm, ⟨3, _⟩ => ⟨S1x16, .f32⟩
  | .hbm, ⟨4, _⟩ => ⟨S16, .f32⟩
  | .hbm, ⟨5, _⟩ => ⟨S16x2, .f32⟩
  | .hbm, ⟨6, _⟩ => ⟨S2, .f32⟩
  | .hbm, ⟨7, _⟩ => ⟨S1x16000000, .i32⟩
  | .hbm, ⟨8, _⟩ => ⟨S16000000, .i32⟩
  | .hbm, ⟨9, _⟩ => ⟨S1x16000000, .i32⟩
  | .hbm, ⟨10, _⟩ => ⟨S16000000, .i32⟩
  | .hbm, ⟨11, _⟩ => ⟨S500000, .i32⟩
  | .hbm, ⟨12, _⟩ => ⟨S16500000, .i32⟩
  | .hbm, ⟨13, _⟩ => ⟨S16500000, .i32⟩
  | .hbm, ⟨14, _⟩ => ⟨S_, .f32⟩
  | .hbm, ⟨15, _⟩ => ⟨S500000, .f32⟩
  | .hbm, ⟨16, _⟩ => ⟨S16500000, .f32⟩
  | .hbm, ⟨17, _⟩ => ⟨S_, .f32⟩
  | .hbm, ⟨18, _⟩ => ⟨S500000, .f32⟩
  | .hbm, ⟨19, _⟩ => ⟨S16500000x1, .i32⟩
  | .hbm, ⟨20, _⟩ => ⟨S500000, .f32⟩
  | .hbm, ⟨21, _⟩ => ⟨S_, .f32⟩
  | .hbm, ⟨22, _⟩ => ⟨S500000, .f32⟩
  | .hbm, ⟨23, _⟩ => ⟨S500000, .i1⟩
  | .hbm, ⟨24, _⟩ => ⟨S_, .f32⟩
  | .hbm, ⟨25, _⟩ => ⟨S500000, .f32⟩
  | .hbm, ⟨26, _⟩ => ⟨S500000, .f32⟩
  | .hbm, ⟨27, _⟩ => ⟨S500000, .f32⟩
  | .hbm, ⟨28, _⟩ => ⟨S_, .f32⟩
  | .hbm, ⟨29, _⟩ => ⟨S_, .f32⟩
  | .hbm, ⟨30, _⟩ => ⟨S500000, .f32⟩
  | .hbm, ⟨31, _⟩ => ⟨S500000, .f32⟩
  | .hbm, ⟨32, _⟩ => ⟨S_, .i32⟩
  | .hbm, ⟨33, _⟩ => ⟨S16500000, .i32⟩
  | .hbm, ⟨34, _⟩ => ⟨S16500000, .i1⟩
  | .hbm, ⟨35, _⟩ => ⟨S_, .i32⟩
  | .hbm, ⟨36, _⟩ => ⟨S16500000, .i32⟩
  | .hbm, ⟨37, _⟩ => ⟨S16500000, .i32⟩
  | .hbm, ⟨38, _⟩ => ⟨S16500000, .i32⟩
  | .hbm, ⟨39, _⟩ => ⟨S16500000x1, .i32⟩
  | .hbm, ⟨40, _⟩ => ⟨S16500000, .f32⟩
  | .hbm, ⟨41, _⟩ => ⟨S16500000, .f32⟩
  | .hbm, ⟨42, _⟩ => ⟨S_, .i32⟩
  | .hbm, ⟨43, _⟩ => ⟨S16500000, .i32⟩
  | .hbm, ⟨44, _⟩ => ⟨S16500000, .i1⟩
  | .hbm, ⟨45, _⟩ => ⟨S_, .i32⟩
  | .hbm, ⟨46, _⟩ => ⟨S16500000, .i32⟩
  | .hbm, ⟨47, _⟩ => ⟨S16500000, .i32⟩
  | .hbm, ⟨48, _⟩ => ⟨S16500000, .i32⟩
  | .hbm, ⟨49, _⟩ => ⟨S16500000x1, .i32⟩
  | .hbm, ⟨50, _⟩ => ⟨S16500000, .f32⟩
  | .hbm, ⟨51, _⟩ => ⟨S16500000, .f32⟩
  | .hbm, ⟨52, _⟩ => ⟨S500000, .f32⟩
  | .hbm, ⟨53, _⟩ => ⟨S_, .i32⟩
  | .hbm, ⟨54, _⟩ => ⟨S16500000, .i32⟩
  | .hbm, ⟨55, _⟩ => ⟨S16500000, .i1⟩
  | .hbm, ⟨56, _⟩ => ⟨S_, .i32⟩
  | .hbm, ⟨57, _⟩ => ⟨S16500000, .i32⟩
  | .hbm, ⟨58, _⟩ => ⟨S16500000, .i32⟩
  | .hbm, ⟨59, _⟩ => ⟨S16500000, .i32⟩
  | .hbm, ⟨60, _⟩ => ⟨S16500000x1, .i32⟩
  | .hbm, ⟨61, _⟩ => ⟨S16500000, .f32⟩
  | .hbm, ⟨62, _⟩ => ⟨S16500000, .f32⟩
  | .hbm, ⟨63, _⟩ => ⟨S_, .f32⟩
  | .hbm, ⟨64, _⟩ => ⟨S500000, .f32⟩
  | .hbm, ⟨65, _⟩ => ⟨S16500000x1, .i32⟩
  | .hbm, ⟨66, _⟩ => ⟨S500000, .f32⟩
  | .hbm, ⟨67, _⟩ => ⟨S500000x1, .f32⟩
  | .hbm, ⟨68, _⟩ => ⟨S1x16, .f32⟩
  | .hbm, ⟨69, _⟩ => ⟨S500000x16, .f32⟩
  | .hbm, ⟨70, _⟩ => ⟨S_, .f32⟩
  | .hbm, ⟨71, _⟩ => ⟨S500000, .f32⟩
  | .hbm, ⟨72, _⟩ => ⟨S16500000x1, .i32⟩
  | .hbm, ⟨73, _⟩ => ⟨S500000, .f32⟩
  | .hbm, ⟨74, _⟩ => ⟨S500000x1, .f32⟩
  | .hbm, ⟨75, _⟩ => ⟨S1x2, .f32⟩
  | .hbm, ⟨76, _⟩ => ⟨S1x2, .f32⟩
  | .local _ .vmem, ⟨0, _⟩ => ⟨S4000x1, .f32⟩
  | .local _ .vmem, ⟨1, _⟩ => ⟨S4000x1, .f32⟩
  | .local _ .vmem, ⟨2, _⟩ => ⟨S1x16, .f32⟩
  | .local _ .vmem, ⟨3, _⟩ => ⟨S1x16, .f32⟩
  | .local _ .vmem, ⟨4, _⟩ => ⟨S4000x16, .f32⟩
  | .local _ .vmem, ⟨5, _⟩ => ⟨S4000x16, .f32⟩
  | .local _ .vmem, ⟨6, _⟩ => ⟨S4000x1, .f32⟩
  | .local _ .vmem, ⟨7, _⟩ => ⟨S4000x1, .f32⟩
  | .local _ .vmem, ⟨8, _⟩ => ⟨S4000x16, .f32⟩
  | .local _ .vmem, ⟨9, _⟩ => ⟨S4000x16, .f32⟩
  | .local _ .vmem, ⟨10, _⟩ => ⟨S16x2, .f32⟩
  | .local _ .vmem, ⟨11, _⟩ => ⟨S1x2, .f32⟩
  | .local _ .vmem, ⟨12, _⟩ => ⟨S1x2, .f32⟩
  | .local _ .vmem, ⟨13, _⟩ => ⟨S1x16, .f32⟩
  | _, _ => ⟨S500000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![125], ![false]⟩

def k1_cond2 (i : grid1.Coords) : BitVec 1 :=
  let arg0 : BitVec 32 := BitVec.ofNat 32 (i 0).val
  let c124_i32 : BitVec 32 := 124#32
  let v16 : BitVec 1 := Scalar.cmpi .eq arg0 c124_i32
  let v17 : BitVec 32 := Scalar.extui v16
  let c0_i32_8 : BitVec 32 := 0#32
  let v18 : BitVec 1 := Scalar.cmpi .ne v17 c0_i32_8
  v18

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x2 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S500000_S16500000_d0 : Shape.Concatenates [S16000000, S500000] S16500000 0
  bcast_S_S500000 : S_.BroadcastsInDim S500000 (![] : Fin 0 → Fin S500000.rank)
  bcast_S16500000_S16500000x1_0 : S16500000.BroadcastsInDim S16500000x1 (![0] : Fin 1 → Fin S16500000x1.rank)
  bcast_S_S16500000 : S_.BroadcastsInDim S16500000 (![] : Fin 0 → Fin S16500000.rank)
  shapeCasts_S500000x1_S500000 : S500000x1.ShapeCasts S500000
  shapeCasts_S500000_S500000x1 : S500000.ShapeCasts S500000x1
  shapeCasts_S16_S1x16 : S16.ShapeCasts S1x16
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S4000x1_S4000x16 : S4000x1.Broadcasts S4000x16
  broadcasts_S1x16_S4000x16 : S1x16.Broadcasts S4000x16
  inb_S4000x16_S4000x16_0_0 : ∀ a, (![0, 0] : Fin 2 → Nat) a + S4000x16.size a ≤ S4000x16.size a
  h_S4000x16 : 0 < S4000x16.numel
  shapeCasts_S2_S1x2 : S2.ShapeCasts S1x2
  shapeCasts_S4000x16_S4000x16 : S4000x16.ShapeCasts S4000x16
  reduces_S4000x16_S16 : S4000x16.Reduces [0] S16
  inb_S16x2_S16x2_0_0 : ∀ a, (![0, 0] : Fin 2 → Nat) a + S16x2.size a ≤ S16x2.size a
  h_S16x2 : 0 < S16x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  reduces_S1x2_S1 : S1x2.Reduces [1] S1
  shapeCasts_S1_S1x1 : S1.ShapeCasts S1x1
  broadcasts_S1x1_S1x2 : S1x1.Broadcasts S1x2
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S1x16_S16x2_S1x2_1_0_0_1_n_n_wf : DotDims.WF S1x16 S16x2 S1x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x1.size a ≤ S500000x1.size a
  hwx0_0 : ∀ i : grid0.Coords, EltTy.bits .f32 = 32 ∨ (Rect.block (s := S500000x1) S4000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x16.size a ≤ S1x16.size a
  hwx0_1 : ∀ i : grid0.Coords, EltTy.bits .f32 = 32 ∨ (Rect.block (s := S1x16) S1x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x16.size a ≤ S500000x16.size a
  hwx0_3 : ∀ i : grid0.Coords, EltTy.bits .f32 = 32 ∨ (Rect.block (s := S500000x16) S4000x16.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x1.size a ≤ S500000x1.size a
  hwx1_0 : ∀ i : grid1.Coords, EltTy.bits .f32 = 32 ∨ (Rect.block (s := S500000x1) S4000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x16.size a ≤ S500000x16.size a
  hwx1_1 : ∀ i : grid1.Coords, EltTy.bits .f32 = 32 ∨ (Rect.block (s := S500000x16) S4000x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x2.size a ≤ S16x2.size a
  hwx1_2 : ∀ i : grid1.Coords, EltTy.bits .f32 = 32 ∨ (Rect.block (s := S16x2) S16x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x2.size a ≤ S1x2.size a
  hwx1_3 : ∀ i : grid1.Coords, EltTy.bits .f32 = 32 ∨ (Rect.block (s := S1x2) S1x2.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x2.size a ≤ S1x2.size a
  hwx1_4 : ∀ i : grid1.Coords, EltTy.bits .f32 = 32 ∨ (Rect.block (s := S1x2) S1x2.size (cc1_transform_4 i) (hinb1_4 i)).WholeWords (EltTy.packing .f32)

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S1x16_S16x2_S1x2_1_0_0_1_n_n : DotDims S1x16 S16x2 S1x2 where
  lhsContracting := [1]
  rhsContracting := [0]
  lhsNonContracting := [0]
  rhsNonContracting := [1]
  lhsBatch := []
  rhsBatch := []
  wf := dot_S1x16_S16x2_S1x2_1_0_0_1_n_n_wf

abbrev win0_0 : Pipeline.Window sig grid0 :=
  Pipeline.Window.ofSpec (Memref.whole main_v46) S4000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v47) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v48) S4000x16.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v52) S4000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S4000x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S16x2.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v54) S1x2.size cc1_transform_4 reads1_4 true true 1 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

class Facts : Prop extends Facts₀ where

variable [Facts]
-- ==== ReferenceIdeal.lean ====
abbrev S500000x1 : Shape := ⟨2, ![500000, 1]⟩
abbrev S2x16000000 : Shape := ⟨2, ![2, 16000000]⟩
abbrev S16000000 : Shape := ⟨1, ![16000000]⟩
abbrev S1x16 : Shape := ⟨2, ![1, 16]⟩
abbrev S16 : Shape := ⟨1, ![16]⟩
abbrev S16x2 : Shape := ⟨2, ![16, 2]⟩
abbrev S2 : Shape := ⟨1, ![2]⟩
abbrev S1x16000000 : Shape := ⟨2, ![1, 16000000]⟩
abbrev S500000 : Shape := ⟨1, ![500000]⟩
abbrev S16500000 : Shape := ⟨1, ![16500000]⟩
abbrev S_ : Shape := ⟨0, ![]⟩
abbrev S16500000x1 : Shape := ⟨2, ![16500000, 1]⟩
abbrev S500000x16 : Shape := ⟨2, ![500000, 16]⟩
abbrev S16500000x16 : Shape := ⟨2, ![16500000, 16]⟩
abbrev S500000x2 : Shape := ⟨2, ![500000, 2]⟩
abbrev S16500000x2 : Shape := ⟨2, ![16500000, 2]⟩
abbrev S1x2 : Shape := ⟨2, ![1, 2]⟩
abbrev S1 : Shape := ⟨1, ![1]⟩
abbrev S1x1 : Shape := ⟨2, ![1, 1]⟩

abbrev nBuf : Space → Nat
  | .hbm => 153
  | .vmem => 0
  | .smem => 0
  | _ => 0

abbrev hbmTy0_0 (i : Nat) : BufTy := match i % 128 with
  | 0 => ⟨S500000x1, .f32⟩
  | 1 => ⟨S2x16000000, .i32⟩
  | 2 => ⟨S16000000, .f32⟩
  | 3 => ⟨S1x16, .f32⟩
  | 4 => ⟨S16, .f32⟩
  | 5 => ⟨S16x2, .f32⟩
  | 6 => ⟨S2, .f32⟩
  | 7 => ⟨S1x16000000, .i32⟩
  | 8 => ⟨S16000000, .i32⟩
  | 9 => ⟨S1x16000000, .i32⟩
  | 10 => ⟨S16000000, .i32⟩
  | 11 => ⟨S500000, .i32⟩
  | 12 => ⟨S16500000, .i32⟩
  | 13 => ⟨S16500000, .i32⟩
  | 14 => ⟨S_, .f32⟩
  | 15 => ⟨S500000, .f32⟩
  | 16 => ⟨S16500000, .f32⟩
  | 17 => ⟨S_, .f32⟩
  | 18 => ⟨S500000, .f32⟩
  | 19 => ⟨S16500000x1, .i32⟩
  | 20 => ⟨S500000, .f32⟩
  | 21 => ⟨S_, .f32⟩
  | 22 => ⟨S500000, .f32⟩
  | 23 => ⟨S500000, .i1⟩
  | 24 => ⟨S_, .f32⟩
  | 25 => ⟨S500000, .f32⟩
  | 26 => ⟨S500000, .f32⟩
  | 27 => ⟨S500000, .f32⟩
  | 28 => ⟨S_, .f32⟩
  | 29 => ⟨S_, .f32⟩
  | 30 => ⟨S500000, .f32⟩
  | 31 => ⟨S500000, .f32⟩
  | 32 => ⟨S_, .i32⟩
  | 33 => ⟨S16500000, .i32⟩
  | 34 => ⟨S16500000, .i1⟩
  | 35 => ⟨S_, .i32⟩
  | 36 => ⟨S16500000, .i32⟩
  | 37 => ⟨S16500000, .i32⟩
  | 38 => ⟨S16500000, .i32⟩
  | 39 => ⟨S16500000x1, .i32⟩
  | 40 => ⟨S16500000, .f32⟩
  | 41 => ⟨S16500000, .f32⟩
  | 42 => ⟨S_, .i32⟩
  | 43 => ⟨S16500000, .i32⟩
  | 44 => ⟨S16500000, .i1⟩
  | 45 => ⟨S_, .i32⟩
  | 46 => ⟨S16500000, .i32⟩
  | 47 => ⟨S16500000, .i32⟩
  | 48 => ⟨S16500000, .i32⟩
  | 49 => ⟨S16500000x1, .i32⟩
  | 50 => ⟨S16500000, .f32⟩
  | 51 => ⟨S16500000, .f32⟩
  | 52 => ⟨S500000x16, .f32⟩
  | 53 => ⟨S_, .i32⟩
  | 54 => ⟨S16500000, .i32⟩
  | 55 => ⟨S16500000, .i1⟩
  | 56 => ⟨S_, .i32⟩
  | 57 => ⟨S16500000, .i32⟩
  | 58 => ⟨S16500000, .i32⟩
  | 59 => ⟨S16500000, .i32⟩
  | 60 => ⟨S16500000x1, .i32⟩
  | 61 => ⟨S16500000x16, .f32⟩
  | 62 => ⟨S16500000x1, .f32⟩
  | 63 => ⟨S16500000x16, .f32⟩
  | 64 => ⟨S16500000x16, .f32⟩
  | 65 => ⟨S_, .f32⟩
  | 66 => ⟨S500000x16, .f32⟩
  | 67 => ⟨S16500000x1, .i32⟩
  | 68 => ⟨S500000x16, .f32⟩
  | 69 => ⟨S1x16, .f32⟩
  | 70 => ⟨S500000x16, .f32⟩
  | 71 => ⟨S500000x16, .f32⟩
  | 72 => ⟨S_, .f32⟩
  | 73 => ⟨S500000x16, .f32⟩
  | 74 => ⟨S500000x16, .f32⟩
  | 75 => ⟨S500000, .i32⟩
  | 76 => ⟨S16500000, .i32⟩
  | 77 => ⟨S16500000, .i32⟩
  | 78 => ⟨S_, .f32⟩
  | 79 => ⟨S500000, .f32⟩
  | 80 => ⟨S16500000, .f32⟩
  | 81 => ⟨S_, .f32⟩
  | 82 => ⟨S500000, .f32⟩
  | 83 => ⟨S16500000x1, .i32⟩
  | 84 => ⟨S500000, .f32⟩
  | 85 => ⟨S_, .f32⟩
  | 86 => ⟨S500000, .f32⟩
  | 87 => ⟨S500000, .i1⟩
  | 88 => ⟨S_, .f32⟩
  | 89 => ⟨S500000, .f32⟩
  | 90 => ⟨S500000, .f32⟩
  | 91 => ⟨S500000, .f32⟩
  | 92 => ⟨S_, .f32⟩
  | 93 => ⟨S_, .f32⟩
  | 94 => ⟨S500000, .f32⟩
  | 95 => ⟨S500000, .f32⟩
  | 96 => ⟨S_, .i32⟩
  | 97 => ⟨S16500000, .i32⟩
  | 98 => ⟨S16500000, .i1⟩
  | 99 => ⟨S_, .i32⟩
  | 100 => ⟨S16500000, .i32⟩
  | 101 => ⟨S16500000, .i32⟩
  | 102 => ⟨S16500000, .i32⟩
  | 103 => ⟨S16500000x1, .i32⟩
  | 104 => ⟨S16500000, .f32⟩
  | 105 => ⟨S16500000, .f32⟩
  | 106 => ⟨S_, .i32⟩
  | 107 => ⟨S16500000, .i32⟩
  | 108 => ⟨S16500000, .i1⟩
  | 109 => ⟨S_, .i32⟩
  | 110 => ⟨S16500000, .i32⟩
  | 111 => ⟨S16500000, .i32⟩
  | 112 => ⟨S16500000, .i32⟩
  | 113 => ⟨S16500000x1, .i32⟩
  | 114 => ⟨S16500000, .f32⟩
  | 115 => ⟨S16500000, .f32⟩
  | 116 => ⟨S500000x2, .f32⟩
  | 117 => ⟨S_, .i32⟩
  | 118 => ⟨S16500000, .i32⟩
  | 119 => ⟨S16500000, .i1⟩
  | 120 => ⟨S_, .i32⟩
  | 121 => ⟨S16500000, .i32⟩
  | 122 => ⟨S16500000, .i32⟩
  | 123 => ⟨S16500000, .i32⟩
  | 124 => ⟨S16500000x1, .i32⟩
  | 125 => ⟨S16500000x2, .f32⟩
  | 126 => ⟨S16500000x1, .f32⟩
  | 127 => ⟨S16500000x2, .f32⟩
  | _ => ⟨S500000x1, .f32⟩

abbrev hbmTy0_1 (i : Nat) : BufTy := match i % 128 with
  | 0 => ⟨S16500000x2, .f32⟩
  | 1 => ⟨S_, .f32⟩
  | 2 => ⟨S500000x2, .f32⟩
  | 3 => ⟨S16500000x1, .i32⟩
  | 4 => ⟨S500000x2, .f32⟩
  | 5 => ⟨S1x2, .f32⟩
  | 6 => ⟨S500000x2, .f32⟩
  | 7 => ⟨S500000x2, .f32⟩
  | 8 => ⟨S_, .f32⟩
  | 9 => ⟨S2, .f32⟩
  | 10 => ⟨S1x2, .f32⟩
  | 11 => ⟨S_, .f32⟩
  | 12 => ⟨S1, .f32⟩
  | 13 => ⟨S_, .f32⟩
  | 14 => ⟨S1, .f32⟩
  | 15 => ⟨S1, .f32⟩
  | 16 => ⟨S1x1, .f32⟩
  | 17 => ⟨S1x2, .f32⟩
  | 18 => ⟨S1x2, .f32⟩
  | 19 => ⟨S1x2, .f32⟩
  | 20 => ⟨S_, .f32⟩
  | 21 => ⟨S1, .f32⟩
  | 22 => ⟨S1x1, .f32⟩
  | 23 => ⟨S1x2, .f32⟩
  | 24 => ⟨S1x2, .f32⟩
  | _ => ⟨S500000x1, .f32⟩

abbrev hbmTy (i : Nat) : BufTy := match i / 128 with
  | 0 => hbmTy0_0 i
  | 1 => hbmTy0_1 i
  | _ => ⟨S500000x1, .f32⟩

abbrev bufTy : (tb : Table) → Fin (tcTables nBuf tb) → BufTy
  | .hbm, ⟨i, _⟩ => hbmTy i
  | _, _ => ⟨S500000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_c_5 : Ref sig .tc := ⟨.hbm, 42, rfl⟩
abbrev main_v26 : Ref sig .tc := ⟨.hbm, 43, rfl⟩
abbrev main_v27 : Ref sig .tc := ⟨.hbm, 44, rfl⟩
abbrev main_c_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_c_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_call1_cst : Ref sig .tc := ⟨.hbm, 72, rfl⟩
abbrev main_call1_v0 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_cst_11 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_12 : Ref sig .tc := ⟨.hbm, 85, rfl⟩
abbrev main_v60 : Ref sig .tc := ⟨.hbm, 86, rfl⟩
abbrev main_v61 : Ref sig .tc := ⟨.hbm, 87, rfl⟩
abbrev main_cst_13 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_14 : Ref sig .tc := ⟨.hbm, 92, rfl⟩
abbrev main_call2_v0 : Ref sig .tc := ⟨.hbm, 93, rfl⟩
abbrev main_call2_v1 : Ref sig .tc := ⟨.hbm, 94, rfl⟩
abbrev main_v65 : Ref sig .tc := ⟨.hbm, 95, rfl⟩
abbrev main_c_15 : Ref sig .tc := ⟨.hbm, 96, rfl⟩
abbrev main_v66 : Ref sig .tc := ⟨.hbm, 97, rfl⟩
abbrev main_v67 : Ref sig .tc := ⟨.hbm, 98, rfl⟩
abbrev main_c_16 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_c_17 : Ref sig .tc := ⟨.hbm, 106, rfl⟩
abbrev main_v74 : Ref sig .tc := ⟨.hbm, 107, rfl⟩
abbrev main_v75 : Ref sig .tc := ⟨.hbm, 108, rfl⟩
abbrev main_c_18 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_19 : Ref sig .tc := ⟨.hbm, 117, rfl⟩
abbrev main_v83 : Ref sig .tc := ⟨.hbm, 118, rfl⟩
abbrev main_v84 : Ref sig .tc := ⟨.hbm, 119, rfl⟩
abbrev main_c_20 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_21 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_cst_22 : Ref sig .tc := ⟨.hbm, 136, rfl⟩
abbrev main_v99 : Ref sig .tc := ⟨.hbm, 137, rfl⟩
abbrev main_v100 : Ref sig .tc := ⟨.hbm, 138, rfl⟩
abbrev main_cst_23 : Ref sig .tc := ⟨.hbm, 139, rfl⟩
abbrev main_v101 : Ref sig .tc := ⟨.hbm, 140, rfl⟩
abbrev main_cst_24 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_25 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩

abbrev nD : Nat := 1
abbrev τ : Topo := Topo.v7x

variable {F : FTy → Type} [FloatOps F]

class Facts₀ : Prop where
  slices_S2x16000000_S1x16000000_0_0 : S2x16000000.Slices ![0, 0] S1x16000000
  shapeCasts_S1x16000000_S16000000 : S1x16000000.ShapeCasts S16000000
  slices_S2x16000000_S1x16000000_1_0 : S2x16000000.Slices ![1, 0] S1x16000000
  concatenates_S16000000_S500000_S16500000_d0 : Shape.Concatenates [S16000000, S500000] S16500000 0
  bcast_S_S500000 : S_.BroadcastsInDim S500000 (![] : Fin 0 → Fin S500000.rank)
  bcast_S16500000_S16500000x1_0 : S16500000.BroadcastsInDim S16500000x1 (![0] : Fin 1 → Fin S16500000x1.rank)
  bcast_S_S16500000 : S_.BroadcastsInDim S16500000 (![] : Fin 0 → Fin S16500000.rank)
  bcast_S16500000x1_S16500000x16_0_1 : S16500000x1.BroadcastsInDim S16500000x16 (![0, 1] : Fin 2 → Fin S16500000x16.rank)
  bcast_S_S500000x16 : S_.BroadcastsInDim S500000x16 (![] : Fin 0 → Fin S500000x16.rank)
  bcast_S16_S1x16_1 : S16.BroadcastsInDim S1x16 (![1] : Fin 1 → Fin S1x16.rank)
  bcast_S1x16_S500000x16_0_1 : S1x16.BroadcastsInDim S500000x16 (![0, 1] : Fin 2 → Fin S500000x16.rank)
  bcast_S16500000x1_S16500000x2_0_1 : S16500000x1.BroadcastsInDim S16500000x2 (![0, 1] : Fin 2 → Fin S16500000x2.rank)
  bcast_S_S500000x2 : S_.BroadcastsInDim S500000x2 (![] : Fin 0 → Fin S500000x2.rank)
  bcast_S2_S1x2_1 : S2.BroadcastsInDim S1x2 (![1] : Fin 1 → Fin S1x2.rank)
  bcast_S1x2_S500000x2_0_1 : S1x2.BroadcastsInDim S500000x2 (![0, 1] : Fin 2 → Fin S500000x2.rank)
  reducesTo_S500000x2_S2_d0 : S500000x2.ReducesTo [0] S2
  h_S_ : 0 < S_.numel
  reducesTo_S1x2_S1_d1 : S1x2.ReducesTo [1] S1
  bcast_S_S1 : S_.BroadcastsInDim S1 (![] : Fin 0 → Fin S1.rank)
  bcast_S1_S1x1_0 : S1.BroadcastsInDim S1x1 (![0] : Fin 1 → Fin S1x1.rank)
  bcast_S1x1_S1x2_0_1 : S1x1.BroadcastsInDim S1x2 (![0, 1] : Fin 2 → Fin S1x2.rank)
  scatter_S500000_S16500000x1_S16500000_n_0_0_1_wf : ScatterDims.WF S500000 S16500000x1 S16500000 [] [0] [0] 1
  gather_S500000_S16500000x1_S16500000_n_0_n_n_0_1_1_wf : GatherDims.WF S500000 S16500000x1 S16500000 [] [0] [] [0] [] 1 ![1]
  dot_S500000x1_S1x16_S500000x16_1_0_0_1_n_n_wf : DotDims.WF S500000x1 S1x16 S500000x16 [1] [0] [0] [1] [] []
  gather_S500000x16_S16500000x1_S16500000x16_1_0_n_n_0_1_116_wf : GatherDims.WF S500000x16 S16500000x1 S16500000x16 [1] [0] [] [0] [] 1 ![1, 16]
  scatter_S500000x16_S16500000x1_S16500000x16_1_0_0_1_wf : ScatterDims.WF S500000x16 S16500000x1 S16500000x16 [1] [0] [0] 1
  dot_S500000x16_S16x2_S500000x2_1_0_0_1_n_n_wf : DotDims.WF S500000x16 S16x2 S500000x2 [1] [0] [0] [1] [] []
  gather_S500000x2_S16500000x1_S16500000x2_1_0_n_n_0_1_12_wf : GatherDims.WF S500000x2 S16500000x1 S16500000x2 [1] [0] [] [0] [] 1 ![1, 2]
  scatter_S500000x2_S16500000x1_S16500000x2_1_0_0_1_wf : ScatterDims.WF S500000x2 S16500000x1 S16500000x2 [1] [0] [0] 1

variable [Facts₀]

def scatter_S500000_S16500000x1_S16500000_n_0_0_1 : ScatterDims S500000 S16500000x1 S16500000 where
  updateWindowDims := []
  insertedWindowDims := [0]
  scatterDimsToOperandDims := [0]
  indexVectorDim := 1
  wf := scatter_S500000_S16500000x1_S16500000_n_0_0_1_wf
def gather_S500000_S16500000x1_S16500000_n_0_n_n_0_1_1 : GatherDims S500000 S16500000x1 S16500000 where
  offsetDims := []
  collapsedSliceDims := [0]
  operandBatchingDims := []
  startIndicesBatchingDims := []
  startIndexMap := [0]
  indexVectorDim := 1
  sliceSizes := ![1]
  wf := gather_S500000_S16500000x1_S16500000_n_0_n_n_0_1_1_wf
def dot_S500000x1_S1x16_S500000x16_1_0_0_1_n_n : DotDims S500000x1 S1x16 S500000x16 where
  lhsContracting := [1]
  rhsContracting := [0]
  lhsNonContracting := [0]
  rhsNonContracting := [1]
  lhsBatch := []
  rhsBatch := []
  wf := dot_S500000x1_S1x16_S500000x16_1_0_0_1_n_n_wf
def gather_S500000x16_S16500000x1_S16500000x16_1_0_n_n_0_1_116 : GatherDims S500000x16 S16500000x1 S16500000x16 where
  offsetDims := [1]
  collapsedSliceDims := [0]
  operandBatchingDims := []
  startIndicesBatchingDims := []
  startIndexMap := [0]
  indexVectorDim := 1
  sliceSizes := ![1, 16]
  wf := gather_S500000x16_S16500000x1_S16500000x16_1_0_n_n_0_1_116_wf
def scatter_S500000x16_S16500000x1_S16500000x16_1_0_0_1 : ScatterDims S500000x16 S16500000x1 S16500000x16 where
  updateWindowDims := [1]
  insertedWindowDims := [0]
  scatterDimsToOperandDims := [0]
  indexVectorDim := 1
  wf := scatter_S500000x16_S16500000x1_S16500000x16_1_0_0_1_wf
def dot_S500000x16_S16x2_S500000x2_1_0_0_1_n_n : DotDims S500000x16 S16x2 S500000x2 where
  lhsContracting := [1]
  rhsContracting := [0]
  lhsNonContracting := [0]
  rhsNonContracting := [1]
  lhsBatch := []
  rhsBatch := []
  wf := dot_S500000x16_S16x2_S500000x2_1_0_0_1_n_n_wf
def gather_S500000x2_S16500000x1_S16500000x2_1_0_n_n_0_1_12 : GatherDims S500000x2 S16500000x1 S16500000x2 where
  offsetDims := [1]
  collapsedSliceDims := [0]
  operandBatchingDims := []
  startIndicesBatchingDims := []
  startIndexMap := [0]
  indexVectorDim := 1
  sliceSizes := ![1, 2]
  wf := gather_S500000x2_S16500000x1_S16500000x2_1_0_n_n_0_1_12_wf
def scatter_S500000x2_S16500000x1_S16500000x2_1_0_0_1 : ScatterDims S500000x2 S16500000x1 S16500000x2 where
  updateWindowDims := [1]
  insertedWindowDims := [0]
  scatterDimsToOperandDims := [0]
  indexVectorDim := 1
  wf := scatter_S500000x2_S16500000x1_S16500000x2_1_0_0_1_wf

class Facts : Prop extends Facts₀ where

variable [Facts]
-- ==== Proof.KFrame0.lean ====
import proofs.«136975_j63797444214872_2_alg».proof.Proof.Gen.Kernel.Launch
import proofs.«136975_j63797444214872_2_alg».proof.Proof.Gen.Kernel.Skeleton
import proofs.«136975_j63797444214872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first kernel region: the node-wise layer

At grid point `t` the body reads rows `4000 t … 4000 t + 3999` of the scalar aggregate (a `[4000, 1]` block), the
`[1, 16]` weight row and the `[1, 16]` bias row, and stores one `[4000, 16]` block of hidden features, a pointwise
function of the three blocks. Nothing is kept between points: what the output's buffer holds after the body is a
function of the point's input blocks alone, and every input's buffer holds its block at every point.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole `[4000, 1]`, `[1, 16]` and `[4000, 16]` rectangles the body loads and stores through. -/
abbrev rA : Rect S4000x1 := Rect.unit (s := S4000x1) ![0, 0] S4000x1.size inb_S4000x1_S4000x1_0_0
abbrev rW : Rect S1x16 := Rect.unit (s := S1x16) ![0, 0] S1x16.size inb_S1x16_S1x16_0_0
abbrev rO : Rect S4000x16 := Rect.unit (s := S4000x16) ![0, 0] S4000x16.size inb_S4000x16_S4000x16_0_0

/-- The output's buffer after the body: its one store over the three input blocks. -/
def out0_3 (x0 : Vec F S4000x1 .f32) (x1 : Vec F S1x16 .f32) (x2 : Vec F S1x16 .f32) : Vec F S4000x16 .f32 :=
  View.canon [⟨rO, k0_pay1 (View.ld x0 rA) (View.ld x1 rW) (View.ld x2 rW)⟩]

/-- The store covers the buffer. -/
theorem cover0_3 (p0 : Vec F S4000x16 .f32) (y : S4000x16.Idx) :
    ∃ pc ∈ ([⟨rO, p0⟩] : List (View.Piece (Elt F) S4000x16 .f32)), y ∈ pc.1.set :=
  View.cover_of_tiled [⟨rO, p0⟩] S4000x16.size (by rfl) y

set_option maxHeartbeats 1000000 in
/-- The body on whole staging memrefs: the inputs are left as found and the output holds `out0_3` of them. -/
theorem sound_kernel0 (c : Dev nD) (E : Set ℕ) (i : grid0.Coords) (arg1 : Memref sig .tc .vmem S4000x1 .f32) (harg1 : arg1.IsWhole)
    (arg2 : Memref sig .tc .vmem S1x16 .f32) (harg2 : arg2.IsWhole) (arg3 : Memref sig .tc .vmem S1x16 .f32) (harg3 : arg3.IsWhole)
    (arg4 : Memref sig .tc .vmem S4000x16 .f32) (harg4 : arg4.IsWhole)
    (x0 : Vec F S4000x1 .f32) (x1 : Vec F S1x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__layer1_kernel i arg1 harg1 arg2 harg2 arg3 harg3 arg4 harg4) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as found; after the body at point `t` every input's buffer at its
    block and the output's at `out0_3` of the input blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KFrame1a.lean ====
import proofs.«136975_j63797444214872_2_alg».proof.Proof.Gen.Kernel.Launch
import proofs.«136975_j63797444214872_2_alg».proof.Proof.Gen.Kernel.Skeleton
import proofs.«136975_j63797444214872_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second kernel region, case by case: the weighted node reduction

At grid point `t` the body reads rows `4000 t … 4000 t + 3999` of the per-node weights (`[4000, 1]`) and of the hidden
features (`[4000, 16]`), and keeps a `[1, 16]` accumulator between points: at the first point it is reset to zero, at
every point the column sums of weight times feature are added to it, and at the last point the `[1, 2]` result — the
soft maximum of accumulator times the `[16, 2]` matrix plus 500000 times the `[1, 2]` bias — is stored. The two
branch conditions depend on the grid coordinate alone, so over the 125 points there are three cases: the first
point, the points between, the last point. This module runs the body once per case.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- "This is the first point": the reset of the accumulator is taken. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- "This is the last point": the result is computed and stored. -/
abbrev cond1_1 (i : grid1.Coords) : Prop := k1_cond2 i = 1#1
theorem hcond1_1 : ∀ t : Fin cfg1.N, cond1_1 (grid1.coords t) ↔ t.val = 124 :=
  (by decide +kernel : ∀ t : Fin grid1.N, cond1_1 (grid1.coords t) ↔ t.val = 124)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- The result window is idle, and not written back, at every point but the last. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S1x2 .f32 := (Memref.whole cc1_stg4_0 : Memref sig .tc .vmem S1x2 .f32).view
abbrev ms1_0 (t : Fin cfg1.N) : Memref sig .tc .vmem S4000x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1x16 .f32 := Memref.whole cc1_scratch0
abbrev VS1 : View sig .tc .vmem S1x16 .f32 := scM1.view

/-! ## The body, once per case -/

set_option maxHeartbeats 1000000 in
/-- THE FIRST POINT: the accumulator, at anything, is reset and then added to; the result window is handed back
    untouched. The pieces the accumulator ends with are found by the run. -/
noncomputable def kernelRun1_A (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : cond1_0 i) (hc1 : ¬cond1_1 i)
    (x0 : Vec F S4000x1 .f32) (x1 : Vec F S4000x16 .f32) (x2 : Vec F S16x2 .f32) (x3 : Vec F S1x2 .f32) :
    { LS : List (View.Piece (Elt F) S1x16 .f32) //
      ∀ (xi4 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc1__kernel i arg1 harg1 arg2 harg2 arg3 harg3 arg4 harg4 arg5 harg5 arg6 harg6) K } := by
  refine ⟨?_, fun xi4 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 1000000 in
/-- A POINT BETWEEN: the accumulator, at what the point before left, is added to; the result window is handed back
    untouched. -/
noncomputable def kernelRun1_B (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : ¬cond1_1 i)
    (x0 : Vec F S4000x1 .f32) (x1 : Vec F S4000x16 .f32) (x2 : Vec F S16x2 .f32) (x3 : Vec F S1x2 .f32) (xs : Vec F S1x16 .f32) :
    { LS : List (View.Piece (Elt F) S1x16 .f32) //
      ∀ (xi4 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc1__kernel i arg1 harg1 arg2 harg2 arg3 harg3 arg4 harg4 arg5 harg5 arg6 harg6) K } := by
  refine ⟨?_, fun xi4 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 1000000 in
/-- THE LAST POINT: the accumulator is added to and the result, computed from it, stored into the result window. -/
noncomputable def kernelRun1_C (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i)
    (x0 : Vec F S4000x1 .f32) (x1 : Vec F S4000x16 .f32) (x2 : Vec F S16x2 .f32) (x3 : Vec F S1x2 .f32) (xs : Vec F S1x16 .f32) :
    Σ' (L4 : List (View.Piece (Elt F) S1x2 .f32)), { LS : List (View.Piece (Elt F) S1x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc1__kernel i arg1 harg1 arg2 harg2 arg3 harg3 arg4 harg4 arg5 harg5 arg6 harg6) K } := by
  refine ⟨?_, ?_, fun E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.Kernel.Hand

end
-- ==== Proof.KFrame1b.lean ====
import proofs.«136975_j63797444214872_2_alg».proof.Proof.KFrame1a

/-!
# The second kernel region: what is held point by point, and the body obligation

After point `t` the accumulator holds the first `t + 1` blocks' weighted column sums (a recursion on the point: the
first point's case, then the between case over what the point before left); the result window holds the stored
result after the last point and is idle before. Between points the region's invariant is the kernel's scoped
buffers that no window stages, with the accumulator at exactly that content.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : cond1_0 i) (hc1 : ¬cond1_1 i) (x0 : Vec F S4000x1 .f32) (x1 : Vec F S4000x16 .f32) (x2 : Vec F S16x2 .f32) (x3 : Vec F S1x2 .f32) (y : S1x16.Idx) :
    ∃ pc ∈ (kernelRun1_A (F := F) c i arg1 harg1 arg2 harg2 arg3 harg3 arg4 harg4 arg5 harg5 arg6 harg6 hc0 hc1 x0 x1 x2 x3).1, y ∈ pc.1.set :=
  View.cover_of_tiledL (kernelRun1_A (F := F) c i arg1 harg1 arg2 harg2 arg3 harg3 arg4 harg4 arg5 harg5 arg6 harg6 hc0 hc1 x0 x1 x2 x3).1 S1x16.size (by sl_kernel_rfl) y
/-- The accumulator after the first point. -/
def sout1_A (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : cond1_0 i) (hc1 : ¬cond1_1 i) (x0 : Vec F S4000x1 .f32) (x1 : Vec F S4000x16 .f32) (x2 : Vec F S16x2 .f32) (x3 : Vec F S1x2 .f32) : Vec F S1x16 .f32 :=
  VS1.read (Elt F) (VS1.writes (Elt F) VS1.junk (kernelRun1_A (F := F) c i arg1 harg1 arg2 harg2 arg3 harg3 arg4 harg4 arg5 harg5 arg6 harg6 hc0 hc1 x0 x1 x2 x3).1)

theorem scover1_B (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : ¬cond1_1 i) (x0 : Vec F S4000x1 .f32) (x1 : Vec F S4000x16 .f32) (x2 : Vec F S16x2 .f32) (x3 : Vec F S1x2 .f32) (xs : Vec F S1x16 .f32) (y : S1x16.Idx) :
    ∃ pc ∈ (kernelRun1_B (F := F) c i arg1 harg1 arg2 harg2 arg3 harg3 arg4 harg4 arg5 harg5 arg6 harg6 hc0 hc1 x0 x1 x2 x3 xs).1, y ∈ pc.1.set :=
  View.cover_of_tiledL (kernelRun1_B (F := F) c i arg1 harg1 arg2 harg2 arg3 harg3 arg4 harg4 arg5 harg5 arg6 harg6 hc0 hc1 x0 x1 x2 x3 xs).1 S1x16.size (by sl_kernel_rfl) y
/-- The accumulator after a point between, over what the point before left. -/
def sout1_B (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : ¬cond1_1 i) (x0 : Vec F S4000x1 .f32) (x1 : Vec F S4000x16 .f32) (x2 : Vec F S16x2 .f32) (x3 : Vec F S1x2 .f32) (xs : Vec F S1x16 .f32) : Vec F S1x16 .f32 :=
  VS1.read (Elt F) (VS1.writes (Elt F) VS1.junk (kernelRun1_B (F := F) c i arg1 harg1 arg2 harg2 arg3 harg3 arg4 harg4 arg5 harg5 arg6 harg6 hc0 hc1 x0 x1 x2 x3 xs).1)

theorem cover1_C_4 (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i) (x0 : Vec F S4000x1 .f32) (x1 : Vec F S4000x16 .f32) (x2 : Vec F S16x2 .f32) (x3 : Vec F S1x2 .f32) (xs : Vec F S1x16 .f32) (y : S1x2.Idx) :
    ∃ pc ∈ (kernelRun1_C (F := F) c i arg1 harg1 arg2 harg2 arg3 harg3 arg4 harg4 arg5 harg5 arg6 harg6 hc0 hc1 x0 x1 x2 x3 xs).1, y ∈ pc.1.set :=
  View.cover_of_tiledL (kernelRun1_C (F := F) c i arg1 harg1 arg2 harg2 arg3 harg3 arg4 harg4 arg5 harg5 arg6 harg6 hc0 hc1 x0 x1 x2 x3 xs).1 S1x2.size (by sl_kernel_rfl) y
/-- The result window after the last point. -/
def out1_C_4 (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i) (x0 : Vec F S4000x1 .f32) (x1 : Vec F S4000x16 .f32) (x2 : Vec F S16x2 .f32) (x3 : Vec F S1x2 .f32) (xs : Vec F S1x16 .f32) : Vec F S1x2 .f32 :=
  VO1_4.read (Elt F) (VO1_4.writes (Elt F) VO1_4.junk (kernelRun1_C (F := F) c i arg1 harg1 arg2 harg2 arg3 harg3 arg4 harg4 arg5 harg5 arg6 harg6 hc0 hc1 x0 x1 x2 x3 xs).1)
theorem scover1_C (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i) (x0 : Vec F S4000x1 .f32) (x1 : Vec F S4000x16 .f32) (x2 : Vec F S16x2 .f32) (x3 : Vec F S1x2 .f32) (xs : Vec F S1x16 .f32) (y : S1x16.Idx) :
    ∃ pc ∈ (kernelRun1_C (F := F) c i arg1 harg1 arg2 harg2 arg3 harg3 arg4 harg4 arg5 harg5 arg6 harg6 hc0 hc1 x0 x1 x2 x3 xs).2.1, y ∈ pc.1.set :=
  View.cover_of_tiledL (kernelRun1_C (F := F) c i arg1 harg1 arg2 harg2 arg3 harg3 arg4 harg4 arg5 harg5 arg6 harg6 hc0 hc1 x0 x1 x2 x3 xs).2.1 S1x16.size (by sl_kernel_rfl) y
/-- The accumulator after the last point. -/
def sout1_C (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i) (x0 : Vec F S4000x1 .f32) (x1 : Vec F S4000x16 .f32) (x2 : Vec F S16x2 .f32) (x3 : Vec F S1x2 .f32) (xs : Vec F S1x16 .f32) : Vec F S1x16 .f32 :=
  VS1.read (Elt F) (VS1.writes (Elt F) VS1.junk (kernelRun1_C (F := F) c i arg1 harg1 arg2 harg2 arg3 harg3 arg4 harg4 arg5 harg5 arg6 harg6 hc0 hc1 x0 x1 x2 x3 xs).2.1)

/-- The result window where it is idle: a placeholder nothing consults. -/
def idleOut : Vec F S1x2 .f32 := VO1_4.read (Elt F) (VO1_4.writes (Elt F) VO1_4.junk [])

section Region1

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Point by point -/

/-- The result window's buffer and the accumulator after the body at position `n`. -/
def outsAt1 (c : Dev nD) : (n : ℕ) → n < cfg1.N → Vec F S1x2 .f32 × Vec F S1x16 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr rfl)
      (fun h => absurd ((hcond1_1 ⟨0, hn⟩).mp h) (by show ¬((0 : ℕ) = 124); omega)) (iblk1 V c 0 ⟨0, hn⟩) (iblk1 V c 1 ⟨0, hn⟩) (iblk1 V c 2 ⟨0, hn⟩) (iblk1 V c 3 ⟨0, hn⟩))
  | n + 1, hn =>
    if h1 : n + 1 = 124 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1_0 ⟨n + 1, hn⟩).mp h))
          ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1_0 ⟨n + 1, hn⟩).mp h))
          ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1_0 ⟨n + 1, hn⟩).mp h))
          (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val = 0) (h1 : ¬t.val = 124) :
    outsAt1 V c t.val t.isLt = (idleOut, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0)
      (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 124) :
    outsAt1 V c t.val t.isLt = (idleOut, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h))
      (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 124) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h))
      ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h))
      ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- The core's scoped buffers no window of this region stages — the first region's six staging buffers at anything and
    the accumulator as `S` says — and the generator register at some state. -/
def PhiWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S) ∗ (∃ r, prngReg c r))

theorem PhiA1_eq (c : Dev nD) :
    (Pipeline.ΦA spec1 c : sProp 𝕄) = PhiWith c iprop(∃ d, owns (c : Thread nD τ) scM1 fullShare d) := by
  unfold Pipeline.ΦA PhiWith; rw [scopedRest1_eq]; simp only [scM1, owns_whole]; try rfl

/-- Before position `n`: at the start the accumulator at anything; afterwards at what the point before left. -/
def PhiS (c : Dev nD) : (n : ℕ) → n ≤ cfg1.N → sProp 𝕄
  | 0, _ => Pipeline.ΦA spec1 c
  | n + 1, hn => PhiWith c (owns (c : Thread nD τ) scM1 fullShare ((outsAt1 V c n hn).2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) scM1 fullShare ((outsAt1 V c n hn).2)) := rfl
theorem PhiS_pos (c : Dev nD) (n : ℕ) (h : n ≤ cfg1.N) (hz : n ≠ 0) :
    PhiS V c n h = PhiWith c (owns (c : Thread nD τ) scM1 fullShare ((outsAt1 V c (n - 1) (by omega)).2)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' memrefs hold their blocks; the closed forms say which of the three cases the
    point is in; the invariant hands the body the accumulator at what the point before left (at anything at the first
    point) and takes it back at this point's content. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 125 := lt_of_lt_of_eq t.isLt (show cfg1.N = 125 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val = 0
  · have h1 : ¬t.val = 124 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    rw [PhiS_castSucc V c t, PhiS_zero V c _ _ h0, PhiA1_eq]
    unfold PhiWith
    iintro ⟨⟨⟨R0, R1, R2, R3, R4, R5, HS⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS R0 R1 R2 R3 R4 R5 Hg]
    · isplitr [Hg]
      · isplitl [R0]; · iexact R0
        isplitl [R1]; · iexact R1
        isplitl [R2]; · iexact R2
        isplitl [R3]; · iexact R3
        isplitl [R4]; · iexact R4
        isplitl [R5]; · iexact R5
        unfold owns; iexists _; isplitr
        swap; · iexact HS
        ipureintro; exact View.read_writes_of_cover _ _ _ _ _ (scover1_A c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 124
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C; (try dsimp only)
      rw [PhiS_castSucc V c t, PhiS_pos V c _ _ h0]
      unfold PhiWith
      iintro ⟨⟨⟨R0, R1, R2, R3, R4, R5, HS⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS R0 R1 R2 R3 R4 R5 Hg]
      · isplitr [Hg]
        · isplitl [R0]; · iexact R0
          isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS_castSucc V c t, PhiS_pos V c _ _ h0]
      unfold PhiWith
      iintro ⟨⟨⟨R0, R1, R2, R3, R4, R5, HS⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS R0 R1 R2 R3 R4 R5 Hg]
      · isplitr [Hg]
        · isplitl [R0]; · iexact R0
          isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's back: the accumulator's content is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 125 := N_1; omega), PhiA1_eq]
  unfold PhiWith
  iintro ⟨⟨R0, R1, R2, R3, R4, R5, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    iexists _; iexact HS
  iexact Hg

end Region1

end Cert.Kernel.Hand

end
-- ==== Proof.KRun.lean ====
import proofs.«136975_j63797444214872_2_alg».proof.Proof.KFrame0
import proofs.«136975_j63797444214872_2_alg».proof.Proof.KFrame1b
import proofs.«136975_j63797444214872_2_alg».proof.Proof.Gen.Kernel.Regions

/-!
# The run: host operations, the first region, host operations, the second region

The buffer contents at every boundary are a fold from the launch memory: a stretch of host operations applies its
operations' pure functions; a region leaves each of its arrays at what its write-backs make of it and every other buffer
as it found it. Every weakly fair execution terminates with every unscoped buffer at the last boundary's contents.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At the first region's entry: after the three stretches of host operations. -/
abbrev W3 : Dev nD → Valuation τ sig (Elt F) := fun c => Gen.V3 m c
abbrev E3 : (c : Dev nD) → (b : Ref sig .tc) → Buf (Elt F) ((c : Thread nD τ).loc b) := fun c b => W3 m c b
/-- At the first region's exit. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev E4 : (c : Dev nD) → (b : Ref sig .tc) → Buf (Elt F) ((c : Thread nD τ).loc b) := fun c b => W4 m c b
theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

/-- At the second region's entry: after the fourth stretch. -/
abbrev W5 : Dev nD → Valuation τ sig (Elt F) := fun c => StableHlo.after hostOps1 (W4 m c)
abbrev E5 : (c : Dev nD) → (b : Ref sig .tc) → Buf (Elt F) ((c : Thread nD τ).loc b) := fun c b => W5 m c b
/-- At the second region's exit: the end. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev E6 : (c : Dev nD) → (b : Ref sig .tc) → Buf (Elt F) ((c : Thread nD τ).loc b) := fun c b => W6 m c b
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: its arrays are split out of the unscoped buffers at entry and put back at what
    the write-backs leave at exit; the generator register goes into the region's invariant and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at what
    the write-backs leave at exit; the generator register goes into the region's invariant and comes back; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (E5 m) c).Φ (Fin.last cfg1.N) from rfl]
    have h := hout1 (E5 m) c
    unfold Pipeline.ΦA at h
    iintro Hx
    ihave Hy := h $$ Hx
    icases Hy with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .host (hseg hostOps1 hostOps1_sub hostOps1_fresh (W4 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.Kernel.Hand

end
-- ==== Proof.KArgs.lean ====
import proofs.«136975_j63797444214872_2_alg».proof.Proof.KRun

/-!
# The argument arrays at the end of the run

No host operation writes an argument and no region changes one (a region reads it through an input window, whose
array it leaves as found, or does not touch it), so the fold of the boundary contents at an argument's buffer walks
back to the launch memory.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

theorem W5_of (c : Dev nD) (r : Ref sig .tc) (h : r ∉ hostOps1_W) : W5 m c r = W4 m c r :=
  StableHlo.after_of_writes_sub hostOps1 _ hostOps1_writes h

theorem W3_arg (c : Dev nD) (r : Ref sig .tc) (h0 : r ∉ hostOps0_W) (h1 : r ∉ hostOps0_1_W) (h2 : r ∉ hostOps0_2_W) :
    W3 m c r = m ((c : Thread nD τ).loc r) :=
  (V3_of m c r h2).trans <| (V2_of m c r h1).trans <| (V1_of m c r h0).trans rfl

theorem W6_main_arg0 (c : Dev nD) : W6 m c main_arg0 = m ((c : Thread nD τ).loc main_arg0) :=
  (W6_of_ne m c main_arg0 (by decide)).trans <| (W5_of m c main_arg0 (by decide)).trans <| (W4_of_ne m c main_arg0 (by decide)).trans <|
    W3_arg m c main_arg0 (by decide) (by decide) (by decide)
theorem W6_main_arg1 (c : Dev nD) : W6 m c main_arg1 = m ((c : Thread nD τ).loc main_arg1) :=
  (W6_of_ne m c main_arg1 (by decide)).trans <| (W5_of m c main_arg1 (by decide)).trans <| (W4_of_ne m c main_arg1 (by decide)).trans <|
    W3_arg m c main_arg1 (by decide) (by decide) (by decide)
theorem W6_main_arg2 (c : Dev nD) : W6 m c main_arg2 = m ((c : Thread nD τ).loc main_arg2) :=
  (W6_of_ne m c main_arg2 (by decide)).trans <| (W5_of m c main_arg2 (by decide)).trans <| (W4_of_ne m c main_arg2 (by decide)).trans <|
    W3_arg m c main_arg2 (by decide) (by decide) (by decide)
theorem W6_main_arg3 (c : Dev nD) : W6 m c main_arg3 = m ((c : Thread nD τ).loc main_arg3) :=
  (W6_of_ne m c main_arg3 (by decide)).trans <| (W5_of m c main_arg3 (by decide)).trans <|
    ((W4_arr m c 1).trans (((dat0 (E3 m) c).arrAt_in 1 rfl _).trans (A_eq0 (E3 m) c 1))).trans <|
    W3_arg m c main_arg3 (by decide) (by decide) (by decide)
theorem W6_main_arg4 (c : Dev nD) : W6 m c main_arg4 = m ((c : Thread nD τ).loc main_arg4) :=
  (W6_of_ne m c main_arg4 (by decide)).trans <| (W5_of m c main_arg4 (by decide)).trans <| (W4_of_ne m c main_arg4 (by decide)).trans <|
    W3_arg m c main_arg4 (by decide) (by decide) (by decide)
theorem W6_main_arg5 (c : Dev nD) : W6 m c main_arg5 = m ((c : Thread nD τ).loc main_arg5) :=
  ((W6_arr m c 2).trans (((dat1 (E5 m) c).arrAt_in 2 rfl _).trans (A_eq1 (E5 m) c 2))).trans <|
    (W5_of m c main_arg5 (by decide)).trans <| (W4_of_ne m c main_arg5 (by decide)).trans <|
    W3_arg m c main_arg5 (by decide) (by decide) (by decide)
theorem W6_main_arg6 (c : Dev nD) : W6 m c main_arg6 = m ((c : Thread nD τ).loc main_arg6) :=
  (W6_of_ne m c main_arg6 (by decide)).trans <| (W5_of m c main_arg6 (by decide)).trans <| (W4_of_ne m c main_arg6 (by decide)).trans <|
    W3_arg m c main_arg6 (by decide) (by decide) (by decide)

/-- THE FRAME: every weakly fair execution terminates, nothing faulting, with every argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩)
    (run_all m ρ)

end Cert.Kernel.Hand

end
-- ==== Proof.KIFrame0.lean ====
import proofs.«136975_j63797444214872_2_alg».proof.Proof.Gen.KernelIdeal.Launch
import proofs.«136975_j63797444214872_2_alg».proof.Proof.Gen.KernelIdeal.Skeleton
import proofs.«136975_j63797444214872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The first kernel region: the node-wise layer

At grid point `t` the body reads rows `4000 t … 4000 t + 3999` of the scalar aggregate (a `[4000, 1]` block), the
`[1, 16]` weight row and the `[1, 16]` bias row, and stores one `[4000, 16]` block of hidden features, a pointwise
function of the three blocks. Nothing is kept between points: what the output's buffer holds after the body is a
function of the point's input blocks alone, and every input's buffer holds its block at every point.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

-- the buffer contents when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole `[4000, 1]`, `[1, 16]` and `[4000, 16]` rectangles the body loads and stores through. -/
abbrev rA : Rect S4000x1 := Rect.unit (s := S4000x1) ![0, 0] S4000x1.size inb_S4000x1_S4000x1_0_0
abbrev rW : Rect S1x16 := Rect.unit (s := S1x16) ![0, 0] S1x16.size inb_S1x16_S1x16_0_0
abbrev rO : Rect S4000x16 := Rect.unit (s := S4000x16) ![0, 0] S4000x16.size inb_S4000x16_S4000x16_0_0

/-- The output's buffer after the body: its one store over the three input blocks. -/
def out0_3 (x0 : Vec F S4000x1 .f32) (x1 : Vec F S1x16 .f32) (x2 : Vec F S1x16 .f32) : Vec F S4000x16 .f32 :=
  View.canon [⟨rO, k0_pay1 (View.ld x0 rA) (View.ld x1 rW) (View.ld x2 rW)⟩]

/-- The store covers the buffer. -/
theorem cover0_3 (p0 : Vec F S4000x16 .f32) (y : S4000x16.Idx) :
    ∃ pc ∈ ([⟨rO, p0⟩] : List (View.Piece (Elt F) S4000x16 .f32)), y ∈ pc.1.set :=
  View.cover_of_tiled [⟨rO, p0⟩] S4000x16.size (by rfl) y

set_option maxHeartbeats 1000000 in
/-- The body on whole staging memrefs: the inputs are left as found and the output holds `out0_3` of them. -/
theorem sound_kernel0 (c : Dev nD) (E : Set ℕ) (i : grid0.Coords) (arg1 : Memref sig .tc .vmem S4000x1 .f32) (harg1 : arg1.IsWhole)
    (arg2 : Memref sig .tc .vmem S1x16 .f32) (harg2 : arg2.IsWhole) (arg3 : Memref sig .tc .vmem S1x16 .f32) (harg3 : arg3.IsWhole)
    (arg4 : Memref sig .tc .vmem S4000x16 .f32) (harg4 : arg4.IsWhole)
    (x0 : Vec F S4000x1 .f32) (x1 : Vec F S1x16 .f32) (x2 : Vec F S1x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__layer1_kernel i arg1 harg1 arg2 harg2 arg3 harg3 arg4 harg4) K := by
  simp only [cc0__layer1_kernel_eq_skeleton]; unfold cc0__layer1_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The region's proof data on core `c`: the arrays as found; after the body at point `t` every input's buffer at its
    block and the output's at `out0_3` of the input blocks; the invariant the scoped rest and the generator register,
    untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIFrame1a.lean ====
import proofs.«136975_j63797444214872_2_alg».proof.Proof.Gen.KernelIdeal.Launch
import proofs.«136975_j63797444214872_2_alg».proof.Proof.Gen.KernelIdeal.Skeleton
import proofs.«136975_j63797444214872_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The second kernel region, case by case: the weighted node reduction

At grid point `t` the body reads rows `4000 t … 4000 t + 3999` of the per-node weights (`[4000, 1]`) and of the hidden
features (`[4000, 16]`), and keeps a `[1, 16]` accumulator between points: at the first point it is reset to zero, at
every point the column sums of weight times feature are added to it, and at the last point the `[1, 2]` result — the
soft maximum of accumulator times the `[16, 2]` matrix plus 500000 times the `[1, 2]` bias — is stored. The two
branch conditions depend on the grid coordinate alone, so over the 125 points there are three cases: the first
point, the points between, the last point. This module runs the body once per case.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, in closed form over the grid -/

/-- "This is the first point": the reset of the accumulator is taken. -/
abbrev cond1_0 (i : grid1.Coords) : Prop := (Scalar.cmpi .ne (Scalar.extui (Scalar.cmpi .eq (BitVec.ofNat 32 (i 0).val) 0#32)) 0#32) = 1#1
theorem hcond1_0 : ∀ t : Fin cfg1.N, cond1_0 (grid1.coords t) ↔ t.val = 0 :=
  (by decide +kernel : ∀ t : Fin grid1.N, cond1_0 (grid1.coords t) ↔ t.val = 0)

/-- "This is the last point": the result is computed and stored. -/
abbrev cond1_1 (i : grid1.Coords) : Prop := k1_cond2 i = 1#1
theorem hcond1_1 : ∀ t : Fin cfg1.N, cond1_1 (grid1.coords t) ↔ t.val = 124 :=
  (by decide +kernel : ∀ t : Fin grid1.N, cond1_1 (grid1.coords t) ↔ t.val = 124)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
/-- The result window is idle, and not written back, at every point but the last. -/
theorem idleAt1_4 : ∀ t : Fin cfg1.N, ¬cond1_1 (grid1.coords t) → cfg1.idle 4 (grid1.coords t) = true := by decide +kernel
theorem noFlush1_4 : ∀ t : Fin cfg1.N, ¬cond1_1 (grid1.coords t) → (cfg1.win 4).flush t = false := by decide +kernel
theorem liveAt1_4 : ∀ t : Fin cfg1.N, cond1_1 (grid1.coords t) → cfg1.idle 4 (grid1.coords t) = false := by decide +kernel

/-! ## The memrefs the body is called with -/

abbrev VO1_4 : View sig .tc .vmem S1x2 .f32 := (Memref.whole cc1_stg4_0 : Memref sig .tc .vmem S1x2 .f32).view
abbrev ms1_0 (t : Fin cfg1.N) : Memref sig .tc .vmem S4000x1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4000x16 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x2 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x2 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x2 .f32 := win1_4.stage (cfg1.slots t 4)
abbrev hs1_4 (t : Fin cfg1.N) : (ms1_4 t).IsWhole := hstage1_4 ((cfg1.slots t 4).cast nbuf1_4)
/-- The accumulator: a whole scoped buffer of the kernel's own. -/
abbrev scM1 : Memref sig .tc .vmem S1x16 .f32 := Memref.whole cc1_scratch0
abbrev VS1 : View sig .tc .vmem S1x16 .f32 := scM1.view

/-! ## The body, once per case -/

set_option maxHeartbeats 1000000 in
/-- THE FIRST POINT: the accumulator, at anything, is reset and then added to; the result window is handed back
    untouched. The pieces the accumulator ends with are found by the run. -/
noncomputable def kernelRun1_A (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : cond1_0 i) (hc1 : ¬cond1_1 i)
    (x0 : Vec F S4000x1 .f32) (x1 : Vec F S4000x16 .f32) (x2 : Vec F S16x2 .f32) (x3 : Vec F S1x2 .f32) :
    { LS : List (View.Piece (Elt F) S1x16 .f32) //
      ∀ (xi4 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc1__kernel i arg1 harg1 arg2 harg2 arg3 harg3 arg4 harg4 arg5 harg5 arg6 harg6) K } := by
  refine ⟨?_, fun xi4 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg1.eq_unread hf0; obtain rfl := harg2.eq_unread hf1; obtain rfl := harg3.eq_unread hf2
    obtain rfl := harg4.eq_unread hf3; obtain rfl := harg5.eq_unread hf4
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 1000000 in
/-- A POINT BETWEEN: the accumulator, at what the point before left, is added to; the result window is handed back
    untouched. -/
noncomputable def kernelRun1_B (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : ¬cond1_1 i)
    (x0 : Vec F S4000x1 .f32) (x1 : Vec F S4000x16 .f32) (x2 : Vec F S16x2 .f32) (x3 : Vec F S1x2 .f32) (xs : Vec F S1x16 .f32) :
    { LS : List (View.Piece (Elt F) S1x16 .f32) //
      ∀ (xi4 : Vec F S1x2 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare xi4 ∗ (∃ f, arg6.view.loc (c : Thread nD τ) ↦[arg6.view.set]{fullShare} arg6.view.writes (Elt F) f LS)) -∗ K ⟨⟩))
          ⊢ wp frame (wpE (defs₀ (F := F)) Variants.none c none) E (cc1__kernel i arg1 harg1 arg2 harg2 arg3 harg3 arg4 harg4 arg5 harg5 arg6 harg6) K } := by
  refine ⟨?_, fun xi4 E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact HS

set_option maxHeartbeats 1000000 in
/-- THE LAST POINT: the accumulator is added to and the result, computed from it, stored into the result window. -/
noncomputable def kernelRun1_C (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i)
    (x0 : Vec F S4000x1 .f32) (x1 : Vec F S4000x16 .f32) (x2 : Vec F S16x2 .f32) (x3 : Vec F S1x2 .f32) (xs : Vec F S1x16 .f32) :
    Σ' (L4 : List (View.Piece (Elt F) S1x2 .f32)), { LS : List (View.Piece (Elt F) S1x16 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS)) -∗ K ⟨⟩))
          ⊢ wp frame (wpE (defs₀ (F := F)) Variants.none c none) E (cc1__kernel i arg1 harg1 arg2 harg2 arg3 harg3 arg4 harg4 arg5 harg5 arg6 harg6) K } := by
  refine ⟨?_, ?_, fun E K => ?run⟩
  case run =>
    simp only [cc1__kernel_eq_skeleton]; unfold cc1__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg1.eq_unread hf0; obtain rfl := harg2.eq_unread hf1; obtain rfl := harg3.eq_unread hf2
    obtain rfl := harg4.eq_unread hf3; obtain rfl := harg6.eq_unread hfs
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS

end Cert.KernelIdeal.Hand

end
-- ==== Proof.KIFrame1b.lean ====
import proofs.«136975_j63797444214872_2_alg».proof.Proof.KIFrame1a

/-!
# The second kernel region: what is held point by point, and the body obligation

After point `t` the accumulator holds the first `t + 1` blocks' weighted column sums (a recursion on the point: the
first point's case, then the between case over what the point before left); the result window holds the stored
result after the last point and is idle before. Between points the region's invariant is the kernel's scoped
buffers that no window stages, with the accumulator at exactly that content.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

theorem scover1_A (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : cond1_0 i) (hc1 : ¬cond1_1 i) (x0 : Vec F S4000x1 .f32) (x1 : Vec F S4000x16 .f32) (x2 : Vec F S16x2 .f32) (x3 : Vec F S1x2 .f32) (y : S1x16.Idx) :
    ∃ pc ∈ (kernelRun1_A (F := F) c i arg1 harg1 arg2 harg2 arg3 harg3 arg4 harg4 arg5 harg5 arg6 harg6 hc0 hc1 x0 x1 x2 x3).1, y ∈ pc.1.set :=
  View.cover_of_tiledL (kernelRun1_A (F := F) c i arg1 harg1 arg2 harg2 arg3 harg3 arg4 harg4 arg5 harg5 arg6 harg6 hc0 hc1 x0 x1 x2 x3).1 S1x16.size (by sl_kernel_rfl) y
/-- The accumulator after the first point. -/
def sout1_A (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : cond1_0 i) (hc1 : ¬cond1_1 i) (x0 : Vec F S4000x1 .f32) (x1 : Vec F S4000x16 .f32) (x2 : Vec F S16x2 .f32) (x3 : Vec F S1x2 .f32) : Vec F S1x16 .f32 :=
  VS1.read (Elt F) (VS1.writes (Elt F) VS1.junk (kernelRun1_A (F := F) c i arg1 harg1 arg2 harg2 arg3 harg3 arg4 harg4 arg5 harg5 arg6 harg6 hc0 hc1 x0 x1 x2 x3).1)

theorem scover1_B (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : ¬cond1_1 i) (x0 : Vec F S4000x1 .f32) (x1 : Vec F S4000x16 .f32) (x2 : Vec F S16x2 .f32) (x3 : Vec F S1x2 .f32) (xs : Vec F S1x16 .f32) (y : S1x16.Idx) :
    ∃ pc ∈ (kernelRun1_B (F := F) c i arg1 harg1 arg2 harg2 arg3 harg3 arg4 harg4 arg5 harg5 arg6 harg6 hc0 hc1 x0 x1 x2 x3 xs).1, y ∈ pc.1.set :=
  View.cover_of_tiledL (kernelRun1_B (F := F) c i arg1 harg1 arg2 harg2 arg3 harg3 arg4 harg4 arg5 harg5 arg6 harg6 hc0 hc1 x0 x1 x2 x3 xs).1 S1x16.size (by sl_kernel_rfl) y
/-- The accumulator after a point between, over what the point before left. -/
def sout1_B (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : ¬cond1_1 i) (x0 : Vec F S4000x1 .f32) (x1 : Vec F S4000x16 .f32) (x2 : Vec F S16x2 .f32) (x3 : Vec F S1x2 .f32) (xs : Vec F S1x16 .f32) : Vec F S1x16 .f32 :=
  VS1.read (Elt F) (VS1.writes (Elt F) VS1.junk (kernelRun1_B (F := F) c i arg1 harg1 arg2 harg2 arg3 harg3 arg4 harg4 arg5 harg5 arg6 harg6 hc0 hc1 x0 x1 x2 x3 xs).1)

theorem cover1_C_4 (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i) (x0 : Vec F S4000x1 .f32) (x1 : Vec F S4000x16 .f32) (x2 : Vec F S16x2 .f32) (x3 : Vec F S1x2 .f32) (xs : Vec F S1x16 .f32) (y : S1x2.Idx) :
    ∃ pc ∈ (kernelRun1_C (F := F) c i arg1 harg1 arg2 harg2 arg3 harg3 arg4 harg4 arg5 harg5 arg6 harg6 hc0 hc1 x0 x1 x2 x3 xs).1, y ∈ pc.1.set :=
  View.cover_of_tiledL (kernelRun1_C (F := F) c i arg1 harg1 arg2 harg2 arg3 harg3 arg4 harg4 arg5 harg5 arg6 harg6 hc0 hc1 x0 x1 x2 x3 xs).1 S1x2.size (by sl_kernel_rfl) y
/-- The result window after the last point. -/
def out1_C_4 (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i) (x0 : Vec F S4000x1 .f32) (x1 : Vec F S4000x16 .f32) (x2 : Vec F S16x2 .f32) (x3 : Vec F S1x2 .f32) (xs : Vec F S1x16 .f32) : Vec F S1x2 .f32 :=
  VO1_4.read (Elt F) (VO1_4.writes (Elt F) VO1_4.junk (kernelRun1_C (F := F) c i arg1 harg1 arg2 harg2 arg3 harg3 arg4 harg4 arg5 harg5 arg6 harg6 hc0 hc1 x0 x1 x2 x3 xs).1)
theorem scover1_C (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i) (x0 : Vec F S4000x1 .f32) (x1 : Vec F S4000x16 .f32) (x2 : Vec F S16x2 .f32) (x3 : Vec F S1x2 .f32) (xs : Vec F S1x16 .f32) (y : S1x16.Idx) :
    ∃ pc ∈ (kernelRun1_C (F := F) c i arg1 harg1 arg2 harg2 arg3 harg3 arg4 harg4 arg5 harg5 arg6 harg6 hc0 hc1 x0 x1 x2 x3 xs).2.1, y ∈ pc.1.set :=
  View.cover_of_tiledL (kernelRun1_C (F := F) c i arg1 harg1 arg2 harg2 arg3 harg3 arg4 harg4 arg5 harg5 arg6 harg6 hc0 hc1 x0 x1 x2 x3 xs).2.1 S1x16.size (by sl_kernel_rfl) y
/-- The accumulator after the last point. -/
def sout1_C (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i) (x0 : Vec F S4000x1 .f32) (x1 : Vec F S4000x16 .f32) (x2 : Vec F S16x2 .f32) (x3 : Vec F S1x2 .f32) (xs : Vec F S1x16 .f32) : Vec F S1x16 .f32 :=
  VS1.read (Elt F) (VS1.writes (Elt F) VS1.junk (kernelRun1_C (F := F) c i arg1 harg1 arg2 harg2 arg3 harg3 arg4 harg4 arg5 harg5 arg6 harg6 hc0 hc1 x0 x1 x2 x3 xs).2.1)

/-- The result window where it is idle: a placeholder nothing consults. -/
def idleOut : Vec F S1x2 .f32 := VO1_4.read (Elt F) (VO1_4.writes (Elt F) VO1_4.junk [])

section Region1

-- the buffer contents when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## Point by point -/

/-- The result window's buffer and the accumulator after the body at position `n`. -/
def outsAt1 (c : Dev nD) : (n : ℕ) → n < cfg1.N → Vec F S1x2 .f32 × Vec F S1x16 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) scM1 (Memref.isWhole_whole _) ((hcond1_0 ⟨0, hn⟩).mpr rfl)
      (fun h => absurd ((hcond1_1 ⟨0, hn⟩).mp h) (by show ¬((0 : ℕ) = 124); omega)) (iblk1 V c 0 ⟨0, hn⟩) (iblk1 V c 1 ⟨0, hn⟩) (iblk1 V c 2 ⟨0, hn⟩) (iblk1 V c 3 ⟨0, hn⟩))
  | n + 1, hn =>
    if h1 : n + 1 = 124 then
      (out1_C_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1_0 ⟨n + 1, hn⟩).mp h))
          ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2,
        sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1_0 ⟨n + 1, hn⟩).mp h))
          ((hcond1_1 ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)
    else
      (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) scM1 (Memref.isWhole_whole _) (fun h => Nat.succ_ne_zero n ((hcond1_0 ⟨n + 1, hn⟩).mp h))
          (fun h => h1 ((hcond1_1 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2)

theorem outsAt1_A (c : Dev nD) (t : Fin cfg1.N) (h0 : t.val = 0) (h1 : ¬t.val = 124) :
    outsAt1 V c t.val t.isLt = (idleOut, sout1_A c (grid1.coords t) (ms1_0 t) (hs1_0 t) (ms1_1 t) (hs1_1 t) (ms1_2 t) (hs1_2 t) (ms1_3 t) (hs1_3 t) (ms1_4 t) (hs1_4 t) scM1 (Memref.isWhole_whole _) ((hcond1_0 t).mpr h0)
      (fun h => h1 ((hcond1_1 t).mp h)) (iblk1 V c 0 t) (iblk1 V c 1 t) (iblk1 V c 2 t) (iblk1 V c 3 t)) := by
  obtain ⟨n, hn⟩ := t
  cases n with
  | zero => exact rfl
  | succ n => exact absurd h0 (Nat.succ_ne_zero n)

theorem outsAt1_B (c : Dev nD) (t : Fin cfg1.N) (h0 : ¬t.val = 0) (h1 : ¬t.val = 124) :
    outsAt1 V c t.val t.isLt = (idleOut, sout1_B c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h))
      (fun h => h1 ((hcond1_1 t).mp h)) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_neg h1).trans rfl

theorem outsAt1_C (c : Dev nD) (t : Fin cfg1.N) (h0 : ¬t.val = 0) (h1 : t.val = 124) :
    outsAt1 V c t.val t.isLt = (out1_C_4 c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h))
      ((hcond1_1 t).mpr h1) (iblk1 V c 0 t) (iblk1 V c 1 t) (iblk1 V c 2 t) (iblk1 V c 3 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) (ms1_4 t) (hs1_4 t) scM1 (Memref.isWhole_whole _) (fun h => h0 ((hcond1_0 t).mp h))
      ((hcond1_1 t).mpr h1) (iblk1 V c 0 t) (iblk1 V c 1 t) (iblk1 V c 2 t) (iblk1 V c 3 t) (outsAt1 V c (t.val - 1) (Nat.lt_of_le_of_lt (Nat.sub_le _ _) t.isLt)).2) := by
  obtain ⟨n, hn⟩ := t
  cases n with
  | zero => exact absurd rfl h0
  | succ n => exact (dif_pos h1).trans rfl

/-! ## The invariant between points -/

/-- The core's scoped buffers no window of this region stages — the first region's six staging buffers at anything and
    the accumulator as `S` says — and the generator register at some state. -/
def PhiWith (c : Dev nD) (S : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ S) ∗ (∃ r, prngReg c r))

theorem PhiA1_eq (c : Dev nD) :
    (Pipeline.ΦA spec1 c : sProp 𝕄) = PhiWith c iprop(∃ d, owns (c : Thread nD τ) scM1 fullShare d) := by
  unfold Pipeline.ΦA PhiWith; rw [scopedRest1_eq]; simp only [scM1, owns_whole]; try rfl

/-- Before position `n`: at the start the accumulator at anything; afterwards at what the point before left. -/
def PhiS (c : Dev nD) : (n : ℕ) → n ≤ cfg1.N → sProp 𝕄
  | 0, _ => Pipeline.ΦA spec1 c
  | n + 1, hn => PhiWith c (owns (c : Thread nD τ) scM1 fullShare ((outsAt1 V c n hn).2))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = PhiWith c (owns (c : Thread nD τ) scM1 fullShare ((outsAt1 V c n hn).2)) := rfl
theorem PhiS_pos (c : Dev nD) (n : ℕ) (h : n ≤ cfg1.N) (hz : n ≠ 0) :
    PhiS V c n h = PhiWith c (owns (c : Thread nD τ) scM1 fullShare ((outsAt1 V c (n - 1) (by omega)).2)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t
    ∗ (dat1 V c).leavesExact 3 t ∗ (dat1 V c).leavesExact 4 t)

set_option maxHeartbeats 4800000 in
/-- The body at any point: the inputs' memrefs hold their blocks; the closed forms say which of the three cases the
    point is in; the invariant hands the body the accumulator at what the point before left (at anything at the first
    point) and takes it back at this point's content. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS V c (t.val + 1) t.isLt from rfl, PhiS_succ]
  have hN : t.val < 125 := lt_of_lt_of_eq t.isLt (show cfg1.N = 125 from N_1)
  rw [show (dat1 V c).leavesExact 0 t = owns (c : Thread nD τ) (ms1_0 t) fullShare ((dat1 V c).after 0 t) from by
      unfold Dat.leavesExact; rw [liveAt1_0 t], after1_0]
  rw [show (dat1 V c).leavesExact 1 t = owns (c : Thread nD τ) (ms1_1 t) fullShare ((dat1 V c).after 1 t) from by
      unfold Dat.leavesExact; rw [liveAt1_1 t], after1_1]
  rw [show (dat1 V c).leavesExact 2 t = owns (c : Thread nD τ) (ms1_2 t) fullShare ((dat1 V c).after 2 t) from by
      unfold Dat.leavesExact; rw [liveAt1_2 t], after1_2]
  rw [show (dat1 V c).leavesExact 3 t = owns (c : Thread nD τ) (ms1_3 t) fullShare ((dat1 V c).after 3 t) from by
      unfold Dat.leavesExact; rw [liveAt1_3 t], after1_3]
  by_cases h0 : t.val = 0
  · have h1 : ¬t.val = 124 := by omega
    rw [Dat.leavesExact_idle (dat1 V c) 4 t (idleAt1_4 t (fun h => h1 ((hcond1_1 t).mp h))) (noFlush1_4 t (fun h => h1 ((hcond1_1 t).mp h)))]
    rw [outsAt1_A V c t h0 h1]
    unfold sout1_A; (try dsimp only)
    rw [PhiS_castSucc V c t, PhiS_zero V c _ _ h0, PhiA1_eq]
    unfold PhiWith
    iintro ⟨⟨⟨R0, R1, R2, R3, R4, R5, HS⟩, Hg⟩, Ho, ⟨%d0, H0⟩, ⟨%d1, H1⟩, ⟨%d2, H2⟩, ⟨%d3, H3⟩, ⟨%d4, H4⟩⟩
    iapply ((kernelRun1_A c (grid1.coords t) _ _ _ _ _ _ _ _ _ _ _ _ ((hcond1_0 t).mpr h0) (fun h => h1 ((hcond1_1 t).mp h)) (iblk1 V c 0 t) (iblk1 V c 1 t) (iblk1 V c 2 t) (iblk1 V c 3 t)).2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS R0 R1 R2 R3 R4 R5 Hg]
    · isplitr [Hg]
      · isplitl [R0]; · iexact R0
        isplitl [R1]; · iexact R1
        isplitl [R2]; · iexact R2
        isplitl [R3]; · iexact R3
        isplitl [R4]; · iexact R4
        isplitl [R5]; · iexact R5
        unfold owns; iexists _; isplitr
        swap; · iexact HS
        ipureintro; exact View.read_writes_of_cover _ _ _ _ _ (scover1_A c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 124
    · rw [show (dat1 V c).leavesExact 4 t = owns (c : Thread nD τ) (ms1_4 t) fullShare ((dat1 V c).after 4 t) from by
        unfold Dat.leavesExact; rw [liveAt1_4 t ((hcond1_1 t).mpr h1)], after1_4]
      rw [outsAt1_C V c t h0 h1]
      unfold out1_C_4 sout1_C; (try dsimp only)
      rw [PhiS_castSucc V c t, PhiS_pos V c _ _ h0]
      unfold PhiWith
      iintro ⟨⟨⟨R0, R1, R2, R3, R4, R5, HS⟩, Hg⟩, Ho, ⟨%d0, H0⟩, ⟨%d1, H1⟩, ⟨%d2, H2⟩, ⟨%d3, H3⟩, ⟨%d4, H4⟩⟩
      iapply ((kernelRun1_C c (grid1.coords t) _ _ _ _ _ _ _ _ _ _ _ _ (fun h => h0 ((hcond1_0 t).mp h)) ((hcond1_1 t).mpr h1) (iblk1 V c 0 t) (iblk1 V c 1 t) (iblk1 V c 2 t) (iblk1 V c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS R0 R1 R2 R3 R4 R5 Hg]
      · isplitr [Hg]
        · isplitl [R0]; · iexact R0
          isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_C c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover1_C_4 c _ _ _ _ _ _ _ _ _ _ _ _ _ _ _ _ _ _ _ _)
    · rw [Dat.leavesExact_idle (dat1 V c) 4 t (idleAt1_4 t (fun h => h1 ((hcond1_1 t).mp h))) (noFlush1_4 t (fun h => h1 ((hcond1_1 t).mp h)))]
      rw [outsAt1_B V c t h0 h1]
      unfold sout1_B; (try dsimp only)
      rw [PhiS_castSucc V c t, PhiS_pos V c _ _ h0]
      unfold PhiWith
      iintro ⟨⟨⟨R0, R1, R2, R3, R4, R5, HS⟩, Hg⟩, Ho, ⟨%d0, H0⟩, ⟨%d1, H1⟩, ⟨%d2, H2⟩, ⟨%d3, H3⟩, ⟨%d4, H4⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) (iblk1 V c 2 t) (iblk1 V c 3 t) _).2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS R0 R1 R2 R3 R4 R5 Hg]
      · isplitr [Hg]
        · isplitl [R0]; · iexact R0
          isplitl [R1]; · iexact R1
          isplitl [R2]; · iexact R2
          isplitl [R3]; · iexact R3
          isplitl [R4]; · iexact R4
          isplitl [R5]; · iexact R5
          unfold owns; iexists _; isplitr
          swap; · iexact HS
          ipureintro; exact View.read_writes_of_cover _ _ _ _ _ (scover1_B c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the launch's back: the accumulator's content is forgotten. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 125 := N_1; omega), PhiA1_eq]
  unfold PhiWith
  iintro ⟨⟨R0, R1, R2, R3, R4, R5, HS⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    iexists _; iexact HS
  iexact Hg

end Region1

end Cert.KernelIdeal.Hand

end
-- ==== Proof.KIRun.lean ====
import proofs.«136975_j63797444214872_2_alg».proof.Proof.KIFrame0
import proofs.«136975_j63797444214872_2_alg».proof.Proof.KIFrame1b
import proofs.«136975_j63797444214872_2_alg».proof.Proof.Gen.KernelIdeal.Regions

/-!
# The run: host operations, the first region, host operations, the second region

The buffer contents at every boundary are a fold from the launch memory: a stretch of host operations applies its
operations' pure functions; a region leaves each of its arrays at what its write-backs make of it and every other buffer
as it found it. Every weakly fair execution terminates with every unscoped buffer at the last boundary's contents.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At the first region's entry: after the three stretches of host operations. -/
abbrev W3 : Dev nD → Valuation τ sig (Elt F) := fun c => Gen.V3 m c
abbrev E3 : (c : Dev nD) → (b : Ref sig .tc) → Buf (Elt F) ((c : Thread nD τ).loc b) := fun c b => W3 m c b
/-- At the first region's exit. -/
def W4 (c : Dev nD) : Valuation τ sig (Elt F) :=
  Pipeline.withArrays spec0 c (W3 m c) fun w => (dat0 (E3 m) c).arrAt w cfg0.N
theorem W4_arr (c : Dev nD) (w : Fin cfg0.W) :
    W4 m c (Proc.devRef .tc (Pipeline.arrRef spec0 w)) = (dat0 (E3 m) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m c (Proc.devRef .tc b) = W3 m c (Proc.devRef .tc b) := by
  unfold W4; exact Pipeline.withArrays_of_ne spec0 c _ _ b hb
abbrev E4 : (c : Dev nD) → (b : Ref sig .tc) → Buf (Elt F) ((c : Thread nD τ).loc b) := fun c b => W4 m c b
theorem hF0 (c : Dev nD) (w : Fin cfg0.W) : (dat0 (E3 m) c).arrAt w cfg0.N = E4 m c (Pipeline.arrRef spec0 w) :=
  (W4_arr m c w).symm
theorem hrest0 (c : Dev nD) : ∀ b, b ∉ Finset.univ.image (Pipeline.arrRef spec0) → E4 m c b = E3 m c b :=
  fun b hb => W4_of_ne m c b fun w e => hb (Finset.mem_image.mpr ⟨w, Finset.mem_univ _, e⟩)

/-- At the second region's entry: after the fourth stretch. -/
abbrev W5 : Dev nD → Valuation τ sig (Elt F) := fun c => StableHlo.after hostOps1 (W4 m c)
abbrev E5 : (c : Dev nD) → (b : Ref sig .tc) → Buf (Elt F) ((c : Thread nD τ).loc b) := fun c b => W5 m c b
/-- At the second region's exit: the end. -/
def W6 (c : Dev nD) : Valuation τ sig (Elt F) :=
  Pipeline.withArrays spec1 c (W5 m c) fun w => (dat1 (E5 m) c).arrAt w cfg1.N
theorem W6_arr (c : Dev nD) (w : Fin cfg1.W) :
    W6 m c (Proc.devRef .tc (Pipeline.arrRef spec1 w)) = (dat1 (E5 m) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m c (Proc.devRef .tc b) = W5 m c (Proc.devRef .tc b) := by
  unfold W6; exact Pipeline.withArrays_of_ne spec1 c _ _ b hb
abbrev E6 : (c : Dev nD) → (b : Ref sig .tc) → Buf (Elt F) ((c : Thread nD τ).loc b) := fun c b => W6 m c b
theorem hF1 (c : Dev nD) (w : Fin cfg1.W) : (dat1 (E5 m) c).arrAt w cfg1.N = E6 m c (Pipeline.arrRef spec1 w) :=
  (W6_arr m c w).symm
theorem hrest1 (c : Dev nD) : ∀ b, b ∉ Finset.univ.image (Pipeline.arrRef spec1) → E6 m c b = E5 m c b :=
  fun b hb => W6_of_ne m c b fun w e => hb (Finset.mem_image.mpr ⟨w, Finset.mem_univ _, e⟩)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (E3 m) c
  | ⟨1, _⟩ => fun c => dat1 (E5 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, none. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: its arrays are split out of the unscoped buffers at entry and put back at what
    the write-backs leave at exit; the generator register goes into the region's invariant and comes back; nothing is
    owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E3 m) c).loose
  hwaits := Pipeline.hwaits_of_owed_zero _ _ _ _ L lv 0 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec0 c (E3 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E3 m c) (E4 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays are split out of the unscoped buffers at entry and put back at what
    the write-backs leave at exit; the generator register goes into the region's invariant and comes back; nothing is
    owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E5 m) c).loose
  hwaits := Pipeline.hwaits_of_owed_zero _ _ _ _ L lv 1 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec1 c (E5 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = (dat1 (E5 m) c).Φ (Fin.last cfg1.N) from rfl]
    have h := hout1 (E5 m) c
    unfold Pipeline.ΦA at h
    iintro Hx
    ihave Hy := h $$ Hx
    icases Hy with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E5 m c) (E6 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (Gen.V0 m)),
    .host (hseg hostOps0_1 hostOps0_1_sub hostOps0_1_fresh (Gen.V1 m)),
    .host (hseg hostOps0_2 hostOps0_2_sub hostOps0_2_fresh (Gen.V2 m)),
    .region (reg0 m),
    .host (hseg hostOps1 hostOps1_sub hostOps1_fresh (W4 m)),
    .region (reg1 m) ]

theorem main_run (c : Dev nD) : main (F := F) c = Pipeline.Seg.run (segs m) := (main_chain c).trans (by chain_rfl)

set_option backward.isDefEq.respectTransparency.types false in
/-- THE RUN: from any memory with zero counters every weakly fair execution of @main terminates, nothing faulting, and
    every final state has every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ R c)) (Tₙ := Tₙ m)
    (hch := ⟨fun _ => .rfl, fun _ => .rfl, fun _ => .rfl, fun _ => .rfl, fun _ => .rfl, fun _ => .rfl, fun c => by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (Gen.V0 m c)
        from Pipeline.unscopedBufs_held c (Gen.V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)

end Cert.KernelIdeal.Hand

end
-- ==== Proof.KIArgs.lean ====
import proofs.«136975_j63797444214872_2_alg».proof.Proof.KIRun

/-!
# The argument arrays at the end of the run

No host operation writes an argument and no region changes one (a region reads it through an input window, whose
array it leaves as found, or does not touch it), so the fold of the boundary contents at an argument's buffer walks
back to the launch memory.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat)

variable {F : FTy → Type} [FloatOps F]
variable (m : (ℓ : Loc nD τ sig) → Buf (Elt F) ℓ) (ρ : Dev nD → PrngReg)

theorem W5_of (c : Dev nD) (r : Ref sig .tc) (h : r ∉ hostOps1_W) : W5 m c r = W4 m c r :=
  StableHlo.after_of_writes_sub hostOps1 _ hostOps1_writes h

theorem W3_arg (c : Dev nD) (r : Ref sig .tc) (h0 : r ∉ hostOps0_W) (h1 : r ∉ hostOps0_1_W) (h2 : r ∉ hostOps0_2_W) :
    W3 m c r = m ((c : Thread nD τ).loc r) :=
  (V3_of m c r h2).trans <| (V2_of m c r h1).trans <| (V1_of m c r h0).trans rfl

theorem W6_main_arg0 (c : Dev nD) : W6 m c main_arg0 = m ((c : Thread nD τ).loc main_arg0) :=
  (W6_of_ne m c main_arg0 (by decide)).trans <| (W5_of m c main_arg0 (by decide)).trans <| (W4_of_ne m c main_arg0 (by decide)).trans <|
    W3_arg m c main_arg0 (by decide) (by decide) (by decide)
theorem W6_main_arg1 (c : Dev nD) : W6 m c main_arg1 = m ((c : Thread nD τ).loc main_arg1) :=
  (W6_of_ne m c main_arg1 (by decide)).trans <| (W5_of m c main_arg1 (by decide)).trans <| (W4_of_ne m c main_arg1 (by decide)).trans <|
    W3_arg m c main_arg1 (by decide) (by decide) (by decide)
theorem W6_main_arg2 (c : Dev nD) : W6 m c main_arg2 = m ((c : Thread nD τ).loc main_arg2) :=
  (W6_of_ne m c main_arg2 (by decide)).trans <| (W5_of m c main_arg2 (by decide)).trans <| (W4_of_ne m c main_arg2 (by decide)).trans <|
    W3_arg m c main_arg2 (by decide) (by decide) (by decide)
theorem W6_main_arg3 (c : Dev nD) : W6 m c main_arg3 = m ((c : Thread nD τ).loc main_arg3) :=
  (W6_of_ne m c main_arg3 (by decide)).trans <| (W5_of m c main_arg3 (by decide)).trans <|
    ((W4_arr m c 1).trans (((dat0 (E3 m) c).arrAt_in 1 rfl _).trans (A_eq0 (E3 m) c 1))).trans <|
    W3_arg m c main_arg3 (by decide) (by decide) (by decide)
theorem W6_main_arg4 (c : Dev nD) : W6 m c main_arg4 = m ((c : Thread nD τ).loc main_arg4) :=
  (W6_of_ne m c main_arg4 (by decide)).trans <| (W5_of m c main_arg4 (by decide)).trans <| (W4_of_ne m c main_arg4 (by decide)).trans <|
    W3_arg m c main_arg4 (by decide) (by decide) (by decide)
theorem W6_main_arg5 (c : Dev nD) : W6 m c main_arg5 = m ((c : Thread nD τ).loc main_arg5) :=
  ((W6_arr m c 2).trans (((dat1 (E5 m) c).arrAt_in 2 rfl _).trans (A_eq1 (E5 m) c 2))).trans <|
    (W5_of m c main_arg5 (by decide)).trans <| (W4_of_ne m c main_arg5 (by decide)).trans <|
    W3_arg m c main_arg5 (by decide) (by decide) (by decide)
theorem W6_main_arg6 (c : Dev nD) : W6 m c main_arg6 = m ((c : Thread nD τ).loc main_arg6) :=
  (W6_of_ne m c main_arg6 (by decide)).trans <| (W5_of m c main_arg6 (by decide)).trans <| (W4_of_ne m c main_arg6 (by decide)).trans <|
    W3_arg m c main_arg6 (by decide) (by decide) (by decide)

/-- THE FRAME: every weakly fair execution terminates, nothing faulting, with every argument array as launched. -/
theorem frame_all : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩)
    (run_all m ρ)

end Cert.KernelIdeal.Hand

end
-- ==== Proof.Spec.lean ====
import Idealize.ShloMosaic.PureOps.Ideal
import Idealize.ShloMosaic.PureOps.Ideal.Laws
import Idealize.ShloMosaic.Lib.ValueIdx

/-!
# The two-layer graph convolution, as mathematics on the extended reals

A graph on 500000 nodes has 16000000 weighted edges `(src e, dst e, ew e)`; a self loop of weight one is
appended for every node, giving 16500000 edges. With `deg n` the total weight of the edges ending at `n`,
`dis n = deg n ^ (-1/2)` (zero where the degree is not positive) and `norm e = dis (src e) · w e · dis (dst e)`,
one convolution layer maps node features `h` to `n ↦ ∑_{e : dst e = n} (h (src e) · W) · norm e + b`.

The network is two such layers with a rectifier between them, the sum of the second layer over all nodes,
and a soft maximum over the two classes. Two arrangements of this computation are stated here, index by index:

* `logitR` follows the layers as written (a 16-wide and then a 2-wide message per edge);
* `logitK` uses that the input feature is one number per node (so the first layer's messages are scalars)
  and that only the node-sum of the second layer is needed: by linearity it is
  `∑_j (∑_n wsrc n · hid n j) · W2 j c + 500000 · b2 c` with `wsrc n = ∑_{e : src e = n} norm e`,
  the node sum taken as 125 blocks of 4000 rows.

An edge endpoint is a 32-bit word. A scattered sum drops a word that is not a node number; a gathered read wraps a
negative word by the extent and clamps. When every endpoint is a node number the two coincide.
-/

noncomputable section

namespace Cert.GcnSpec

open Idealize.ShloMosaic Idealize.ShloMosaic.ValueIdx

variable (x : (⟨2, ![500000, 1]⟩ : Shape).Idx → EReal) (ei : (⟨2, ![2, 16000000]⟩ : Shape).Idx → BitVec 32)
  (ew : (⟨1, ![16000000]⟩ : Shape).Idx → EReal) (W1 : (⟨2, ![1, 16]⟩ : Shape).Idx → EReal)
  (b1 : (⟨1, ![16]⟩ : Shape).Idx → EReal) (W2 : (⟨2, ![16, 2]⟩ : Shape).Idx → EReal) (b2 : (⟨1, ![2]⟩ : Shape).Idx → EReal)

/-- The float zero. -/
abbrev zero : EReal := Ideal.ofBits .f32 0x00000000#32

/-- Endpoint `r` (0 the source, 1 the target) of edge `e` of the edge list with the self loops appended. -/
def endp (r : Fin 2) (e : Fin 16500000) : BitVec 32 :=
  if h : e.val < 16000000 then ei (ix2 r ⟨e.val, h⟩) else BitVec.ofNat 32 (e.val - 16000000)

/-- The weight of edge `e`: the given one, and one for a self loop. -/
def wt (e : Fin 16500000) : EReal :=
  if h : e.val < 16000000 then ew (ix1 ⟨e.val, h⟩) else Ideal.ofBits .f32 0x3F800000#32

/-- A scattered update whose index word is `v` lands on node `n`: the word, read signed, is `n`. -/
def lands (v : BitVec 32) (n : Fin 500000) : Prop := v.toInt = (n.val : Int)

instance (v : BitVec 32) (n : Fin 500000) : Decidable (lands v n) := by unfold lands; infer_instance

/-- The node a gathered read with index word `v` reads: a negative word is wrapped by the extent, and the
    result, read signed, is clamped into the node range. -/
def pick (v : BitVec 32) : Fin 500000 :=
  ⟨min (if v.toInt < 0 then v + 500000#32 else v).toInt.toNat 499999, by omega⟩

/-- The weighted in-degree. -/
def deg (n : Fin 500000) : EReal :=
  zero + ∑ e ∈ Finset.univ.filter (fun e => lands (endp ei 1 e) n), wt ew e

/-- The inverse square root of the degree, zero where the degree is not positive. -/
def dis (n : Fin 500000) : EReal :=
  if zero < deg ei ew n then Ideal.rsqrt (max (deg ei ew n) (Ideal.ofBits .f32 0x2B8CBCCC#32)) else zero

/-- The symmetric normalisation of edge `e`. -/
def norm (e : Fin 16500000) : EReal :=
  dis ei ew (pick (endp ei 0 e)) * wt ew e * dis ei ew (pick (endp ei 1 e))

/-- The soft maximum over two classes, shifted by the larger logit. -/
def softmax2 (z : Fin 2 → EReal) (c : Fin 2) : EReal :=
  Ideal.div (Ideal.exp (z c - max (z 0) (z 1)))
    (Ideal.exp (z 0 - max (z 0) (z 1)) + Ideal.exp (z 1 - max (z 0) (z 1)))

/-! ## The layers as written -/

/-- The first layer's linear map: one input feature times a row of sixteen weights. -/
def lin1 (n : Fin 500000) (j : Fin 16) : EReal := x (ix2 n 0) * W1 (ix2 0 j)

/-- The first layer's aggregate plus bias, rectified. -/
def hidR (n : Fin 500000) (j : Fin 16) : EReal :=
  max ((zero + ∑ e ∈ Finset.univ.filter (fun e => lands (endp ei 1 e) n),
      lin1 x W1 (pick (endp ei 0 e)) j * norm ei ew e) + b1 (ix1 j)) zero

/-- The second layer's linear map. -/
def lin2 (n : Fin 500000) (c : Fin 2) : EReal := ∑ j : Fin 16, hidR x ei ew W1 b1 n j * W2 (ix2 j c)

/-- The second layer's aggregate plus bias. -/
def out2 (n : Fin 500000) (c : Fin 2) : EReal :=
  (zero + ∑ e ∈ Finset.univ.filter (fun e => lands (endp ei 1 e) n),
      lin2 x ei ew W1 b1 W2 (pick (endp ei 0 e)) c * norm ei ew e) + b2 (ix1 c)

/-- The second layer summed over the nodes. -/
def logitR (c : Fin 2) : EReal := zero + ∑ n : Fin 500000, out2 x ei ew W1 b1 W2 b2 n c

/-- The network's result, the layers as written. -/
def refOut (i : (⟨2, ![1, 2]⟩ : Shape).Idx) : EReal := softmax2 (logitR x ei ew W1 b1 W2 b2) (i 1)

/-! ## The scalar-message arrangement -/

/-- The first layer's aggregate of scalar messages. -/
def agg (n : Fin 500000) : EReal :=
  zero + ∑ e ∈ Finset.univ.filter (fun e => lands (endp ei 1 e) n), x (ix2 (pick (endp ei 0 e)) 0) * norm ei ew e

/-- The hidden features from the scalar aggregate. -/
def hidK (n : Fin 500000) (j : Fin 16) : EReal := max (agg x ei ew n * W1 (ix2 0 j) + b1 (ix1 j)) zero

/-- The total normalisation of the edges leaving a node. -/
def wsrc (n : Fin 500000) : EReal :=
  zero + ∑ e ∈ Finset.univ.filter (fun e => lands (endp ei 0 e) n), norm ei ew e

/-- Row `r` of block `t` of the node range cut into 125 blocks of 4000. -/
def node (t : Fin 125) (r : Fin 4000) : Fin 500000 := ⟨4000 * t.val + r.val, by omega⟩

/-- The weighted node sum of the hidden features, block by block. -/
def acc (j : Fin 16) : EReal :=
  zero + ∑ t : Fin 125, ∑ r : Fin 4000, wsrc ei ew (node t r) * hidK x ei ew W1 b1 (node t r) j

/-- The class logits from the weighted node sum. -/
def logitK (c : Fin 2) : EReal :=
  (zero + ∑ j : Fin 16, acc x ei ew W1 b1 j * W2 (ix2 j c)) + Ideal.ofBits .f32 0x48F42400#32 * b2 (ix1 c)

/-- The network's result, the scalar-message arrangement. -/
def kerOut (i : (⟨2, ![1, 2]⟩ : Shape).Idx) : EReal := softmax2 (logitK x ei ew W1 b1 W2 b2) (i 1)

end Cert.GcnSpec

end
-- ==== Proof.KerPay1.lean ====
import Idealize.ShloMosaic.Lib.ValueIdx
import Idealize.ShloMosaic.Lib.Pipeline.Value
import Idealize.ShloMosaic.Lib.ValueLayout
import Idealize.ShloMosaic.PureOps.Ideal.Laws
import proofs.«136975_j63797444214872_2_alg».proof.Proof.Gen.KernelIdeal.Skeleton
import proofs.«136975_j63797444214872_2_alg».proof.Proof.Spec

noncomputable section

namespace Cert.KerSide

open Idealize.ShloMosaic Idealize.ShloMosaic.ValueIdx Cert.KernelIdeal

/-! # The first region's stored value, entry by entry

The first region stores, for a block of 4000 nodes, the rectified affine image of the node's scalar aggregate:
entry `(p, j)` is `max (a p * w j + b j) 0`. -/

/-- A column `[a, 1]` broadcast to `[a, b]` reads, at `(p, c)`, the column's entry `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry `(p, j)` of the first region's stored block. -/
theorem k0_pay1_apply (v0 : Vec Ideal S4000x1 .f32) (v2 v3 : Vec Ideal S1x16 .f32) (p : Fin 4000) (j : Fin 16) :
    Gen.k0_pay1 v0 v2 v3 (ix2 p j) = max (v0 (ix2 p 0) * v2 (ix2 0 j) + v3 (ix2 0 j)) GcnSpec.zero := by
  unfold Gen.k0_pay1
  simp only [shapeCast_self]
  rw [maximumf_apply, addf_apply, mulf_apply, broadcast_apply, broadcastTo_a1_ab_apply, broadcastTo_1b_ab_apply,
    broadcastTo_1b_ab_apply]
  rfl

end Cert.KerSide

end
-- ==== Proof.KIValue0.lean ====
import proofs.«136975_j63797444214872_2_alg».proof.Proof.KIFrame0
import proofs.«136975_j63797444214872_2_alg».proof.Proof.KerPay1
import Idealize.ShloMosaic.Lib.Pipeline.Value
import Idealize.ShloMosaic.Lib.ValueIdx

/-!
# The first kernel region: the array it leaves

Every grid point stores one block of 4000 rows of hidden features, and the 125 blocks tile the `[500000, 16]` array. So
the array ends as one function of the three arrays the region reads: entry `(n, j)` is
`max (a n · w j + b j) 0`.
-/

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window BodyObligation cellOf)

section Region0Value

variable (V : (c : Dev nD) → (b : Ref sig .tc) → Buf (Elt Ideal) ((c : Thread nD τ).loc b))

/-- The origin of a rank-two rectangle. -/
theorem origin2 : (![0, 0] : Fin 2 → Nat) = fun _ => 0 := funext fun a => by fin_cases a <;> rfl

/-- The hidden features as one function of the scalar aggregate, the weight row and the bias row. -/
abbrev hid0 (a : S500000x1.Idx → EReal) (w b : S1x16.Idx → EReal) : S500000x16.Idx → EReal :=
  fun i => max (a (ix2 (i 0) 0) * w (ix2 0 (i 1)) + b (ix2 0 (i 1))) GcnSpec.zero

/-- One hidden feature from the three entries it reads. -/
abbrev hidAt (a : S500000x1.Idx → EReal) (w b : S1x16.Idx → EReal) (ia : S500000x1.Idx) (iw ib : S1x16.Idx) : EReal :=
  max (a ia * w iw + b ib) GcnSpec.zero

/-- The block index maps over the grid: point `t` reads row block `t` of the aggregate and the whole weight and bias rows,
    and stores row block `t` of the output. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of `hid0` of the arrays as the region finds them. -/
theorem flushed0_3_eq (c : Dev nD) (t : Fin cfg0.N) :
    (dat0 V c).flushed 3 t
      = ((cfg0.win 3).blk t).view.read (Elt Ideal) (hid0 (V c main_v46) (V c main_arg3) (V c main_v47)) := by
  show (cfg0.win 3).cut (grid0.coords t) ((dat0 V c).after 3 t) = _
  rw [after0_3]
  unfold out0_3
  rw [View.canon_unit_zero origin2]
  simp only [View.ld_unit_zero (S := S4000x1) origin2, View.ld_unit_zero (S := S1x16) origin2]
  obtain ⟨e0, e1, e2, e3, e4, e5, e6, e7⟩ := index_facts0 t
  refine funext fun (j : S4000x16.Idx) => ?_
  obtain ⟨p, q, rfl⟩ : ∃ (p : Fin 4000) (q : Fin 16), j = ix2 p q := ⟨j 0, j 1, eq_ix2 j⟩
  show k0_pay1 (iblk0 V c 0 t) (iblk0 V c 1 t) (iblk0 V c 2 t) (ix2 p q)
    = hid0 (V c main_v46) (V c main_arg3) (V c main_v47) (((cfg0.win 3).blk t).view.emb (ix2 p q))
  rw [Cert.KerSide.k0_pay1_apply]
  show hidAt (V c main_v46) (V c main_arg3) (V c main_v47) (((cfg0.win 0).blk t).view.emb (ix2 p 0))
        (((cfg0.win 1).blk t).view.emb (ix2 0 q)) (((cfg0.win 2).blk t).view.emb (ix2 0 q))
      = hidAt (V c main_v46) (V c main_arg3) (V c main_v47) (ix2 ((((cfg0.win 3).blk t).view.emb (ix2 p q)) 0) 0)
        (ix2 0 ((((cfg0.win 3).blk t).view.emb (ix2 p q)) 1)) (ix2 0 ((((cfg0.win 3).blk t).view.emb (ix2 p q)) 1))
  have h0 : @Eq S500000x1.Idx (((cfg0.win 0).blk t).view.emb (ix2 p 0)) (ix2 ((((cfg0.win 3).blk t).view.emb (ix2 p q)) 0) 0) := by
    funext a; apply Fin.ext
    match a with
    | ⟨0, _⟩ => show win0_0.index t (0 : Fin 2) * 4000 + 1 * p.val = win0_3.index t (0 : Fin 2) * 4000 + 1 * p.val; omega
    | ⟨1, _⟩ => show win0_0.index t (1 : Fin 2) * 1 + 1 * 0 = 0; omega
  have h1 : @Eq S1x16.Idx (((cfg0.win 1).blk t).view.emb (ix2 0 q)) (ix2 0 ((((cfg0.win 3).blk t).view.emb (ix2 p q)) 1)) := by
    funext a; apply Fin.ext
    match a with
    | ⟨0, _⟩ => show win0_1.index t (0 : Fin 2) * 1 + 1 * 0 = 0; omega
    | ⟨1, _⟩ => show win0_1.index t (1 : Fin 2) * 16 + 1 * q.val = win0_3.index t (1 : Fin 2) * 16 + 1 * q.val; omega
  have h2 : @Eq S1x16.Idx (((cfg0.win 2).blk t).view.emb (ix2 0 q)) (ix2 0 ((((cfg0.win 3).blk t).view.emb (ix2 p q)) 1)) := by
    funext a; apply Fin.ext
    match a with
    | ⟨0, _⟩ => show win0_2.index t (0 : Fin 2) * 1 + 1 * 0 = 0; omega
    | ⟨1, _⟩ => show win0_2.index t (1 : Fin 2) * 16 + 1 * q.val = win0_3.index t (1 : Fin 2) * 16 + 1 * q.val; omega
  rw [h0, h1, h2]

/-- An index of the array is in point `t`'s block iff each coordinate is in the block's range on its axis. -/
theorem mem_blk0_3 (t : Fin cfg0.N) (i : S500000x16.Idx) :
    i ∈ ((cfg0.win 3).blk t).view.set ↔ ∀ a : Fin 2, win0_3.index t a * S4000x16.size a ≤ (i a).val
      ∧ (i a).val < win0_3.index t a * S4000x16.size a + S4000x16.size a := by
  show i ∈ ((View.whole main_v48).slice (win0_3.rect t)).set ↔ _
  rw [View.set_slice_whole, Rect.mem_set_unit]
  exact Iff.rfl

/-- The blocks tile the array: row `r` is in the block of the point `r / 4000`. -/
theorem tiled0_3 (i : S500000x16.Idx) :
    ∃ t : Fin cfg0.N, (cfg0.win 3).flush t = true ∧ i ∈ ((cfg0.win 3).blk t).view.set := by
  have hi0 : (i 0).val < 500000 := (i 0).isLt
  have hi1 : (i 1).val < 16 := (i 1).isLt
  have hN : cfg0.N = 125 := N_0
  obtain ⟨t, ht⟩ : ∃ t : Fin cfg0.N, t.val = (i 0).val / 4000 := ⟨⟨(i 0).val / 4000, by omega⟩, rfl⟩
  refine ⟨t, flush0_3 t, ?_⟩
  obtain ⟨e0, e1, e2, e3, e4, e5, e6, e7⟩ := index_facts0 t
  rw [mem_blk0_3]
  intro a
  match a with
  | ⟨0, _⟩ =>
    show win0_3.index t (0 : Fin 2) * 4000 ≤ (i 0).val ∧ (i 0).val < win0_3.index t (0 : Fin 2) * 4000 + 4000
    omega
  | ⟨1, _⟩ =>
    show win0_3.index t (1 : Fin 2) * 16 ≤ (i 1).val ∧ (i 1).val < win0_3.index t (1 : Fin 2) * 16 + 16
    omega

/-- The array the region leaves: the hidden features of the arrays it found. -/
theorem final0 (c : Dev nD) :
    (dat0 V c).arrAt 3 cfg0.N = hid0 (V c main_v46) (V c main_arg3) (V c main_v47) :=
  (dat0 V c).arrAt_eq_of_cover 3 _ (fun t _ => flushed0_3_eq V c t) tiled0_3

end Region0Value

end Cert.KernelIdeal.Hand

end
-- ==== Proof.KIPieces.lean ====
import proofs.«136975_j63797444214872_2_alg».proof.Proof.KIFrame1b
import Idealize.ShloMosaic.Lib.Pipeline.Value

/-!
# What each case of the second region leaves, as the body's arithmetic

The accumulator after a point is the accumulator step `k1_pay2` of what it held (the zero row `k1_pay1` at the
first point) and the point's two input blocks; the result window after the last point is the final computation
`k1_pay3` of the accumulator just stored, the matrix block and the bias block.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

theorem hz2 : (![0, 0] : Fin 2 → Nat) = fun _ => 0 := funext fun a => by fin_cases a <;> rfl

theorem sout1_B_eq (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : ¬cond1_1 i) (x0 : Vec F S4000x1 .f32) (x1 : Vec F S4000x16 .f32) (x2 : Vec F S16x2 .f32) (x3 : Vec F S1x2 .f32) (xs : Vec F S1x16 .f32) :
    sout1_B (F := F) c i arg1 harg1 arg2 harg2 arg3 harg3 arg4 harg4 arg5 harg5 arg6 harg6 hc0 hc1 x0 x1 x2 x3 xs = k1_pay2 xs x0 x1 := by
  unfold sout1_B
  rw [View.read_writes_eq_canon _ _ _ (scover1_B c i arg1 harg1 arg2 harg2 arg3 harg3 arg4 harg4 arg5 harg5 arg6 harg6 hc0 hc1 x0 x1 x2 x3 xs)]
  unfold kernelRun1_B
  dsimp only
  sl_unfold_words
  rw [View.canon_unit_zero hz2]
  simp only [View.readAt_eq_ld, harg6.read_unread, harg1.read_unread, harg2.read_unread, View.ld_unit_zero (S := S1x16) hz2,
    View.ld_unit_zero (S := S4000x1) hz2, View.ld_unit_zero (S := S4000x16) hz2]

theorem sout1_A_eq (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : cond1_0 i) (hc1 : ¬cond1_1 i) (x0 : Vec F S4000x1 .f32) (x1 : Vec F S4000x16 .f32) (x2 : Vec F S16x2 .f32) (x3 : Vec F S1x2 .f32) :
    sout1_A (F := F) c i arg1 harg1 arg2 harg2 arg3 harg3 arg4 harg4 arg5 harg5 arg6 harg6 hc0 hc1 x0 x1 x2 x3 = k1_pay2 k1_pay1 x0 x1 := by
  unfold sout1_A
  rw [View.read_writes_eq_canon _ _ _ (scover1_A c i arg1 harg1 arg2 harg2 arg3 harg3 arg4 harg4 arg5 harg5 arg6 harg6 hc0 hc1 x0 x1 x2 x3)]
  unfold kernelRun1_A
  dsimp only
  sl_unfold_words
  rw [View.canon_cons_unit_zero hz2, View.readCov_unit_zero (S := S1x16) arg6.view hz2]
  simp only [View.readAt_eq_ld, harg1.read_unread, harg2.read_unread,
    View.ld_unit_zero (S := S4000x1) hz2, View.ld_unit_zero (S := S4000x16) hz2]

theorem sout1_C_eq (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i) (x0 : Vec F S4000x1 .f32) (x1 : Vec F S4000x16 .f32) (x2 : Vec F S16x2 .f32) (x3 : Vec F S1x2 .f32) (xs : Vec F S1x16 .f32) :
    sout1_C (F := F) c i arg1 harg1 arg2 harg2 arg3 harg3 arg4 harg4 arg5 harg5 arg6 harg6 hc0 hc1 x0 x1 x2 x3 xs = k1_pay2 xs x0 x1 := by
  unfold sout1_C
  rw [View.read_writes_eq_canon _ _ _ (scover1_C c i arg1 harg1 arg2 harg2 arg3 harg3 arg4 harg4 arg5 harg5 arg6 harg6 hc0 hc1 x0 x1 x2 x3 xs)]
  unfold kernelRun1_C
  dsimp only
  sl_unfold_words
  rw [View.canon_unit_zero hz2]
  simp only [View.readAt_eq_ld, harg6.read_unread, harg1.read_unread, harg2.read_unread, View.ld_unit_zero (S := S1x16) hz2,
    View.ld_unit_zero (S := S4000x1) hz2, View.ld_unit_zero (S := S4000x16) hz2]

theorem out1_C_4_eq (c : Dev nD) (i : grid1.Coords) (arg1 : Memref sig .tc .vmem S4000x1 .f32) (harg1 : arg1.IsWhole) (arg2 : Memref sig .tc .vmem S4000x16 .f32) (harg2 : arg2.IsWhole) (arg3 : Memref sig .tc .vmem S16x2 .f32) (harg3 : arg3.IsWhole) (arg4 : Memref sig .tc .vmem S1x2 .f32) (harg4 : arg4.IsWhole) (arg5 : Memref sig .tc .vmem S1x2 .f32) (harg5 : arg5.IsWhole) (arg6 : Memref sig .tc .vmem S1x16 .f32) (harg6 : arg6.IsWhole) (hc0 : ¬cond1_0 i) (hc1 : cond1_1 i) (x0 : Vec F S4000x1 .f32) (x1 : Vec F S4000x16 .f32) (x2 : Vec F S16x2 .f32) (x3 : Vec F S1x2 .f32) (xs : Vec F S1x16 .f32) :
    out1_C_4 (F := F) c i arg1 harg1 arg2 harg2 arg3 harg3 arg4 harg4 arg5 harg5 arg6 harg6 hc0 hc1 x0 x1 x2 x3 xs = k1_pay3 (k1_pay2 xs x0 x1) x2 x3 := by
  unfold out1_C_4
  rw [View.read_writes_eq_canon _ _ _ (cover1_C_4 c i arg1 harg1 arg2 harg2 arg3 harg3 arg4 harg4 arg5 harg5 arg6 harg6 hc0 hc1 x0 x1 x2 x3 xs)]
  unfold kernelRun1_C
  dsimp only
  sl_unfold_words
  rw [View.canon_unit_zero hz2, View.readCov_unit_zero (S := S1x16) arg6.view hz2]
  simp only [View.readAt_eq_ld, harg6.read_unread, harg1.read_unread, harg2.read_unread, harg3.read_unread, harg4.read_unread,
    View.ld_unit_zero (S := S1x16) hz2, View.ld_unit_zero (S := S4000x1) hz2, View.ld_unit_zero (S := S4000x16) hz2,
    View.ld_unit_zero (S := S16x2) hz2, View.ld_unit_zero (S := S1x2) hz2]

end Cert.KernelIdeal.Hand

end
-- ==== Proof.KerPay2.lean ====
import Idealize.ShloMosaic.Lib.ValueIdx
import Idealize.ShloMosaic.Lib.Pipeline.Value
import Idealize.ShloMosaic.Lib.ValueLayout
import Idealize.ShloMosaic.PureOps.Ideal.Laws
import proofs.«136975_j63797444214872_2_alg».proof.Proof.Gen.KernelIdeal.Skeleton
import proofs.«136975_j63797444214872_2_alg».proof.Proof.Spec
import proofs.«136975_j63797444214872_2_alg».proof.Proof.KerPay1

noncomputable section

namespace Cert.KerSide

open Idealize.ShloMosaic Idealize.ShloMosaic.ValueIdx Cert.KernelIdeal

/-! # The second region's accumulator, entry by entry

The second region keeps a row of sixteen running sums. It is reset to zero at the first block, and every block of
4000 nodes adds, in column `j`, the sum over the block's rows `r` of `w r * h r j`. -/

/-- The reset value of the accumulator is the zero row. -/
theorem k1_pay1_apply (j : Fin 16) : Gen.k1_pay1 (F := Ideal) (ix2 0 j) = GcnSpec.zero := by
  unfold Gen.k1_pay1
  simp only [shapeCast_self]
  rfl

/-- One block's step of the accumulator: column `j` gains the block's weighted column sum. -/
theorem k1_pay2_apply (v3 : Vec Ideal S1x16 .f32) (v4 : Vec Ideal S4000x1 .f32) (v6 : Vec Ideal S4000x16 .f32) (j : Fin 16) :
    Gen.k1_pay2 v3 v4 v6 (ix2 0 j) = v3 (ix2 0 j) + ∑ r : Fin 4000, v4 (ix2 r 0) * v6 (ix2 r j) := by
  unfold Gen.k1_pay2
  simp only [shapeCast_self]
  rw [addf_apply, shapeCast_a_1a_apply]
  refine congrArg (v3 (ix2 0 j) + ·) ?_
  refine (Ideal.multiReduction_add_single (φ := .f32) _ 0x00000000#32 Gen.reduces_S4000x16_S16 (.inl rfl) rfl (ix1 j)).trans ?_
  show ∑ r : Fin 4000, mulf (F := Ideal) (φ := .f32) (broadcastTo S4000x16 v4 Gen.broadcasts_S4000x1_S4000x16) v6
      (Gen.reduces_S4000x16_S16.lift (ix1 j) r) = _
  refine Finset.sum_congr rfl fun r _ => ?_
  have e : Gen.reduces_S4000x16_S16.lift (ix1 j) r = ix2 r j := by
    funext a
    match a with
    | ⟨0, _⟩ => rfl
    | ⟨1, _⟩ => rfl
  rw [e, mulf_apply, broadcastTo_a1_ab_apply]

end Cert.KerSide

end
-- ==== Proof.KerPay3.lean ====
import Idealize.ShloMosaic.Lib.ValueIdx
import Idealize.ShloMosaic.Lib.Pipeline.Value
import Idealize.ShloMosaic.Lib.ValueLayout
import Idealize.ShloMosaic.PureOps.Ideal.Laws
import proofs.«136975_j63797444214872_2_alg».proof.Proof.Gen.KernelIdeal.Skeleton
import proofs.«136975_j63797444214872_2_alg».proof.Proof.Spec
import proofs.«136975_j63797444214872_2_alg».proof.Proof.KerPay1

noncomputable section

namespace Cert.KerSide

open Idealize.ShloMosaic Idealize.ShloMosaic.ValueIdx Cert.KernelIdeal

/-! # The second region's final store, entry by entry

At the last block the accumulated row `a` of sixteen sums is multiplied into the second layer's weights, the bias is
added 500000 times over (once per node), and the two resulting logits go through a soft maximum:
`z c = (0 + ∑ j, a j * W j c) + 500000 * b c`, and the stored entry `c` is `exp (z c - m) / (exp (z 0 - m) + exp (z 1 - m))`
with `m = max (z 0) (z 1)`. -/

/-- The float word of negative infinity is the bottom element. -/
theorem ofBits_neg_inf_f32 : Ideal.ofBits .f32 0xFF800000#32 = ⊥ := by simp [Ideal.ofBits, Ideal.ieee]

/-- A fold of `max` over two entries. -/
theorem fold_max_fin2 (b : EReal) (f : Fin 2 → EReal) :
    (Finset.univ : Finset (Fin 2)).fold max b f = max (f 0) (max (f 1) b) := by
  rw [show (Finset.univ : Finset (Fin 2)) = {0, 1} from by decide, Finset.fold_insert (by decide), Finset.fold_singleton]

/-- The index a reduction over the class axis inserts. -/
theorem lift_row (h : S1x2.Reduces [1] S1) (k : Fin 2) : h.lift (ix1 (0 : Fin 1)) k = ix2 (0 : Fin 1) k := by
  funext a
  match a with
  | ⟨0, _⟩ => rfl
  | ⟨1, _⟩ => rfl

/-- The maximum over the two classes, taken from negative infinity. -/
theorem rowmax_apply (w : FVec Ideal S1x2 .f32) (h : S1x2.Reduces [1] S1) (hφ : FKind.Formats .f32)
    (hacc : (0xFF800000#32 : BitVec 32) = FKind.maximumf.neutral .f32 hφ) :
    multiReduction .maximumf [1] S1 w 0xFF800000#32 h hφ hacc (ix1 0) = max (w (ix2 0 0)) (w (ix2 0 1)) := by
  refine (Ideal.multiReduction_maximumf_single w 0xFF800000#32 h hφ hacc (ix1 0)).trans ?_
  refine (fold_max_fin2 _ _).trans ?_
  show max (w (h.lift (ix1 0) (0 : Fin 2))) (max (w (h.lift (ix1 0) (1 : Fin 2))) (Ideal.ofBits .f32 0xFF800000#32)) = _
  rw [lift_row, lift_row, ofBits_neg_inf_f32, max_bot_right]

/-- The sum over the two classes, taken from zero. -/
theorem rowsum_apply (w : FVec Ideal S1x2 .f32) (h : S1x2.Reduces [1] S1) (hφ : FKind.Formats .f32)
    (hacc : (0x00000000#32 : BitVec 32) = FKind.add.neutral .f32 hφ) :
    multiReduction .add [1] S1 w 0x00000000#32 h hφ hacc (ix1 0) = w (ix2 0 0) + w (ix2 0 1) := by
  refine (Ideal.multiReduction_add_single w 0x00000000#32 h hφ hacc (ix1 0)).trans ?_
  refine (Fin.sum_univ_two _).trans ?_
  show w (h.lift (ix1 0) (0 : Fin 2)) + w (h.lift (ix1 0) (1 : Fin 2)) = _
  rw [lift_row, lift_row]

/-- A one-entry row spread over the two classes reads that entry. -/
theorem keep_apply (v : FVec Ideal S1 .f32) (h1 : S1.ShapeCasts S1x1) (h2 : S1x1.Broadcasts S1x2) (c : Fin 2) :
    broadcastTo S1x2 (shapeCast S1x1 v h1) h2 (ix2 0 c) = v (ix1 0) := by
  rw [broadcastTo_a1_ab_apply, shapeCast_a_1a_apply]

/-- The soft maximum over the two classes of a row of logits. -/
theorem softmax_row (w : FVec Ideal S1x2 .f32) (h : S1x2.Reduces [1] S1) (hφ : FKind.Formats .f32)
    (hmax : (0xFF800000#32 : BitVec 32) = FKind.maximumf.neutral .f32 hφ)
    (hadd : (0x00000000#32 : BitVec 32) = FKind.add.neutral .f32 hφ)
    (h1 : S1.ShapeCasts S1x1) (h2 : S1x1.Broadcasts S1x2) (c : Fin 2) :
    divf (exp (subf w (broadcastTo S1x2 (shapeCast S1x1 (multiReduction .maximumf [1] S1 w 0xFF800000#32 h hφ hmax) h1) h2)))
      (broadcastTo S1x2 (shapeCast S1x1 (multiReduction .add [1] S1
        (exp (subf w (broadcastTo S1x2 (shapeCast S1x1 (multiReduction .maximumf [1] S1 w 0xFF800000#32 h hφ hmax) h1) h2)))
        0x00000000#32 h hφ hadd) h1) h2) (ix2 0 c)
      = GcnSpec.softmax2 (fun c' => w (ix2 0 c')) c := by
  have hM : ∀ c' : Fin 2, broadcastTo S1x2 (shapeCast S1x1 (multiReduction .maximumf [1] S1 w 0xFF800000#32 h hφ hmax) h1) h2 (ix2 0 c')
      = max (w (ix2 0 0)) (w (ix2 0 1)) := fun c' => by rw [keep_apply, rowmax_apply]
  generalize broadcastTo S1x2 (shapeCast S1x1 (multiReduction .maximumf [1] S1 w 0xFF800000#32 h hφ hmax) h1) h2 = M at hM ⊢
  have hE : ∀ c' : Fin 2, exp (subf w M) (ix2 0 c') = Ideal.exp (w (ix2 0 c') - max (w (ix2 0 0)) (w (ix2 0 1))) := fun c' => by
    show Ideal.exp (w (ix2 0 c') - M (ix2 0 c')) = _
    rw [hM]
  rw [divf_apply, keep_apply, rowsum_apply, hE, hE, hE]
  rfl

/-- The left operand's index of the product at output `(0, c)` has row coordinate that of the output. -/
theorem lhs_row (i : S1x2.Idx) (q : dot_S1x16_S16x2_S1x2_1_0_0_1_n_n.contr.Idx) :
    (dot_S1x16_S16x2_S1x2_1_0_0_1_n_n.lhsIdx i q 0).val = (i 0).val := by
  unfold DotDims.lhsIdx
  rw [dif_neg (show ¬(0 : Fin S1x16.rank) ∈ dot_S1x16_S16x2_S1x2_1_0_0_1_n_n.lhsBatch by decide),
    dif_pos (show (0 : Fin S1x16.rank) ∈ dot_S1x16_S16x2_S1x2_1_0_0_1_n_n.lhsNonContracting by decide)]
  rfl

/-- The right operand's index has column coordinate that of the output. -/
theorem rhs_col (i : S1x2.Idx) (q : dot_S1x16_S16x2_S1x2_1_0_0_1_n_n.contr.Idx) :
    (dot_S1x16_S16x2_S1x2_1_0_0_1_n_n.rhsIdx i q 1).val = (i 1).val := by
  unfold DotDims.rhsIdx
  rw [dif_neg (show ¬(1 : Fin S16x2.rank) ∈ dot_S1x16_S16x2_S1x2_1_0_0_1_n_n.rhsBatch by decide),
    dif_pos (show (1 : Fin S16x2.rank) ∈ dot_S1x16_S16x2_S1x2_1_0_0_1_n_n.rhsNonContracting by decide)]
  rfl

/-- The two logits: the accumulated row through the second layer's weights, plus the bias once per node. -/
theorem logit_apply (v19 : FVec Ideal S1x16 .f32) (v20 : FVec Ideal S16x2 .f32) (v21 : FVec Ideal S1x2 .f32) (c : Fin 2) :
    addf (matmul dot_S1x16_S16x2_S1x2_1_0_0_1_n_n (some .fp32) v19 v20 (constant (F := Ideal) S1x2 .f32 0x00000000#32))
        (mulf (broadcast S1x2 (Scalar.ofBits (F := Ideal) .f32 0x48F42400#32)) v21) (ix2 0 c)
      = (GcnSpec.zero + ∑ j : Fin 16, v19 (ix2 0 j) * v20 (ix2 j c)) + Ideal.ofBits .f32 0x48F42400#32 * v21 (ix2 0 c) := by
  rw [addf_apply, mulf_apply, broadcast_apply]
  refine congrArg (· + Ideal.ofBits .f32 0x48F42400#32 * v21 (ix2 0 c)) ?_
  simp only [matmul]
  rw [Ideal.matmul_apply, constant_apply,
    ← Equiv.sum_comp (ValueIdx.contrEquiv1 dot_S1x16_S16x2_S1x2_1_0_0_1_n_n 16 rfl rfl).symm]
  refine congrArg (GcnSpec.zero + ·) (Finset.sum_congr rfl fun k _ => ?_)
  have hk := ValueIdx.contrEquiv1_symm_val dot_S1x16_S16x2_S1x2_1_0_0_1_n_n 16 rfl rfl k
  have el : dot_S1x16_S16x2_S1x2_1_0_0_1_n_n.lhsIdx (ix2 0 c)
      ((ValueIdx.contrEquiv1 dot_S1x16_S16x2_S1x2_1_0_0_1_n_n 16 rfl rfl).symm k) = ix2 0 k := funext fun a => Fin.ext (by
    match a with
    | ⟨0, _⟩ => exact lhs_row _ _
    | ⟨1, _⟩ => exact (dot_S1x16_S16x2_S1x2_1_0_0_1_n_n.lhsIdx_val_of_single rfl (ix2 0 c) _).trans hk)
  have er : dot_S1x16_S16x2_S1x2_1_0_0_1_n_n.rhsIdx (ix2 0 c)
      ((ValueIdx.contrEquiv1 dot_S1x16_S16x2_S1x2_1_0_0_1_n_n 16 rfl rfl).symm k) = ix2 k c := funext fun a => Fin.ext (by
    match a with
    | ⟨0, _⟩ => exact (dot_S1x16_S16x2_S1x2_1_0_0_1_n_n.rhsIdx_val_of_single rfl (ix2 0 c) _).trans hk
    | ⟨1, _⟩ => exact rhs_col _ _)
  rw [el, er]

/-- Entry `c` of the final store. -/
theorem k1_pay3_apply (v19 : Vec Ideal S1x16 .f32) (v20 : Vec Ideal S16x2 .f32) (v21 : Vec Ideal S1x2 .f32) (c : Fin 2) :
    Gen.k1_pay3 v19 v20 v21 (ix2 0 c)
      = GcnSpec.softmax2 (fun c' => (GcnSpec.zero + ∑ j : Fin 16, v19 (ix2 0 j) * v20 (ix2 j c'))
          + Ideal.ofBits .f32 0x48F42400#32 * v21 (ix2 0 c')) c := by
  unfold Gen.k1_pay3
  simp only [shapeCast_self]
  exact (softmax_row _ _ _ _ _ _ _ c).trans
    (congrArg (fun z => GcnSpec.softmax2 z c) (funext fun c' => logit_apply v19 v20 v21 c'))

end Cert.KerSide

end
-- ==== Proof.KIValue1.lean ====
import proofs.«136975_j63797444214872_2_alg».proof.Proof.KIPieces
import proofs.«136975_j63797444214872_2_alg».proof.Proof.KerPay2
import proofs.«136975_j63797444214872_2_alg».proof.Proof.KerPay3
import proofs.«136975_j63797444214872_2_alg».proof.Proof.Spec
import Idealize.ShloMosaic.Lib.Pipeline.Value
import Idealize.ShloMosaic.Lib.ValueIdx

/-!
# The second region's result, as one function of the arrays it is entered with

Block `t` of the weight column is rows `4000 t …` of the `[500000, 1]` array and block `t` of the features rows
`4000 t …` of the `[500000, 16]` array; the matrix and the bias are read whole at every point. By induction on the
point, the accumulator after point `n` is zero plus the first `n + 1` blocks' weighted column sums; the one
write-back of the `[1, 2]` result, at the last point, stores the soft maximum of the logits formed from the full sum.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The printed index maps over the grid: the two row-blocked windows are at row block `t`, the others at the origin. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The weight column and the feature array the region is entered with, and the matrix and bias. -/
abbrev wcol (c : Dev nD) : S500000x1.Idx → EReal := V c main_v52
abbrev feat (c : Dev nD) : S500000x16.Idx → EReal := V c main_v48
abbrev mat2 (c : Dev nD) : S16x2.Idx → EReal := V c main_arg5
abbrev bias2 (c : Dev nD) : S1x2.Idx → EReal := V c main_v53

theorem iblk1_0_apply (c : Dev nD) (t : Fin cfg1.N) (r : Fin 4000) :
    (iblk1 V c 0 t : S4000x1.Idx → EReal) (ix2 r 0) = wcol V c (ix2 ⟨4000 * t.val + r.val, by have := t.isLt; have : cfg1.N = 125 := N_1; omega⟩ 0) := by
  obtain ⟨e0, e1, -⟩ := idx_facts1 t
  show wcol V c (((cfg1.win 0).blk t).view.emb (ix2 r 0)) = _
  congr 1
  funext a; apply Fin.ext
  match a with
  | ⟨0, _⟩ => show win1_0.index t (0 : Fin 2) * 4000 + 1 * r.val = 4000 * t.val + r.val; omega
  | ⟨1, _⟩ => show win1_0.index t (1 : Fin 2) * 1 + 1 * 0 = 0; omega

theorem iblk1_1_apply (c : Dev nD) (t : Fin cfg1.N) (r : Fin 4000) (j : Fin 16) :
    (iblk1 V c 1 t : S4000x16.Idx → EReal) (ix2 r j) = feat V c (ix2 ⟨4000 * t.val + r.val, by have := t.isLt; have : cfg1.N = 125 := N_1; omega⟩ j) := by
  obtain ⟨-, -, e0, e1, -⟩ := idx_facts1 t
  show feat V c (((cfg1.win 1).blk t).view.emb (ix2 r j)) = _
  congr 1
  funext a; apply Fin.ext
  match a with
  | ⟨0, _⟩ => show win1_1.index t (0 : Fin 2) * 4000 + 1 * r.val = 4000 * t.val + r.val; omega
  | ⟨1, _⟩ => show win1_1.index t (1 : Fin 2) * 16 + 1 * j.val = j.val; omega

theorem iblk1_2_apply (c : Dev nD) (t : Fin cfg1.N) (j : Fin 16) (k : Fin 2) :
    (iblk1 V c 2 t : S16x2.Idx → EReal) (ix2 j k) = mat2 V c (ix2 j k) := by
  obtain ⟨-, -, -, -, e0, e1, -⟩ := idx_facts1 t
  show mat2 V c (((cfg1.win 2).blk t).view.emb (ix2 j k)) = _
  congr 1
  funext a; apply Fin.ext
  match a with
  | ⟨0, _⟩ => show win1_2.index t (0 : Fin 2) * 16 + 1 * j.val = j.val; omega
  | ⟨1, _⟩ => show win1_2.index t (1 : Fin 2) * 2 + 1 * k.val = k.val; omega

theorem iblk1_3_apply (c : Dev nD) (t : Fin cfg1.N) (k : Fin 2) :
    (iblk1 V c 3 t : S1x2.Idx → EReal) (ix2 0 k) = bias2 V c (ix2 0 k) := by
  obtain ⟨-, -, -, -, -, -, e0, e1, -⟩ := idx_facts1 t
  show bias2 V c (((cfg1.win 3).blk t).view.emb (ix2 0 k)) = _
  congr 1
  funext a; apply Fin.ext
  match a with
  | ⟨0, _⟩ => show win1_3.index t (0 : Fin 2) * 1 + 1 * 0 = 0; omega
  | ⟨1, _⟩ => show win1_3.index t (1 : Fin 2) * 2 + 1 * k.val = k.val; omega

/-- Block `t`'s weighted column sum at column `j` (zero past the grid). -/
def blockSum (c : Dev nD) (t : ℕ) (j : Fin 16) : EReal :=
  if h : t < 125 then ∑ r : Fin 4000, wcol V c (ix2 ⟨4000 * t + r.val, by omega⟩ 0) * feat V c (ix2 ⟨4000 * t + r.val, by omega⟩ j) else 0

theorem step_eq (c : Dev nD) (t : Fin cfg1.N) (xs : Vec Ideal S1x16 .f32) (j : Fin 16) :
    k1_pay2 xs (iblk1 V c 0 t) (iblk1 V c 1 t) (ix2 0 j) = xs (ix2 0 j) + blockSum V c t.val j := by
  have ht : t.val < 125 := lt_of_lt_of_eq t.isLt (show cfg1.N = 125 from N_1)
  rw [Cert.KerSide.k1_pay2_apply, blockSum, dif_pos ht]
  congr 1
  refine Finset.sum_congr rfl fun r _ => ?_
  rw [iblk1_0_apply V c t r, iblk1_1_apply V c t r j]

/-- THE ACCUMULATOR after point `n`: zero plus the first `n + 1` blocks' weighted column sums. -/
theorem acc_at (c : Dev nD) : ∀ (n : ℕ) (hn : n < cfg1.N) (j : Fin 16),
    (outsAt1 V c n hn).2 (ix2 0 j) = GcnSpec.zero + ∑ t ∈ Finset.range (n + 1), blockSum V c t j
  | 0, hn, j => by
    have h := outsAt1_A V c ⟨0, hn⟩ rfl (by show ¬((0 : ℕ) = 124); omega)
    rw [show outsAt1 V c 0 hn = outsAt1 V c (⟨0, hn⟩ : Fin cfg1.N).val (⟨0, hn⟩ : Fin cfg1.N).isLt from rfl, h]
    dsimp only
    rw [sout1_A_eq, step_eq V c ⟨0, hn⟩, Cert.KerSide.k1_pay1_apply, Finset.sum_range_one]
  | n + 1, hn, j => by
    have ih := acc_at c n (Nat.lt_of_succ_lt hn) j
    have hstep : (outsAt1 V c (n + 1) hn).2 = k1_pay2 (outsAt1 V c n (Nat.lt_of_succ_lt hn)).2 (iblk1 V c 0 ⟨n + 1, hn⟩) (iblk1 V c 1 ⟨n + 1, hn⟩) := by
      by_cases h1 : n + 1 = 124
      · have h := outsAt1_C V c ⟨n + 1, hn⟩ (Nat.succ_ne_zero n) h1
        rw [show outsAt1 V c (n + 1) hn = outsAt1 V c (⟨n + 1, hn⟩ : Fin cfg1.N).val (⟨n + 1, hn⟩ : Fin cfg1.N).isLt from rfl, h]
        dsimp only
        rw [sout1_C_eq]
        rfl
      · have h := outsAt1_B V c ⟨n + 1, hn⟩ (Nat.succ_ne_zero n) h1
        rw [show outsAt1 V c (n + 1) hn = outsAt1 V c (⟨n + 1, hn⟩ : Fin cfg1.N).val (⟨n + 1, hn⟩ : Fin cfg1.N).isLt from rfl, h]
        dsimp only
        rw [sout1_B_eq]
        rfl
    rw [hstep, step_eq V c ⟨n + 1, hn⟩, ih, Finset.sum_range_succ _ (n + 1), add_assoc]

/-- The full weighted node sum at column `j`, block by block. -/
def accAll (c : Dev nD) (j : Fin 16) : EReal :=
  GcnSpec.zero + ∑ t : Fin 125, ∑ r : Fin 4000, wcol V c (ix2 (GcnSpec.node t r) 0) * feat V c (ix2 (GcnSpec.node t r) j)

theorem acc_last (c : Dev nD) (hn : 124 < cfg1.N) (j : Fin 16) : (outsAt1 V c 124 hn).2 (ix2 0 j) = accAll V c j := by
  rw [acc_at V c 124 hn j, accAll, Finset.sum_range (fun t => blockSum V c t j)]
  congr 1

/-- The `[1, 2]` result the region leaves. -/
def result1 (c : Dev nD) : S1x2.Idx → EReal := fun i =>
  GcnSpec.softmax2 (fun k => (GcnSpec.zero + ∑ j : Fin 16, accAll V c j * mat2 V c (ix2 j k))
    + Ideal.ofBits .f32 0x48F42400#32 * bias2 V c (ix2 0 k)) (i 1)

/-- What the last point leaves in the result window is `result1`. -/
theorem out_last (c : Dev nD) (t : Fin cfg1.N) (h1 : t.val = 124) :
    (outsAt1 V c t.val t.isLt).1 = result1 V c := by
  have h0 : ¬t.val = 0 := by omega
  rw [outsAt1_C V c t h0 h1]
  dsimp only
  rw [out1_C_4_eq]
  have hacc : k1_pay2 (outsAt1 V c (t.val - 1) (Nat.lt_of_le_of_lt (Nat.sub_le _ _) t.isLt)).2 (iblk1 V c 0 t) (iblk1 V c 1 t)
      = (outsAt1 V c t.val t.isLt).2 := by
    rw [outsAt1_C V c t h0 h1]; dsimp only; rw [sout1_C_eq]
  rw [hacc]
  funext i
  obtain ⟨p, k, rfl⟩ : ∃ (p : Fin 1) (k : Fin 2), i = ix2 p k := ⟨i 0, i 1, eq_ix2 i⟩
  obtain rfl : p = 0 := Subsingleton.elim _ _
  rw [Cert.KerSide.k1_pay3_apply, result1]
  congr 1
  funext k'
  have hn : 124 < cfg1.N := h1 ▸ t.isLt
  have e : (outsAt1 V c t.val t.isLt).2 = (outsAt1 V c 124 hn).2 := by
    have ht : t = ⟨124, hn⟩ := Fin.ext h1
    rw [ht]
  congr 1
  · congr 1
    refine Finset.sum_congr rfl fun j _ => ?_
    rw [iblk1_2_apply V c t j k', e, acc_last V c hn j]
  · rw [iblk1_3_apply V c t k']

end Cert.KernelIdeal.Hand

end
-- ==== Proof.KIValue1f.lean ====
import proofs.«136975_j63797444214872_2_alg».proof.Proof.KIValue1

/-!
# The second region's array after the run

The `[1, 2]` result array is one block, written back once, after the last point: it ends holding `result1`.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- What a flushing point writes back is the result, read through the one block. -/
theorem flushed1_eq (c : Dev nD) (t : Fin cfg1.N) (hf : (cfg1.win 4).flush t = true) :
    (dat1 V c).flushed 4 t = ((cfg1.win 4).blk t).view.read (Elt Ideal) (result1 V c) := by
  have ht : t.val < 125 := lt_of_lt_of_eq t.isLt (show cfg1.N = 125 from N_1)
  have h1 : t.val = 124 := by have := (flush1_4 t).mp hf; omega
  obtain ⟨-, -, -, -, -, -, -, -, e0, e1⟩ := idx_facts1 t
  show (cfg1.win 4).cut (grid1.coords t) ((dat1 V c).after 4 t) = _
  rw [after1_4, out_last V c t h1]
  funext y
  show result1 V c y = result1 V c (((cfg1.win 4).blk t).view.emb y)
  congr 1
  funext a; apply Fin.ext
  match a with
  | ⟨0, _⟩ => show (y 0).val = win1_4.index t (0 : Fin 2) * 1 + 1 * (y 0).val; omega
  | ⟨1, _⟩ => show (y 1).val = win1_4.index t (1 : Fin 2) * 2 + 1 * (y 1).val; omega

/-- Every index of the result array is in the last point's block. -/
theorem cover1 (i : S1x2.Idx) : ∃ t : Fin cfg1.N, (cfg1.win 4).flush t = true ∧ i ∈ ((cfg1.win 4).blk t).view.set := by
  have hN : 124 < cfg1.N := by rw [show cfg1.N = 125 from N_1]; omega
  refine ⟨⟨124, hN⟩, (flush1_4 ⟨124, hN⟩).mpr (by show 124 % 125 = 124; omega), ?_⟩
  obtain ⟨-, -, -, -, -, -, -, -, e0, e1⟩ := idx_facts1 ⟨124, hN⟩
  show i ∈ ((View.whole main_v54).slice (win1_4.rect ⟨124, hN⟩)).set
  rw [View.set_slice_whole, Rect.mem_set_unit]
  intro a
  have hi0 : (i 0).val < 1 := (i 0).isLt
  have hi1 : (i 1).val < 2 := (i 1).isLt
  match a with
  | ⟨0, _⟩ => show win1_4.index ⟨124, hN⟩ (0 : Fin 2) * 1 ≤ (i 0).val ∧ (i 0).val < win1_4.index ⟨124, hN⟩ (0 : Fin 2) * 1 + 1; omega
  | ⟨1, _⟩ => show win1_4.index ⟨124, hN⟩ (1 : Fin 2) * 2 ≤ (i 1).val ∧ (i 1).val < win1_4.index ⟨124, hN⟩ (1 : Fin 2) * 2 + 2; omega

/-- THE RESULT ARRAY after the region. -/
theorem final1 (c : Dev nD) : (dat1 V c).arrAt 4 cfg1.N = result1 V c :=
  (dat1 V c).arrAt_eq_of_cover 4 (result1 V c) (fun t hf => flushed1_eq V c t hf) (cover1)

end Cert.KernelIdeal.Hand

end
-- ==== Proof.KerHostDefs.lean ====
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import proofs.«136975_j63797444214872_2_alg».proof.Proof.Gen.KernelIdeal
import proofs.«136975_j63797444214872_2_alg».proof.Proof.Spec

noncomputable section

namespace Cert.KerSide

open Idealize.ShloMosaic Idealize.ShloMosaic.ValueIdx Cert.KernelIdeal

/-! # The host stretches' values, named

The arrays the host computes before each region, as compositions of the operations the program applies to the
edge list `ei`, the edge weights `ew` and the node features `x`; and the same compositions over arbitrary
operand arrays, which is how a stretch of operations is read off a valuation. -/

variable (x : S500000x1.Idx → EReal) (ei : S2x16000000.Idx → BitVec 32) (ew : S16000000.Idx → EReal)

/-- Row `r` of the edge list, flattened. -/
def edgeRow (off : Fin 2 → Nat) (h : S2x16000000.Slices off S1x16000000) : S16000000.Idx → BitVec 32 :=
  shapeCast S16000000 (extractStridedSlice S1x16000000 off ei h) Gen.shapeCasts_S1x16000000_S16000000

/-- The source words: row 0 of the edge list, then the node numbers. -/
def srcWords : S16500000.Idx → BitVec 32 :=
  concatenate S16500000 0 [⟨S16000000, edgeRow ei ![0, 0] Gen.slices_S2x16000000_S1x16000000_0_0⟩,
    ⟨S500000, iotaInDim S500000 32 0⟩] Gen.concatenates_S16000000_S500000_S16500000_d0

/-- The target words: row 1 of the edge list, then the node numbers. -/
def dstWords : S16500000.Idx → BitVec 32 :=
  concatenate S16500000 0 [⟨S16000000, edgeRow ei ![1, 0] Gen.slices_S2x16000000_S1x16000000_1_0⟩,
    ⟨S500000, iotaInDim S500000 32 0⟩] Gen.concatenates_S16000000_S500000_S16500000_d0

/-- The weights: the given ones, then a one per node. -/
def wts : S16500000.Idx → EReal :=
  concatenate S16500000 0 [⟨S16000000, ew⟩,
    ⟨S500000, broadcastInDim S500000 ![] Gen.bcast_S_S500000 (constant (F := Ideal) S_ .f32 0x3F800000#32)⟩]
    Gen.concatenates_S16000000_S500000_S16500000_d0

/-- A float constant spread over the nodes. -/
def nodeConst (b : BitVec 32) : FVec Ideal S500000 .f32 :=
  broadcastInDim S500000 ![] Gen.bcast_S_S500000 (constant (F := Ideal) S_ .f32 b)

/-- The edge words as a column of start indices. -/
def asCol (w : S16500000.Idx → BitVec 32) : S16500000x1.Idx → BitVec 32 :=
  broadcastInDim S16500000x1 ![0] Gen.bcast_S16500000_S16500000x1_0 w

/-- The weighted in-degree: the weights scattered at the target words. -/
def degA : FVec Ideal S500000 .f32 :=
  Host.scatterAdd (F := Ideal) scatter_S500000_S16500000x1_S16500000_n_0_0_1 (nodeConst 0x00000000#32) (asCol (dstWords ei)) (wts ew)

/-- The inverse square root of the degree where it is positive, zero elsewhere. -/
def disA : FVec Ideal S500000 .f32 :=
  select (cmpf .ogt (degA ei ew) (nodeConst 0x00000000#32))
    (Host.rsqrt (maximumf (degA ei ew) (nodeConst 0x2B8CBCCC#32))) (nodeConst 0x00000000#32)

/-- A negative word moved up by the number of nodes. -/
def wrapW (w : S16500000.Idx → BitVec 32) : S16500000.Idx → BitVec 32 :=
  select (cmpi .slt w (broadcastInDim S16500000 ![] Gen.bcast_S_S16500000 (constantI S_ 32 0#32)))
    (addi w (broadcastInDim S16500000 ![] Gen.bcast_S_S16500000 (constantI S_ 32 500000#32))) w

/-- A node array read at the edges' words, negative words wrapped and the result clamped. -/
def gat {α : Type} (v : S500000.Idx → α) (w : S16500000.Idx → BitVec 32) : S16500000.Idx → α :=
  Host.gather gather_S500000_S16500000x1_S16500000_n_0_n_n_0_1_1 v (asCol (wrapW w))

/-- The normalisation of every edge. -/
def normA : FVec Ideal S16500000 .f32 :=
  mulf (mulf (gat (disA ei ew) (srcWords ei)) (wts ew)) (gat (disA ei ew) (dstWords ei))

/-- The scalar message of every edge: the source's feature times the normalisation. -/
def msgA : FVec Ideal S16500000 .f32 :=
  mulf (gat (shapeCast S500000 x Gen.shapeCasts_S500000x1_S500000) (srcWords ei)) (normA ei ew)

/-- The first region's node input: the messages scattered at the target words, as a column. -/
def aggA : S500000x1.Idx → EReal :=
  shapeCast S500000x1 (Host.scatterAdd (F := Ideal) scatter_S500000_S16500000x1_S16500000_n_0_0_1 (nodeConst 0x00000000#32)
    (asCol (dstWords ei)) (msgA x ei ew)) Gen.shapeCasts_S500000_S500000x1

/-- The second region's node weights: the normalisations scattered at the source words, as a column. -/
def wsrcA : S500000x1.Idx → EReal :=
  shapeCast S500000x1 (Host.scatterAdd (F := Ideal) scatter_S500000_S16500000x1_S16500000_n_0_0_1 (nodeConst 0x00000000#32)
    (asCol (srcWords ei)) (normA ei ew)) Gen.shapeCasts_S500000_S500000x1

/-! ## The same compositions over arbitrary operands -/

/-- The inverse square root of a degree array where positive, zero elsewhere. -/
def disG (dg : FVec Ideal S500000 .f32) : FVec Ideal S500000 .f32 :=
  select (cmpf .ogt dg (nodeConst 0x00000000#32)) (Host.rsqrt (maximumf dg (nodeConst 0x2B8CBCCC#32))) (nodeConst 0x00000000#32)

/-- Updates summed onto the nodes their words land on, from zero. -/
def scatG (idxw : S16500000.Idx → BitVec 32) (upd : FVec Ideal S16500000 .f32) : FVec Ideal S500000 .f32 :=
  Host.scatterAdd (F := Ideal) scatter_S500000_S16500000x1_S16500000_n_0_0_1 (nodeConst 0x00000000#32) (asCol idxw) upd

/-- The normalisation from an inverse-square-root array, the two word arrays and the weights. -/
def normG (d : FVec Ideal S500000 .f32) (s t : S16500000.Idx → BitVec 32) (w : FVec Ideal S16500000 .f32) :
    FVec Ideal S16500000 .f32 :=
  mulf (mulf (gat d s) w) (gat d t)

/-- The scalar messages from the features, the source words and the normalisation. -/
def msgG (y : S500000x1.Idx → EReal) (s : S16500000.Idx → BitVec 32) (nrm : FVec Ideal S16500000 .f32) :
    FVec Ideal S16500000 .f32 :=
  mulf (gat (shapeCast S500000 y Gen.shapeCasts_S500000x1_S500000) s) nrm

/-- A node array as a one-column matrix. -/
def colG (v : FVec Ideal S500000 .f32) : S500000x1.Idx → EReal :=
  shapeCast S500000x1 v Gen.shapeCasts_S500000_S500000x1

theorem degA_eq : degA ei ew = scatG (dstWords ei) (wts ew) := rfl
theorem disA_eq : disA ei ew = disG (degA ei ew) := rfl
theorem normA_eq : normA ei ew = normG (disA ei ew) (srcWords ei) (dstWords ei) (wts ew) := rfl
theorem aggA_eq_G : aggA x ei ew = colG (scatG (dstWords ei) (msgG x (srcWords ei) (normA ei ew))) := rfl
theorem wsrcA_eq_G : wsrcA ei ew = colG (scatG (srcWords ei) (normA ei ew)) := rfl

end Cert.KerSide

end
-- ==== Proof.LibGatherScatter.lean ====
import Idealize.ShloMosaic.Lib.ValueIdx
import Idealize.ShloMosaic.PureOps.Ideal
import Idealize.ShloMosaic.PureOps.Ideal.Laws
import Idealize.ShloMosaic.PureOps.Contract

/-!
# A gather and an accumulating scatter along the first axis, read at an index

The operand is an array over nodes (rank 1, or rank 2 with a feature axis); the index array has one 32-bit word per
edge, shaped (edges, 1).

* A gather reads, for edge e, the operand at the word read signed and clamped into the node range
  (and, for a rank-2 operand, at the same feature coordinate).
* An accumulating scatter adds, at node n, every update whose word read signed equals n (and, for rank 2, whose
  feature coordinate is the same); a word outside the node range is dropped.
-/

noncomputable section

open scoped BigOperators

namespace Cert.LibGS

open Idealize.ShloMosaic Idealize.ShloMosaic.ValueIdx

/-! ## Gathers -/

section Gather
variable {α : Type}

/-- Dimension numbers of a gather of a rank-1 operand of extent N by E one-word start indices. -/
abbrev gDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The rank-1 gather at edge e: the operand at the word of e, read signed and clamped into [0, N - 1]. -/
theorem gather1_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (gDims1 N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (gDims1 N E wf).start (ix1 e) idx 0 + (gDims1 N E wf).batchCoord (ix1 e) 0
    + (gDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gDims1 N E wf).startIndexMap from List.mem_singleton.mpr rfl)]
  have hsi : (gDims1 N E wf).siIdx (ix1 e) ⟨List.idxOf (0 : Fin 1) (gDims1 N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Dimension numbers of a gather of rows of a rank-2 operand (N rows of K) by E one-word start indices. -/
abbrev gDims2 (N K E : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- The row gather at (e, j): the operand at (the word of e read signed and clamped into [0, N - 1], j). -/
theorem gather2_apply {N K E w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (j : Fin K) :
    Host.gather (gDims2 N K E wf) x idx (ix2 e j)
      = x (ix2 ⟨min (idx (ix2 e 0)).toInt.toNat (N - 1), by omega⟩ j) := by
  unfold Host.gather
  congr 1
  funext a
  refine Fin.ext ?_
  show (gDims2 N K E wf).start (ix2 e j) idx a + (gDims2 N K E wf).batchCoord (ix2 e j) a
    + (gDims2 N K E wf).offCoord (ix2 e j) a = _
  rw [GatherDims.batchCoord_eq_zero _ _ _ List.not_mem_nil]
  have ha : a = (0 : Fin 2) ∨ a = (1 : Fin 2) := by
    rcases a with ⟨v, hv⟩
    have hv2 : v < 2 := hv
    interval_cases v
    · exact Or.inl rfl
    · exact Or.inr rfl
  rcases ha with rfl | rfl
  · rw [GatherDims.offCoord_eq_zero _ _ _
      (fun h => ((GatherDims.mem_sKept _ _).mp h).1 (List.mem_singleton.mpr rfl))]
    simp only [Nat.add_zero]
    unfold GatherDims.start
    rw [dif_pos (show (0 : Fin 2) ∈ (gDims2 N K E wf).startIndexMap from List.mem_singleton.mpr rfl)]
    have hsi : (gDims2 N K E wf).siIdx (ix2 e j) ⟨List.idxOf (0 : Fin 2) (gDims2 N K E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  · have h1 : (1 : Fin 2) ∉ (gDims2 N K E wf).startIndexMap := by
      show (1 : Fin 2) ∉ [(0 : Fin 2)]
      decide
    have h2 : (1 : Fin 2) ∈ (gDims2 N K E wf).sKept := by
      refine (GatherDims.mem_sKept _ _).mpr ⟨?_, List.not_mem_nil⟩
      show (1 : Fin 2) ∉ [(0 : Fin 2)]
      decide
    unfold GatherDims.start
    rw [dif_neg h1]
    unfold GatherDims.offCoord
    rw [dif_pos h2]
    simp only [Nat.zero_add]
    rfl

end Gather

/-! ## Accumulating scatters -/

section Scatter

/-- Dimension numbers of a scatter into a rank-1 operand of extent N of E updates at one-word indices. -/
abbrev sDims1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Update e lands on node n exactly when its word, read signed, is n. -/
theorem resultIdx1_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (sDims1 N E wf).resultIdx? (ix1 e) idx = some (ix1 n) ↔ (idx (ix2 e 0)).toInt = (n.val : Int) := by
  have hstart : ∀ a, (sDims1 N E wf).start (ix1 e) idx a = (idx (ix2 e 0)).toInt := by
    intro a
    obtain rfl : a = 0 := Subsingleton.elim _ _
    unfold ScatterDims.start
    rw [dif_pos (show (0 : Fin 1) ∈ (sDims1 N E wf).scatterDimsToOperandDims from List.mem_singleton.mpr rfl)]
    have hsi : (sDims1 N E wf).siIdx (ix1 e) ⟨List.idxOf (0 : Fin 1) (sDims1 N E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hwin : ∀ a, (sDims1 N E wf).window (ix1 e) a = 0 := by
    intro a
    obtain rfl : a = 0 := Subsingleton.elim _ _
    unfold ScatterDims.window
    rw [dif_neg (by simp [ScatterDims.sKept, Shape.kept])]
  unfold ScatterDims.resultIdx?
  split
  · rename_i h
    rw [Option.some.injEq]
    constructor
    · intro hf
      have h0 := congrArg (fun f => ((f 0 : Fin N) : Nat)) hf
      have hb := h 0
      simp only [hstart, hwin] at h0 hb
      simp only [Nat.cast_zero, add_zero] at h0 hb
      have : ((idx (ix2 e 0)).toInt.toNat : Int) = (n.val : Int) := by exact_mod_cast h0
      omega
    · intro hv
      funext a
      obtain rfl : a = 0 := Subsingleton.elim _ _
      refine Fin.ext ?_
      show ((sDims1 N E wf).start (ix1 e) idx 0 + ((sDims1 N E wf).window (ix1 e) 0 : Nat)).toNat = n.val
      rw [hstart, hwin, hv]; simp
  · rename_i h
    constructor
    · intro hf; exact absurd hf (by simp)
    · intro hv
      exfalso; apply h
      intro a
      rw [hstart, hwin, hv]
      obtain rfl : a = 0 := Subsingleton.elim _ _
      have := n.isLt
      constructor
      · simp
      · show ((n.val : Int) + ((0 : Nat) : Int)) < ((N : Nat) : Int)
        omega

/-- The rank-1 accumulating scatter at node n: the operand there plus the updates whose word is n. -/
theorem scatterAdd1_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) (p : Fin E → Prop) [DecidablePred p]
    (hp : ∀ e, p e ↔ (idx (ix2 e 0)).toInt = (n.val : Int)) :
    Ideal.hostScatterAdd (sDims1 N E wf) x idx upd (ix1 n)
      = x (ix1 n) + ∑ e ∈ Finset.univ.filter p, upd (ix1 e) := by
  unfold Ideal.hostScatterAdd
  congr 1
  refine Finset.sum_nbij' (fun j => j 0) (fun e => ix1 e) ?_ ?_ ?_ ?_ ?_
  · intro j hj
    have := (Finset.mem_filter.mp hj).2
    rw [eq_ix1 j] at this
    exact Finset.mem_filter.mpr ⟨Finset.mem_univ _, (hp _).mpr ((resultIdx1_iff wf idx _ n).mp this)⟩
  · intro e he
    exact Finset.mem_filter.mpr ⟨Finset.mem_univ _,
      (resultIdx1_iff wf idx e n).mpr ((hp e).mp (Finset.mem_filter.mp he).2)⟩
  · intro j _; exact (eq_ix1 j).symm
  · intro e _; rfl
  · intro j _; exact congrArg upd (eq_ix1 j)

/-- An axis of a rank-2 array is the first or the second. -/
theorem fin2_cases (a : Fin 2) : a = 0 ∨ a = 1 := by
  rcases a with ⟨v, hv⟩
  interval_cases v
  · exact Or.inl rfl
  · exact Or.inr rfl

/-- Dimension numbers of a scatter of E rows of K into a rank-2 operand (N rows of K) at one-word indices. -/
abbrev sDims2 (N K E : Nat) (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

/-- Update (e, j') lands on (n, j) exactly when the word of e, read signed, is n and j' = j. -/
theorem resultIdx2_iff {N K E w : Nat} (wf : ScatterDims.WF ⟨2, ![N, K]⟩ ⟨2, ![E, 1]⟩ ⟨2, ![E, K]⟩ [1] [0] [0] 1)
    (idx : IVec ⟨2, ![E, 1]⟩ w) (e : Fin E) (j' : Fin K) (n : Fin N) (j : Fin K) :
    (sDims2 N K E wf).resultIdx? (ix2 e j') idx = some (ix2 n j)
      ↔ (idx (ix2 e 0)).toInt = (n.val : Int) ∧ j' = j := by
  have hstart0 : (sDims2 N K E wf).start (ix2 e j') idx (0 : Fin 2) = (idx (ix2 e 0)).toInt := by
    unfold ScatterDims.start
    rw [dif_pos (show (0 : Fin 2) ∈ (sDims2 N K E wf).scatterDimsToOperandDims from List.mem_singleton.mpr rfl)]
    have hsi : (sDims2 N K E wf).siIdx (ix2 e j') ⟨List.idxOf (0 : Fin 2) (sDims2 N K E wf).scatterDimsToOperandDims,
        List.idxOf_lt_length_iff.2 (List.mem_singleton.mpr rfl)⟩ = ix2 e 0 := by
      funext b; refine Fin.ext ?_
      match b with
      | ⟨0, _⟩ => rfl
      | ⟨1, _⟩ => rfl
    rw [hsi]
  have hstart1 : (sDims2 N K E wf).start (ix2 e j') idx (1 : Fin 2) = 0 := by
    unfold ScatterDims.start
    rw [dif_neg (show (1 : Fin 2) ∉ [(0 : Fin 2)] by decide)]
  have hwin0 : (sDims2 N K E wf).window (ix2 e j') (0 : Fin 2) = 0 := by
    unfold ScatterDims.window
    rw [dif_neg (by simp [ScatterDims.sKept, Shape.kept])]
  have hwin1 : (sDims2 N K E wf).window (ix2 e j') (1 : Fin 2) = j'.val := by
    unfold ScatterDims.window
    rw [dif_pos (by simp [ScatterDims.sKept, Shape.kept, List.finRange])]
    rfl
  unfold ScatterDims.resultIdx?
  split
  · rename_i h
    rw [Option.some.injEq]
    constructor
    · intro hf
      have h0 := congrArg (fun f => ((f (0 : Fin 2) : Fin N) : Nat)) hf
      have h1 := congrArg (fun f => ((f (1 : Fin 2) : Fin K) : Nat)) hf
      have hb := h (0 : Fin 2)
      simp only [hstart0, hwin0, hstart1, hwin1] at h0 h1 hb
      simp only [Nat.cast_zero, add_zero, zero_add, Int.toNat_natCast] at h0 h1 hb
      refine ⟨?_, Fin.ext h1⟩
      have : ((idx (ix2 e 0)).toInt.toNat : Int) = (n.val : Int) := by exact_mod_cast h0
      omega
    · rintro ⟨hv, rfl⟩
      funext a
      refine Fin.ext ?_
      rcases fin2_cases a with rfl | rfl
      · show ((sDims2 N K E wf).start (ix2 e j') idx 0 + ((sDims2 N K E wf).window (ix2 e j') 0 : Nat)).toNat = n.val
        rw [hstart0, hwin0, hv]; simp
      · show ((sDims2 N K E wf).start (ix2 e j') idx 1 + ((sDims2 N K E wf).window (ix2 e j') 1 : Nat)).toNat = j'.val
        rw [hstart1, hwin1]; simp
  · rename_i h
    constructor
    · intro hf; exact absurd hf (by simp)
    · rintro ⟨hv, rfl⟩
      exfalso; apply h
      intro a
      rcases fin2_cases a with rfl | rfl
      · rw [hstart0, hwin0, hv]
        have := n.isLt
        constructor
        · simp
        · show ((n.val : Int) + ((0 : Nat) : Int)) < ((N : Nat) : Int)
          omega
      · rw [hstart1, hwin1]
        have := j'.isLt
        constructor
        · simp
        · show ((0 : Int) + ((j'.val : Nat) : Int)) < ((K : Nat) : Int)
          omega

/-- The row accumulating scatter at (n, j): the operand there plus the updates (e, j) whose word is n. -/
theorem scatterAdd2_apply {N K E w : Nat}
    (wf : ScatterDims.WF ⟨2, ![N, K]⟩ ⟨2, ![E, 1]⟩ ⟨2, ![E, K]⟩ [1] [0] [0] 1)
    (x : (⟨2, ![N, K]⟩ : Shape).Idx → EReal) (idx : IVec ⟨2, ![E, 1]⟩ w)
    (upd : (⟨2, ![E, K]⟩ : Shape).Idx → EReal) (n : Fin N) (j : Fin K) (p : Fin E → Prop) [DecidablePred p]
    (hp : ∀ e, p e ↔ (idx (ix2 e 0)).toInt = (n.val : Int)) :
    Ideal.hostScatterAdd (sDims2 N K E wf) x idx upd (ix2 n j)
      = x (ix2 n j) + ∑ e ∈ Finset.univ.filter p, upd (ix2 e j) := by
  unfold Ideal.hostScatterAdd
  congr 1
  have key : ∀ u : (⟨2, ![E, K]⟩ : Shape).Idx, (sDims2 N K E wf).resultIdx? u idx = some (ix2 n j) →
      p (u 0) ∧ u = ix2 (u 0) j := by
    intro u hu
    rw [eq_ix2 u] at hu
    have := (resultIdx2_iff wf idx _ _ n j).mp hu
    refine ⟨(hp _).mpr this.1, ?_⟩
    have h2 := eq_ix2 u
    rw [this.2] at h2
    exact h2
  refine Finset.sum_nbij' (fun u => u 0) (fun e => ix2 e j) ?_ ?_ ?_ ?_ ?_
  · intro u hu
    exact Finset.mem_filter.mpr ⟨Finset.mem_univ _, (key u (Finset.mem_filter.mp hu).2).1⟩
  · intro e he
    exact Finset.mem_filter.mpr ⟨Finset.mem_univ _,
      (resultIdx2_iff wf idx e j n j).mpr ⟨(hp e).mp (Finset.mem_filter.mp he).2, rfl⟩⟩
  · intro u hu; exact (key u (Finset.mem_filter.mp hu).2).2.symm
  · intro e _; rfl
  · intro u hu; exact congrArg upd (key u (Finset.mem_filter.mp hu).2).2

end Scatter

end Cert.LibGS

end
-- ==== Proof.KerHostMath.lean ====
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal.Laws
import proofs.«136975_j63797444214872_2_alg».proof.Proof.Gen.KernelIdeal
import proofs.«136975_j63797444214872_2_alg».proof.Proof.Spec
import proofs.«136975_j63797444214872_2_alg».proof.Proof.LibGatherScatter
import proofs.«136975_j63797444214872_2_alg».proof.Proof.KerHostDefs

noncomputable section

namespace Cert.KerSide

open Idealize.ShloMosaic Idealize.ShloMosaic.ValueIdx Cert.KernelIdeal

/-! # The host stretches' values as functions of the arguments, read entry by entry

Before the first region the host computes, from the edge list and the edge weights: the two endpoint arrays with
the self loops appended, the weights with a one appended per node, the weighted in-degree (a scattered sum), its
inverse square root where positive, the normalisation of every edge (two clamped reads of that array times the weight),
and the scattered sum of the scalar messages. Before the second region it scatters the normalisations at the source
endpoints. Each array is named here as the composition of operations the program applies, and read at an index
against the specification's names. -/

variable (x : S500000x1.Idx → EReal) (ei : S2x16000000.Idx → BitVec 32) (ew : S16000000.Idx → EReal)

/-- Entry `e` of a flattened row of the edge list. -/
theorem edgeRow_apply (r : Fin 2) (off : Fin 2 → Nat) (hoff0 : off 0 = r.val) (hoff1 : off 1 = 0)
    (h : S2x16000000.Slices off S1x16000000) (e : Fin 16000000) :
    edgeRow ei off h (ix1 e) = ei (ix2 r e) := by
  unfold edgeRow
  rw [shapeCast_1a_a_apply]
  refine extractStridedSlice_apply off ei h _ (ix2 r e) fun a => ?_
  match a with
  | ⟨0, _⟩ => show r.val = off 0 + 0; omega
  | ⟨1, _⟩ => show e.val = off 1 + e.val; omega

/-- A concatenation of 16000000 entries and 500000 entries, read in its first part. -/
theorem concat_left {α : Type} (a : S16000000.Idx → α) (b : S500000.Idx → α)
    (h : Shape.Concatenates [S16000000, S500000] S16500000 0) (e : Fin 16500000) (he : e.val < 16000000) :
    concatenate S16500000 0 [⟨S16000000, a⟩, ⟨S500000, b⟩] h (ix1 e) = a (ix1 ⟨e.val, he⟩) := by
  refine concatenate_pair_apply_left (0 : Fin 1) a b h (ix1 e) rfl (ix1 ⟨e.val, he⟩) fun b' => ?_
  match b' with
  | ⟨0, _⟩ => rfl

/-- The same, read in its second part. -/
theorem concat_right {α : Type} (a : S16000000.Idx → α) (b : S500000.Idx → α)
    (h : Shape.Concatenates [S16000000, S500000] S16500000 0) (e : Fin 16500000) (he : ¬ e.val < 16000000) :
    concatenate S16500000 0 [⟨S16000000, a⟩, ⟨S500000, b⟩] h (ix1 e)
      = b (ix1 ⟨e.val - 16000000, by have := e.isLt; omega⟩) := by
  refine concatenate_pair_apply_right (0 : Fin 1) a b h (ix1 e) rfl rfl (ix1 ⟨e.val - 16000000, by have := e.isLt; omega⟩)
    (fun b' hb => ?_) ?_
  · exact absurd (Fin.ext (by have h1 : b'.val < 1 := b'.isLt; show b'.val = 0; omega)) hb
  · show e.val - 16000000 + 16000000 = e.val
    omega

/-- The source words are the specification's source endpoints. -/
theorem srcWords_apply (e : Fin 16500000) : srcWords ei (ix1 e) = GcnSpec.endp ei 0 e := by
  unfold srcWords GcnSpec.endp
  by_cases he : e.val < 16000000
  · rw [dif_pos he, concat_left _ _ _ e he]
    exact edgeRow_apply ei 0 ![0, 0] rfl rfl _ _
  · rw [dif_neg he, concat_right _ _ _ e he]
    rfl

/-- The target words are the specification's target endpoints. -/
theorem dstWords_apply (e : Fin 16500000) : dstWords ei (ix1 e) = GcnSpec.endp ei 1 e := by
  unfold dstWords GcnSpec.endp
  by_cases he : e.val < 16000000
  · rw [dif_pos he, concat_left _ _ _ e he]
    exact edgeRow_apply ei 1 ![1, 0] rfl rfl _ _
  · rw [dif_neg he, concat_right _ _ _ e he]
    rfl

/-- The weights are the specification's weights. -/
theorem wts_apply (e : Fin 16500000) : wts ew (ix1 e) = GcnSpec.wt ew e := by
  unfold wts GcnSpec.wt
  by_cases he : e.val < 16000000
  · rw [dif_pos he, concat_left _ _ _ e he]
  · rw [dif_neg he, concat_right _ _ _ e he, broadcastInDim_scalar_apply]
    rfl

/-! ## Constants, index columns and the two scattered sums' common form -/

theorem nodeConst_apply (b : BitVec 32) (n : Fin 500000) : nodeConst b (ix1 n) = Ideal.ofBits .f32 b := by
  unfold nodeConst
  rw [broadcastInDim_scalar_apply]
  rfl

theorem asCol_apply (w : S16500000.Idx → BitVec 32) (e : Fin 16500000) : asCol w (ix2 e 0) = w (ix1 e) := by
  unfold asCol
  refine broadcastInDim_apply ![0] Gen.bcast_S16500000_S16500000x1_0 w (ix2 e 0) (ix1 e) fun a => ?_
  match a with
  | ⟨0, _⟩ => exact (if_neg (show ¬ ((16500000 : ℕ) = 1) by decide)).symm

/-- The scatter's dimension numbers are those of a scatter along the one node axis. -/
theorem scatter_dims_eq : scatter_S500000_S16500000x1_S16500000_n_0_0_1
    = LibGS.sDims1 500000 16500000 Gen.scatter_S500000_S16500000x1_S16500000_n_0_0_1_wf := rfl

/-- The host's scattered sum at the exact values, over these dimension numbers. -/
theorem scatter_fn (y : FVec Ideal S500000 .f32) (idx : S16500000x1.Idx → BitVec 32) (upd : FVec Ideal S16500000 .f32) :
    Host.scatterAdd (F := Ideal) scatter_S500000_S16500000x1_S16500000_n_0_0_1 y idx upd
      = Ideal.hostScatterAdd (LibGS.sDims1 500000 16500000 Gen.scatter_S500000_S16500000x1_S16500000_n_0_0_1_wf) y idx upd := rfl

/-- The gather's dimension numbers are those of a gather along the one node axis. -/
theorem gather_dims_eq : gather_S500000_S16500000x1_S16500000_n_0_n_n_0_1_1
    = LibGS.gDims1 500000 16500000 Gen.gather_S500000_S16500000x1_S16500000_n_0_n_n_0_1_1_wf := rfl

/-- A scattered sum onto the nodes from zero: node `n` receives the updates of the edges whose word lands on `n`. -/
theorem scatterNodes_apply (idxw : S16500000.Idx → BitVec 32) (upd : FVec Ideal S16500000 .f32) (n : Fin 500000) :
    Host.scatterAdd (F := Ideal) scatter_S500000_S16500000x1_S16500000_n_0_0_1 (nodeConst 0x00000000#32) (asCol idxw) upd (ix1 n)
      = GcnSpec.zero + ∑ e ∈ Finset.univ.filter (fun e => GcnSpec.lands (idxw (ix1 e)) n), upd (ix1 e) := by
  refine (congrFun (scatter_fn (nodeConst 0x00000000#32) (asCol idxw) upd) (ix1 n)).trans ?_
  refine (LibGS.scatterAdd1_apply Gen.scatter_S500000_S16500000x1_S16500000_n_0_0_1_wf (nodeConst 0x00000000#32) (asCol idxw) upd n
    (fun e => GcnSpec.lands (idxw (ix1 e)) n) (fun e => ?_)).trans ?_
  · rw [asCol_apply]; exact Iff.rfl
  · rw [nodeConst_apply]

/-! ## The degree and its inverse square root -/

theorem degA_apply (n : Fin 500000) : degA ei ew (ix1 n) = GcnSpec.deg ei ew n := by
  unfold degA GcnSpec.deg
  rw [scatterNodes_apply]
  refine congrArg (GcnSpec.zero + ·) ?_
  simp only [dstWords_apply, wts_apply]

/-- A choice on the bit of a float comparison is a choice on the order. -/
theorem select_cmp_ogt {α : Type} (a b : EReal) (u v : α) :
    Scalar.select (Ideal.cmp .ogt a b) u v = if b < a then u else v := by
  unfold Scalar.select Ideal.cmp
  by_cases h : b < a <;> simp [h]

/-- The host's inverse square root, entry by entry. -/
theorem hostRsqrt_apply {s : Shape} {φ : FTy} (v : FVec Ideal s φ) (i : s.Idx) : Host.rsqrt v i = Ideal.rsqrt (v i) := rfl

theorem disA_apply (n : Fin 500000) : disA ei ew (ix1 n) = GcnSpec.dis ei ew n := by
  unfold disA GcnSpec.dis
  rw [select_apply, cmpf_apply, Ideal.cmpf_def, hostRsqrt_apply, maximumf_apply, nodeConst_apply, nodeConst_apply, degA_apply,
    select_cmp_ogt]

/-! ## Clamped reads and the normalisation -/

/-- A choice on the bit of a signed comparison with zero is a choice on the sign. -/
theorem select_cmpi_slt_zero {α : Type} (v : BitVec 32) (a b : α) :
    Scalar.select (IntOp.cmpi .slt v 0#32) a b = if v.toInt < 0 then a else b := by
  unfold Scalar.select IntOp.cmpi
  by_cases h : v.toInt < 0 <;> simp [BitVec.slt, h]

theorem wrapW_apply (w : S16500000.Idx → BitVec 32) (e : Fin 16500000) :
    wrapW w (ix1 e) = if (w (ix1 e)).toInt < 0 then w (ix1 e) + 500000#32 else w (ix1 e) := by
  unfold wrapW
  rw [select_apply]
  show Scalar.select (IntOp.cmpi .slt (w (ix1 e))
      (broadcastInDim S16500000 ![] Gen.bcast_S_S16500000 (constantI S_ 32 0#32) (ix1 e)))
    (IntOp.addi (w (ix1 e)) (broadcastInDim S16500000 ![] Gen.bcast_S_S16500000 (constantI S_ 32 500000#32) (ix1 e)))
    (w (ix1 e)) = _
  rw [broadcastInDim_scalar_apply, broadcastInDim_scalar_apply]
  exact select_cmpi_slt_zero _ _ _

theorem gat_apply {α : Type} (v : S500000.Idx → α) (w : S16500000.Idx → BitVec 32) (e : Fin 16500000) :
    gat v w (ix1 e) = v (ix1 (GcnSpec.pick (w (ix1 e)))) := by
  unfold gat
  rw [gather_dims_eq, LibGS.gather1_apply (show 0 < 500000 by decide)]
  refine congrArg v (congrArg ix1 (Fin.ext ?_))
  show min (asCol (wrapW w) (ix2 e 0)).toInt.toNat (500000 - 1) = (GcnSpec.pick (w (ix1 e))).val
  rw [asCol_apply, wrapW_apply]
  rfl

theorem normA_apply (e : Fin 16500000) : normA ei ew (ix1 e) = GcnSpec.norm ei ew e := by
  unfold normA GcnSpec.norm
  rw [mulf_apply, mulf_apply, gat_apply, gat_apply, disA_apply, disA_apply, wts_apply, srcWords_apply, dstWords_apply]

/-! ## The two scattered sums the regions read -/

/-- A node array cast to a one-column matrix reads its entry at the row. -/
theorem col_apply {α : Type} (v : S500000.Idx → α) (h : S500000.ShapeCasts S500000x1) (n : Fin 500000) (u : Fin 1) :
    shapeCast S500000x1 v h (ix2 n u) = v (ix1 n) := by
  refine shapeCast_apply v h (ix2 n u) (ix1 n) ?_
  rw [Shape.rowMajor_val_two, Shape.rowMajor_val_one]
  show n.val = n.val * 1 + u.val
  omega

/-- A one-column matrix cast to a node array reads the row's entry. -/
theorem flat_apply {α : Type} (y : S500000x1.Idx → α) (h : S500000x1.ShapeCasts S500000) (n : Fin 500000) :
    shapeCast S500000 y h (ix1 n) = y (ix2 n 0) := by
  refine shapeCast_apply y h (ix1 n) (ix2 n 0) ?_
  rw [Shape.rowMajor_val_two, Shape.rowMajor_val_one]
  show n.val * 1 + 0 = n.val
  omega

theorem aggA_eq : aggA x ei ew = fun i => GcnSpec.agg x ei ew (i 0) := by
  funext i
  obtain ⟨n, u, rfl⟩ : ∃ (n : Fin 500000) (u : Fin 1), i = ix2 n u := ⟨i 0, i 1, eq_ix2 i⟩
  show aggA x ei ew (ix2 n u) = GcnSpec.agg x ei ew n
  unfold aggA GcnSpec.agg
  rw [col_apply, scatterNodes_apply]
  refine congrArg (GcnSpec.zero + ·) ?_
  simp only [dstWords_apply]
  refine Finset.sum_congr rfl fun e _ => ?_
  unfold msgA
  rw [mulf_apply, gat_apply, flat_apply, normA_apply, srcWords_apply]

theorem wsrcA_eq : wsrcA ei ew = fun i => GcnSpec.wsrc ei ew (i 0) := by
  funext i
  obtain ⟨n, u, rfl⟩ : ∃ (n : Fin 500000) (u : Fin 1), i = ix2 n u := ⟨i 0, i 1, eq_ix2 i⟩
  show wsrcA ei ew (ix2 n u) = GcnSpec.wsrc ei ew n
  unfold wsrcA GcnSpec.wsrc
  rw [col_apply, scatterNodes_apply]
  refine congrArg (GcnSpec.zero + ·) ?_
  simp only [srcWords_apply, normA_apply]

/-- A bias row: the bias vector cast to one row. -/
theorem biasRow16_eq (b : S16.Idx → EReal) (h : S16.ShapeCasts S1x16) :
    shapeCast S1x16 b h = fun i => b (ix1 (i 1)) := by
  funext i
  obtain ⟨u, j, rfl⟩ : ∃ (u : Fin 1) (j : Fin 16), i = ix2 u j := ⟨i 0, i 1, eq_ix2 i⟩
  exact shapeCast_a_1a_apply b h u j

theorem biasRow2_eq (b : S2.Idx → EReal) (h : S2.ShapeCasts S1x2) :
    shapeCast S1x2 b h = fun i => b (ix1 (i 1)) := by
  funext i
  obtain ⟨u, j, rfl⟩ : ∃ (u : Fin 1) (j : Fin 2), i = ix2 u j := ⟨i 0, i 1, eq_ix2 i⟩
  exact shapeCast_a_1a_apply b h u j

end Cert.KerSide

end
-- ==== Proof.KerHostRead.lean ====
import Idealize.ShloMosaic.Lib.ValueIdx
import Idealize.ShloMosaic.Lib.Pipeline.Value
import Idealize.ShloMosaic.Lib.StableHlo.Run
import proofs.«136975_j63797444214872_2_alg».proof.Proof.Gen.KernelIdeal.Regions
import proofs.«136975_j63797444214872_2_alg».proof.Proof.KerHostDefs

/-!
# The host stretches, read off a valuation

Each array a stretch of host operations leaves is the composition of those operations applied to the arrays the
stretch found, whatever they were.
-/

noncomputable section

namespace Cert.KerSide

open Idealize.ShloMosaic Idealize.ShloMosaic.ValueIdx Idealize.ShloMosaic.TcCoe Cert.KernelIdeal

variable (W : Valuation τ sig (Elt Ideal))

/-! ## The stretch before the degree's inverse square root -/

theorem read_v5 :
    (StableHlo.after Gen.hostOps0 W (Proc.devRef .tc main_v5) : S16500000.Idx → BitVec 32)
      = srcWords (W (Proc.devRef .tc main_arg1)) := by
  simp only [Gen.hostOps0]; after_results; rfl

theorem read_v6 :
    (StableHlo.after Gen.hostOps0 W (Proc.devRef .tc main_v6) : S16500000.Idx → BitVec 32)
      = dstWords (W (Proc.devRef .tc main_arg1)) := by
  simp only [Gen.hostOps0]; after_results; rfl

theorem read_v8 :
    (StableHlo.after Gen.hostOps0 W (Proc.devRef .tc main_v8) : S16500000.Idx → EReal)
      = wts (W (Proc.devRef .tc main_arg2)) := by
  simp only [Gen.hostOps0]; after_results; rfl

theorem read_v11 :
    (StableHlo.after Gen.hostOps0 W (Proc.devRef .tc main_v11) : S500000.Idx → EReal)
      = scatG (dstWords (W (Proc.devRef .tc main_arg1))) (wts (W (Proc.devRef .tc main_arg2))) := by
  simp only [Gen.hostOps0]; after_results; rfl

theorem read_v13 :
    (StableHlo.after Gen.hostOps0 W (Proc.devRef .tc main_v13) : S500000.Idx → BitVec 1)
      = cmpf .ogt (scatG (dstWords (W (Proc.devRef .tc main_arg1))) (wts (W (Proc.devRef .tc main_arg2))))
          (nodeConst 0x00000000#32) := by
  simp only [Gen.hostOps0]; after_results; rfl

theorem read_v16 :
    (StableHlo.after Gen.hostOps0 W (Proc.devRef .tc main_v16) : S500000.Idx → EReal)
      = Host.rsqrt (maximumf (scatG (dstWords (W (Proc.devRef .tc main_arg1))) (wts (W (Proc.devRef .tc main_arg2))))
          (nodeConst 0x2B8CBCCC#32)) := by
  simp only [Gen.hostOps0]; after_results; rfl

theorem read_cst3 :
    (StableHlo.after Gen.hostOps0 W (Proc.devRef .tc main_cst_3) : S_.Idx → EReal)
      = constant (F := Ideal) S_ .f32 0x00000000#32 := by
  simp only [Gen.hostOps0]; after_results

/-! ## The selection of the inverse square root where the degree is positive -/

theorem read_v17 :
    (StableHlo.after Gen.hostOps0_1 W (Proc.devRef .tc main_v17) : S500000.Idx → EReal)
      = select (W (Proc.devRef .tc main_v13)) (W (Proc.devRef .tc main_v16))
          (broadcastInDim S500000 ![] Gen.bcast_S_S500000 (W (Proc.devRef .tc main_cst_3))) := by
  simp only [Gen.hostOps0_1]; after_results; rfl

/-! ## The stretch before the first region -/

theorem read_v33 :
    (StableHlo.after Gen.hostOps0_2 W (Proc.devRef .tc main_v33) : S16500000.Idx → EReal)
      = normG (W (Proc.devRef .tc main_v17)) (W (Proc.devRef .tc main_v5)) (W (Proc.devRef .tc main_v6))
          (W (Proc.devRef .tc main_v8)) := by
  simp only [Gen.hostOps0_2]; after_results_simp; rfl

theorem read_v46 :
    (StableHlo.after Gen.hostOps0_2 W (Proc.devRef .tc main_v46) : S500000x1.Idx → EReal)
      = colG (scatG (W (Proc.devRef .tc main_v6)) (msgG (W (Proc.devRef .tc main_arg0)) (W (Proc.devRef .tc main_v5))
          (normG (W (Proc.devRef .tc main_v17)) (W (Proc.devRef .tc main_v5)) (W (Proc.devRef .tc main_v6))
            (W (Proc.devRef .tc main_v8))))) := by
  simp only [Gen.hostOps0_2]; after_results_simp; rfl

theorem read_v47 :
    (StableHlo.after Gen.hostOps0_2 W (Proc.devRef .tc main_v47) : S1x16.Idx → EReal)
      = shapeCast S1x16 (W (Proc.devRef .tc main_arg4)) Gen.shapeCasts_S16_S1x16 := by
  simp only [Gen.hostOps0_2]; after_results_simp; rfl

/-! ## The stretch before the second region -/

theorem read_v52 :
    (StableHlo.after Gen.hostOps1 W (Proc.devRef .tc main_v52) : S500000x1.Idx → EReal)
      = colG (scatG (W (Proc.devRef .tc main_v5)) (W (Proc.devRef .tc main_v33))) := by
  simp only [Gen.hostOps1]; after_results; rfl

theorem read_v53 :
    (StableHlo.after Gen.hostOps1 W (Proc.devRef .tc main_v53) : S1x2.Idx → EReal)
      = shapeCast S1x2 (W (Proc.devRef .tc main_arg6)) Gen.shapeCasts_S2_S1x2 := by
  simp only [Gen.hostOps1]; after_results; rfl

end Cert.KerSide

end
-- ==== Proof.KerHost.lean ====
import Idealize.ShloMosaic.Lib.ValueIdx
import Idealize.ShloMosaic.Lib.Pipeline.Value
import Idealize.ShloMosaic.Lib.StableHlo.Run
import proofs.«136975_j63797444214872_2_alg».proof.Proof.Gen.KernelIdeal.Regions
import proofs.«136975_j63797444214872_2_alg».proof.Proof.Spec
import proofs.«136975_j63797444214872_2_alg».proof.Proof.KerHostDefs
import proofs.«136975_j63797444214872_2_alg».proof.Proof.KerHostMath
import proofs.«136975_j63797444214872_2_alg».proof.Proof.KerHostRead

/-!
# What the host stretches leave for the two regions

The first region reads the scalar aggregate of every node, the first layer's weights and its bias as one row; the second
region reads the total normalisation of the edges leaving every node and the second bias as one row. Each is the
specification's function of the launch arguments: the stretches are read off the buffers operation by operation, and
the resulting compositions were identified entry by entry with the specification.
-/

noncomputable section

namespace Cert.KerSide

open Idealize.ShloMosaic Idealize.ShloMosaic.ValueIdx Idealize.ShloMosaic.TcCoe Cert.KernelIdeal

variable (m : (ℓ : Loc nD τ sig) → Buf (Elt Ideal) ℓ) (c : Dev nD)

/-- The node features at launch. -/
abbrev xA : S500000x1.Idx → EReal := m ((c : Thread nD τ).loc main_arg0)
/-- The edge list at launch. -/
abbrev eiA : S2x16000000.Idx → BitVec 32 := m ((c : Thread nD τ).loc main_arg1)
/-- The edge weights at launch. -/
abbrev ewA : S16000000.Idx → EReal := m ((c : Thread nD τ).loc main_arg2)
/-- The first layer's weights at launch. -/
abbrev w1A : S1x16.Idx → EReal := m ((c : Thread nD τ).loc main_arg3)
/-- The first bias at launch. -/
abbrev b1A : S16.Idx → EReal := m ((c : Thread nD τ).loc main_arg4)
/-- The second bias at launch. -/
abbrev b2A : S2.Idx → EReal := m ((c : Thread nD τ).loc main_arg6)

/-! ## After the first stretch -/

theorem V1_v5 : (Gen.V1 m c main_v5 : S16500000.Idx → BitVec 32) = srcWords (eiA m c) := read_v5 (Gen.V0 m c)
theorem V1_v6 : (Gen.V1 m c main_v6 : S16500000.Idx → BitVec 32) = dstWords (eiA m c) := read_v6 (Gen.V0 m c)
theorem V1_v8 : (Gen.V1 m c main_v8 : S16500000.Idx → EReal) = wts (ewA m c) := read_v8 (Gen.V0 m c)
theorem V1_v13 : (Gen.V1 m c main_v13 : S500000.Idx → BitVec 1)
    = cmpf .ogt (degA (eiA m c) (ewA m c)) (nodeConst 0x00000000#32) := read_v13 (Gen.V0 m c)
theorem V1_v16 : (Gen.V1 m c main_v16 : S500000.Idx → EReal)
    = Host.rsqrt (maximumf (degA (eiA m c) (ewA m c)) (nodeConst 0x2B8CBCCC#32)) := read_v16 (Gen.V0 m c)
theorem V1_cst3 : (Gen.V1 m c main_cst_3 : S_.Idx → EReal) = constant (F := Ideal) S_ .f32 0x00000000#32 :=
  read_cst3 (Gen.V0 m c)

/-! ## After the call that selects the inverse square root -/

theorem V2_v17 : (Gen.V2 m c main_v17 : S500000.Idx → EReal) = disA (eiA m c) (ewA m c) := by
  refine (read_v17 (Gen.V1 m c)).trans ?_
  rw [V1_v13, V1_v16, V1_cst3]
  rfl

theorem V2_v5 : (Gen.V2 m c main_v5 : S16500000.Idx → BitVec 32) = srcWords (eiA m c) :=
  (Gen.V2_of m c main_v5 (by decide)).trans (V1_v5 m c)
theorem V2_v6 : (Gen.V2 m c main_v6 : S16500000.Idx → BitVec 32) = dstWords (eiA m c) :=
  (Gen.V2_of m c main_v6 (by decide)).trans (V1_v6 m c)
theorem V2_v8 : (Gen.V2 m c main_v8 : S16500000.Idx → EReal) = wts (ewA m c) :=
  (Gen.V2_of m c main_v8 (by decide)).trans (V1_v8 m c)
theorem V2_arg0 : (Gen.V2 m c main_arg0 : S500000x1.Idx → EReal) = xA m c :=
  (Gen.V2_of m c main_arg0 (by decide)).trans ((Gen.V1_of m c main_arg0 (by decide)).trans rfl)
theorem V2_arg4 : (Gen.V2 m c main_arg4 : S16.Idx → EReal) = b1A m c :=
  (Gen.V2_of m c main_arg4 (by decide)).trans ((Gen.V1_of m c main_arg4 (by decide)).trans rfl)

/-! ## After the third stretch: what the first region reads, and what the fourth stretch reads -/

/-- The source words reach the first region's entry unchanged. -/
theorem V3_v5 : (Gen.V3 m c main_v5 : S16500000.Idx → BitVec 32) = srcWords (eiA m c) :=
  (Gen.V3_of m c main_v5 (by decide)).trans (V2_v5 m c)

/-- The normalisation of every edge. -/
theorem V3_v33 : (Gen.V3 m c main_v33 : S16500000.Idx → EReal) = normA (eiA m c) (ewA m c) := by
  refine (read_v33 (Gen.V2 m c)).trans ?_
  rw [V2_v17, V2_v5, V2_v6, V2_v8]
  rfl

theorem V3_v5_apply (e : Fin 16500000) :
    (Gen.V3 m c main_v5 : S16500000.Idx → BitVec 32) (ix1 e) = GcnSpec.endp (eiA m c) 0 e := by
  rw [V3_v5]; exact srcWords_apply _ e

theorem V3_v33_apply (e : Fin 16500000) :
    (Gen.V3 m c main_v33 : S16500000.Idx → EReal) (ix1 e) = GcnSpec.norm (eiA m c) (ewA m c) e := by
  rw [V3_v33]; exact normA_apply _ _ e

theorem V3_v46 : (Gen.V3 m c main_v46 : S500000x1.Idx → EReal) = aggA (xA m c) (eiA m c) (ewA m c) := by
  refine (read_v46 (Gen.V2 m c)).trans ?_
  rw [V2_v17, V2_v5, V2_v6, V2_v8, V2_arg0]
  rfl

/-- What the first region's three input windows hold: the scalar aggregate, the bias as a row, the weights. -/
theorem H1 :
    (Gen.V3 m c main_v46 : S500000x1.Idx → EReal) = (fun i => GcnSpec.agg (xA m c) (eiA m c) (ewA m c) (i 0))
    ∧ (Gen.V3 m c main_v47 : S1x16.Idx → EReal) = (fun i => b1A m c (ix1 (i 1)))
    ∧ (Gen.V3 m c main_arg3 : S1x16.Idx → EReal) = w1A m c := by
  refine ⟨(V3_v46 m c).trans (aggA_eq _ _ _), (read_v47 (Gen.V2 m c)).trans ?_,
    (Gen.V3_of m c main_arg3 (by decide)).trans ((Gen.V2_of m c main_arg3 (by decide)).trans
      ((Gen.V1_of m c main_arg3 (by decide)).trans rfl))⟩
  rw [V2_arg4]
  exact biasRow16_eq _ _

/-- What the fourth stretch leaves for the second region, from any contents that agree with the first region's entry
    on the source words and the normalisations and hold the second bias as launched. -/
theorem H2 (U : Valuation τ sig (Elt Ideal))
    (h5 : U (Proc.devRef .tc main_v5) = Gen.V3 m c main_v5) (h33 : U (Proc.devRef .tc main_v33) = Gen.V3 m c main_v33)
    (h6 : U (Proc.devRef .tc main_arg6) = m ((c : Thread nD τ).loc main_arg6)) :
    (StableHlo.after Gen.hostOps1 U (Proc.devRef .tc main_v52) : S500000x1.Idx → EReal)
        = (fun i => GcnSpec.wsrc (eiA m c) (ewA m c) (i 0))
    ∧ (StableHlo.after Gen.hostOps1 U (Proc.devRef .tc main_v53) : S1x2.Idx → EReal) = (fun i => b2A m c (ix1 (i 1))) := by
  refine ⟨(read_v52 U).trans ?_, (read_v53 U).trans ?_⟩
  · rw [h5, h33, V3_v5, V3_v33]
    exact wsrcA_eq _ _
  · rw [h6]
    exact biasRow2_eq _ _

end Cert.KerSide

end
-- ==== Proof.KIValue.lean ====
import proofs.«136975_j63797444214872_2_alg».proof.Proof.KIValue0
import proofs.«136975_j63797444214872_2_alg».proof.Proof.KIValue1f
import proofs.«136975_j63797444214872_2_alg».proof.Proof.KIArgs
import proofs.«136975_j63797444214872_2_alg».proof.Proof.KerHost

/-!
# The idealized kernel's result, as the scalar-message arrangement of the arguments

The second region leaves `result1` of the arrays it is entered with: the per-node weights the host computed from the
normalisation, the hidden features the first region left (`hid0` of the scalar aggregate, the weight row and the
bias row the host computed), the matrix and the bias row. Read back to the arguments these are the specification's
`wsrc`, `hidK`, `W2` and `b2`, so the result is `kerOut`.
-/

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The hidden features the second region is entered with are what the first region left. -/
theorem feat_eq (c : Dev nD) : feat (E5 m) c = hid0 (E3 m c main_v46) (E3 m c main_arg3) (E3 m c main_v47) :=
  (W5_of m c main_v48 (by decide)).trans ((W4_arr m c 3).trans (final0 (E3 m) c))

theorem mat2_eq (c : Dev nD) : mat2 (E5 m) c = m ((c.tc : Thread nD τ).loc main_arg5) :=
  (W5_of m c main_arg5 (by decide)).trans <| (W4_of_ne m c main_arg5 (by decide)).trans <|
    W3_arg m c main_arg5 (by decide) (by decide) (by decide)

/-- THE RESULT ARRAY at the end of the run. -/
theorem kernel_value (c : Dev nD) :
    W6 m c main_v54 = GcnSpec.kerOut (m ((c.tc : Thread nD τ).loc main_arg0)) (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  have h5 : W4 m c (Proc.devRef .tc main_v5) = Gen.V3 m c main_v5 := W4_of_ne m c main_v5 (by decide)
  have h33 : W4 m c (Proc.devRef .tc main_v33) = Gen.V3 m c main_v33 := W4_of_ne m c main_v33 (by decide)
  have h6 : W4 m c (Proc.devRef .tc main_arg6) = m ((c.tc : Thread nD τ).loc main_arg6) :=
    (W4_of_ne m c main_arg6 (by decide)).trans (W3_arg m c main_arg6 (by decide) (by decide) (by decide))
  obtain ⟨hw, hb⟩ := Cert.KerSide.H2 m c (W4 m c) h5 h33 h6
  obtain ⟨hagg, hb1, hW1⟩ := Cert.KerSide.H1 m c
  refine ((W6_arr m c 4).trans (final1 (E5 m) c)).trans ?_
  funext i
  unfold result1 GcnSpec.kerOut
  refine congrArg (fun z => GcnSpec.softmax2 z (i 1)) ?_
  funext k
  unfold GcnSpec.logitK
  have hacc : ∀ j : Fin 16, accAll (E5 m) c j = GcnSpec.acc (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) j := by
    intro j
    unfold accAll GcnSpec.acc
    refine congrArg (fun s => GcnSpec.zero + s) ?_
    refine Finset.sum_congr rfl fun tt _ => Finset.sum_congr rfl fun r _ => ?_
    have e1 : wcol (E5 m) c (ix2 (GcnSpec.node tt r) 0) = GcnSpec.wsrc (m ((c.tc : Thread nD τ).loc main_arg1)) (m ((c.tc : Thread nD τ).loc main_arg2)) (GcnSpec.node tt r) := by
      show (StableHlo.after hostOps1 (W4 m c) (Proc.devRef .tc main_v52) : S500000x1.Idx → EReal) (ix2 (GcnSpec.node tt r) 0) = _
      rw [hw]
      rfl
    have e2 : feat (E5 m) c (ix2 (GcnSpec.node tt r) j) = GcnSpec.hidK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (GcnSpec.node tt r) j := by
      rw [feat_eq m c]
      show hid0 (Gen.V3 m c (Proc.devRef .tc main_v46)) (Gen.V3 m c (Proc.devRef .tc main_arg3)) (Gen.V3 m c (Proc.devRef .tc main_v47)) (ix2 (GcnSpec.node tt r) j) = _
      rw [hagg, hW1, hb1]
      rfl
    rw [e1, e2]
  refine congrArg₂ (fun a b : EReal => a + b) ?_ ?_
  · refine congrArg (fun s => GcnSpec.zero + s) ?_
    refine Finset.sum_congr rfl fun j _ => ?_
    rw [hacc j, mat2_eq m c]
  · refine congrArg (fun s => Ideal.ofBits .f32 0x48F42400#32 * s) ?_
    show (StableHlo.after hostOps1 (W4 m c) (Proc.devRef .tc main_v53) : S1x2.Idx → EReal) (ix2 0 k) = _
    rw [hb]
    rfl

/-- THE RUN, READ: every weakly fair execution terminates with the result array at `kerOut` of the arguments and the
    argument arrays as launched. -/
theorem kernel_run : θ_run defs (onTc (τ := τ) (main (F := Ideal))) ⟨m, fun _ => 0, ρ⟩ (fun r => ∀ c : Dev nD,
      r.2.mem ((c.tc : Thread nD τ).loc main_v54) = GcnSpec.kerOut (m ((c.tc : Thread nD τ).loc main_arg0)) (m ((c.tc : Thread nD τ).loc main_arg1)) (m ((c.tc : Thread nD τ).loc main_arg2)) (m ((c.tc : Thread nD τ).loc main_arg3))
        (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
    ⟨(h c _ (mem_uc main_v54 (by decide))).trans (kernel_value m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c)⟩)
    (run_all m ρ)

end Cert.KernelIdeal.Hand

end
-- ==== Proof.RefValue1.lean ====
import proofs.«136975_j63797444214872_2_alg».proof.Proof.Gen.ReferenceIdeal.Read
import proofs.«136975_j63797444214872_2_alg».proof.Proof.Spec
import proofs.«136975_j63797444214872_2_alg».proof.Proof.LibGatherScatter
import Idealize.ShloMosaic.Lib.Pipeline.Value
import Idealize.ShloMosaic.Lib.ValueIdx
import Idealize.ShloMosaic.PureOps.Ideal.Laws

noncomputable section

open scoped BigOperators

namespace Cert.RefSide

open Cert.ReferenceIdeal Cert.ReferenceIdeal.Gen Cert.ReferenceIdeal.Read Idealize.ShloMosaic Idealize.ShloMosaic.ValueIdx
  Cert.GcnSpec Cert.LibGS

variable (x : (⟨2, ![500000, 1]⟩ : Shape).Idx → EReal) (ei : (⟨2, ![2, 16000000]⟩ : Shape).Idx → BitVec 32)
  (ew : (⟨1, ![16000000]⟩ : Shape).Idx → EReal) (W1 : (⟨2, ![1, 16]⟩ : Shape).Idx → EReal)
  (b1 : (⟨1, ![16]⟩ : Shape).Idx → EReal) (W2 : (⟨2, ![16, 2]⟩ : Shape).Idx → EReal) (b2 : (⟨1, ![2]⟩ : Shape).Idx → EReal)

/-! # The reference's edge list, weights and wrapped endpoints, index by index -/

/-- Row r of the endpoint array, read through the slice and the reshape. -/
theorem v1_apply (k : Fin 16000000) : val_main_v1 (F := Ideal) ei (ix1 k) = ei (ix2 0 k) := by
  rw [val_main_v1_apply, val_main_v0_apply]
  congr 1
  funext a
  refine Fin.ext ?_
  match a with
  | ⟨0, _⟩ => rfl
  | ⟨1, _⟩ => exact Nat.mod_eq_of_lt k.isLt

theorem v3_apply (k : Fin 16000000) : val_main_v3 (F := Ideal) ei (ix1 k) = ei (ix2 1 k) := by
  rw [val_main_v3_apply, val_main_v2_apply]
  congr 1
  funext a
  refine Fin.ext ?_
  match a with
  | ⟨0, _⟩ => rfl
  | ⟨1, _⟩ => exact Nat.mod_eq_of_lt k.isLt

/-- The source endpoints with the self loops appended. -/
theorem v5_apply (e : Fin 16500000) : val_main_v5 (F := Ideal) ei (ix1 e) = endp ei 0 e := by
  unfold val_main_v5 endp
  by_cases h : e.val < 16000000
  · rw [dif_pos h]
    rw [concatenate_pair_apply_left (t := S16500000) (s₁ := S16000000) (s₂ := S500000) (0 : Fin 1) _ _
      concatenates_S16000000_S500000_S16500000_d0 (ix1 e) rfl
      (ix1 (⟨e.val, h⟩ : Fin 16000000)) (by intro b; obtain rfl : b = 0 := Subsingleton.elim _ _; rfl)]
    exact v1_apply ei ⟨e.val, h⟩
  · rw [dif_neg h]
    rw [concatenate_pair_apply_right (t := S16500000) (s₁ := S16000000) (s₂ := S500000) (0 : Fin 1) _ _
      concatenates_S16000000_S500000_S16500000_d0 (ix1 e) rfl rfl
      (ix1 (⟨e.val - 16000000, by have := e.isLt; omega⟩ : Fin 500000))
      (by intro b hb; exact absurd (Subsingleton.elim _ _) hb)
      (by show e.val - 16000000 + 16000000 = e.val; omega)]
    rfl

/-- The target endpoints with the self loops appended. -/
theorem v6_apply (e : Fin 16500000) : val_main_v6 (F := Ideal) ei (ix1 e) = endp ei 1 e := by
  unfold val_main_v6 endp
  by_cases h : e.val < 16000000
  · rw [dif_pos h]
    rw [concatenate_pair_apply_left (t := S16500000) (s₁ := S16000000) (s₂ := S500000) (0 : Fin 1) _ _
      concatenates_S16000000_S500000_S16500000_d0 (ix1 e) rfl
      (ix1 (⟨e.val, h⟩ : Fin 16000000)) (by intro b; obtain rfl : b = 0 := Subsingleton.elim _ _; rfl)]
    exact v3_apply ei ⟨e.val, h⟩
  · rw [dif_neg h]
    rw [concatenate_pair_apply_right (t := S16500000) (s₁ := S16000000) (s₂ := S500000) (0 : Fin 1) _ _
      concatenates_S16000000_S500000_S16500000_d0 (ix1 e) rfl rfl
      (ix1 (⟨e.val - 16000000, by have := e.isLt; omega⟩ : Fin 500000))
      (by intro b hb; exact absurd (Subsingleton.elim _ _) hb)
      (by show e.val - 16000000 + 16000000 = e.val; omega)]
    rfl

/-- The edge weights with a one appended for every self loop. -/
theorem v8_apply (e : Fin 16500000) : val_main_v8 (F := Ideal) ew (ix1 e) = wt ew e := by
  unfold val_main_v8 wt
  by_cases h : e.val < 16000000
  · rw [dif_pos h]
    rw [concatenate_pair_apply_left (t := S16500000) (s₁ := S16000000) (s₂ := S500000) (0 : Fin 1) _ _
      concatenates_S16000000_S500000_S16500000_d0 (ix1 e) rfl
      (ix1 (⟨e.val, h⟩ : Fin 16000000)) (by intro b; obtain rfl : b = 0 := Subsingleton.elim _ _; rfl)]
  · rw [dif_neg h]
    rw [concatenate_pair_apply_right (t := S16500000) (s₁ := S16000000) (s₂ := S500000) (0 : Fin 1) _ _
      concatenates_S16000000_S500000_S16500000_d0 (ix1 e) rfl rfl
      (ix1 (⟨e.val - 16000000, by have := e.isLt; omega⟩ : Fin 500000))
      (by intro b hb; exact absurd (Subsingleton.elim _ _) hb)
      (by show e.val - 16000000 + 16000000 = e.val; omega)]
    rw [val_main_v7_apply]
    rfl

/-- The second layer builds the same three arrays again. -/
theorem v53_eq : val_main_v53 (F := Ideal) ei = val_main_v5 (F := Ideal) ei := rfl
theorem v54_eq : val_main_v54 (F := Ideal) ei = val_main_v6 (F := Ideal) ei := rfl
theorem v56_eq : val_main_v56 (F := Ideal) ew = val_main_v8 (F := Ideal) ew := rfl

theorem v53_apply (e : Fin 16500000) : val_main_v53 (F := Ideal) ei (ix1 e) = endp ei 0 e := v5_apply ei e
theorem v54_apply (e : Fin 16500000) : val_main_v54 (F := Ideal) ei (ix1 e) = endp ei 1 e := v6_apply ei e
theorem v56_apply (e : Fin 16500000) : val_main_v56 (F := Ideal) ew (ix1 e) = wt ew e := v8_apply ew e

/-- A negative word wrapped by the extent, then read signed and clamped: the node a gathered read reads. -/
theorem wrap_pick (v : BitVec 32) :
    (⟨min (Scalar.select (IntOp.cmpi .slt v 0#32) (IntOp.addi v 500000#32) v).toInt.toNat (500000 - 1), by omega⟩
      : Fin 500000) = pick v := by
  unfold pick
  refine Fin.ext ?_
  show min (Scalar.select (IntOp.cmpi .slt v 0#32) (IntOp.addi v 500000#32) v).toInt.toNat (500000 - 1)
    = min (if v.toInt < 0 then v + 500000#32 else v).toInt.toNat 499999
  have hsel : Scalar.select (IntOp.cmpi .slt v 0#32) (IntOp.addi v 500000#32) v
      = if v.toInt < 0 then v + 500000#32 else v := by
    unfold Scalar.select IntOp.cmpi IntOp.addi
    by_cases h : v.toInt < 0
    · have hs : v.slt 0#32 = true := by rw [BitVec.slt]; simpa using h
      rw [if_pos h, hs]; rfl
    · have hs : v.slt 0#32 = false := by rw [BitVec.slt]; simpa using h
      rw [if_neg h, hs]; rfl
  rw [hsel]

end Cert.RefSide

end
-- ==== Proof.RefValue2.lean ====
import proofs.«136975_j63797444214872_2_alg».proof.Proof.Gen.ReferenceIdeal.Read
import proofs.«136975_j63797444214872_2_alg».proof.Proof.Spec
import proofs.«136975_j63797444214872_2_alg».proof.Proof.LibGatherScatter
import Idealize.ShloMosaic.Lib.Pipeline.Value
import Idealize.ShloMosaic.Lib.ValueIdx
import Idealize.ShloMosaic.PureOps.Ideal.Laws
import proofs.«136975_j63797444214872_2_alg».proof.Proof.RefValue1

noncomputable section

open scoped BigOperators

namespace Cert.RefSide

open Cert.ReferenceIdeal Cert.ReferenceIdeal.Gen Cert.ReferenceIdeal.Read Idealize.ShloMosaic Idealize.ShloMosaic.ValueIdx
  Cert.GcnSpec Cert.LibGS

variable (x : (⟨2, ![500000, 1]⟩ : Shape).Idx → EReal) (ei : (⟨2, ![2, 16000000]⟩ : Shape).Idx → BitVec 32)
  (ew : (⟨1, ![16000000]⟩ : Shape).Idx → EReal) (W1 : (⟨2, ![1, 16]⟩ : Shape).Idx → EReal)
  (b1 : (⟨1, ![16]⟩ : Shape).Idx → EReal) (W2 : (⟨2, ![16, 2]⟩ : Shape).Idx → EReal) (b2 : (⟨1, ![2]⟩ : Shape).Idx → EReal)

/-! # The reference's degree, inverse square root and edge normalisation, index by index -/

/-- The endpoint word with a negative value wrapped by the extent, as the program computes it. -/
abbrev wrapWord (v : BitVec 32) : BitVec 32 :=
  Scalar.select (IntOp.cmpi .slt v 0#32) (IntOp.addi v 500000#32) v

/-- The inverse square root of a positive degree and zero otherwise, as the program computes it. -/
theorem dis_word (d : EReal) :
    Scalar.select (FloatOps.cmpf (F := Ideal) (φ := .f32) .ogt d (FloatOps.ofBits (F := Ideal) .f32 0x00000000#32))
      (FloatOps.hostUnary (F := Ideal) (φ := .f32) .rsqrt
        (FloatOps.maximumf (F := Ideal) (φ := .f32) d (FloatOps.ofBits (F := Ideal) .f32 0x2B8CBCCC#32)))
      (FloatOps.ofBits (F := Ideal) .f32 0x00000000#32)
    = if zero < d then Ideal.rsqrt (max d (Ideal.ofBits .f32 0x2B8CBCCC#32)) else zero := by
  show (if BitVec.ofBool (decide (zero < d)) = 1#1 then Ideal.rsqrt (max d (Ideal.ofBits .f32 0x2B8CBCCC#32)) else zero) = _
  by_cases h : zero < d
  · rw [if_pos h, decide_eq_true h, if_pos (show BitVec.ofBool true = 1#1 from rfl)]
  · rw [if_neg h, decide_eq_false h, if_neg (show ¬ BitVec.ofBool false = 1#1 by decide)]

/-- At the exact instance the accumulating scatter is the exact sum. -/
theorem hostScatterAdd_eq {s si su : Shape} (d : ScatterDims s si su) {w : Nat} (x : s.Idx → EReal) (idx : IVec si w)
    (upd : su.Idx → EReal) : Host.scatterAdd (F := Ideal) (φ := .f32) d x idx upd = Ideal.hostScatterAdd d x idx upd := rfl

/-! ## Layer 1: degree, inverse square root, normalisation -/

theorem v10_apply (e : Fin 16500000) : val_main_v10 (F := Ideal) ei (ix2 e 0) = endp ei 1 e := by
  rw [val_main_v10_apply]
  have hi : idx_main_v10 (ix2 e (0 : Fin 1)) = ix1 e := by
    funext a; match a with | ⟨0, _⟩ => rfl
  rw [hi]; exact v6_apply ei e

theorem hp_v10 (n : Fin 500000) (e : Fin 16500000) :
    lands (endp ei 1 e) n ↔ (val_main_v10 (F := Ideal) ei (ix2 e 0)).toInt = (n.val : Int) := by
  rw [v10_apply]; exact Iff.rfl

/-- The weighted in-degree. -/
theorem v11_apply (n : Fin 500000) : val_main_v11 (F := Ideal) ei ew (ix1 n) = deg ei ew n := by
  unfold val_main_v11 deg
  rw [hostScatterAdd_eq]
  rw [show scatter_S500000_S16500000x1_S16500000_n_0_0_1 = sDims1 500000 16500000 Facts₀.scatter_S500000_S16500000x1_S16500000_n_0_0_1_wf from rfl]
  rw [scatterAdd1_apply Facts₀.scatter_S500000_S16500000x1_S16500000_n_0_0_1_wf (val_main_v9 (F := Ideal)) (val_main_v10 (F := Ideal) ei) (val_main_v8 (F := Ideal) ew) n
    (fun e => lands (endp ei 1 e) n) (hp_v10 ei n)]
  rw [val_main_v9_apply, val_main_cst_0_apply, Ideal.ofBits_def]
  refine congrArg (fun s => zero + s) ?_
  exact Finset.sum_congr rfl (fun e _ => v8_apply ew e)

/-- The inverse square root of the degree. -/
theorem v17_apply (n : Fin 500000) : val_main_v17 (F := Ideal) ei ew (ix1 n) = dis ei ew n := by
  rw [val_main_v17_apply, val_main_v13_apply, val_main_v16_apply, val_main_v15_apply, v11_apply, val_main_v12_apply, val_main_v14_apply, val_main_call0_v1_apply,
    val_main_call0_v0_apply, val_main_cst_1_apply, val_main_cst_2_apply, val_main_cst_3_apply]
  exact dis_word _

theorem v23_apply (e : Fin 16500000) : val_main_v23 (F := Ideal) ei (ix2 e 0) = wrapWord (endp ei 0 e) := by
  rw [val_main_v23_apply]
  have hi : idx_main_v23 (ix2 e (0 : Fin 1)) = ix1 e := by
    funext a; match a with | ⟨0, _⟩ => rfl
  rw [hi, val_main_v22_apply, val_main_v19_apply, val_main_v21_apply, v5_apply, val_main_v18_apply, val_main_v20_apply, val_main_c_apply, val_main_c_4_apply]

theorem v31_apply (e : Fin 16500000) : val_main_v31 (F := Ideal) ei (ix2 e 0) = wrapWord (endp ei 1 e) := by
  rw [val_main_v31_apply]
  have hi : idx_main_v31 (ix2 e (0 : Fin 1)) = ix1 e := by
    funext a; match a with | ⟨0, _⟩ => rfl
  rw [hi, val_main_v30_apply, val_main_v27_apply, val_main_v29_apply, v6_apply, val_main_v26_apply, val_main_v28_apply, val_main_c_5_apply, val_main_c_6_apply]

/-- The inverse square root gathered at the source of an edge. -/
theorem v24_apply (e : Fin 16500000) : val_main_v24 (F := Ideal) ei ew (ix1 e) = dis ei ew (pick (endp ei 0 e)) := by
  unfold val_main_v24
  rw [show gather_S500000_S16500000x1_S16500000_n_0_n_n_0_1_1 = gDims1 500000 16500000 Facts₀.gather_S500000_S16500000x1_S16500000_n_0_n_n_0_1_1_wf from rfl]
  rw [gather1_apply (by decide) Facts₀.gather_S500000_S16500000x1_S16500000_n_0_n_n_0_1_1_wf (val_main_v17 (F := Ideal) ei ew) (val_main_v23 (F := Ideal) ei) e, v17_apply]
  refine congrArg (dis ei ew) ?_
  rw [← wrap_pick]
  refine Fin.ext ?_
  show min (val_main_v23 (F := Ideal) ei (ix2 e 0)).toInt.toNat (500000 - 1)
    = min (wrapWord (endp ei 0 e)).toInt.toNat (500000 - 1)
  rw [v23_apply]

/-- The inverse square root gathered at the target of an edge. -/
theorem v32_apply (e : Fin 16500000) : val_main_v32 (F := Ideal) ei ew (ix1 e) = dis ei ew (pick (endp ei 1 e)) := by
  unfold val_main_v32
  rw [show gather_S500000_S16500000x1_S16500000_n_0_n_n_0_1_1 = gDims1 500000 16500000 Facts₀.gather_S500000_S16500000x1_S16500000_n_0_n_n_0_1_1_wf from rfl]
  rw [gather1_apply (by decide) Facts₀.gather_S500000_S16500000x1_S16500000_n_0_n_n_0_1_1_wf (val_main_v17 (F := Ideal) ei ew) (val_main_v31 (F := Ideal) ei) e, v17_apply]
  refine congrArg (dis ei ew) ?_
  rw [← wrap_pick]
  refine Fin.ext ?_
  show min (val_main_v31 (F := Ideal) ei (ix2 e 0)).toInt.toNat (500000 - 1)
    = min (wrapWord (endp ei 1 e)).toInt.toNat (500000 - 1)
  rw [v31_apply]

/-- The symmetric normalisation of an edge. -/
theorem v33_apply (e : Fin 16500000) : val_main_v33 (F := Ideal) ei ew (ix1 e) = norm ei ew e := by
  rw [val_main_v33_apply, val_main_v25_apply, v24_apply, v8_apply, v32_apply, Ideal.mulf_def, Ideal.mulf_def]
  rfl

/-! ## Layer 2: degree, inverse square root, normalisation -/

theorem v58_apply (e : Fin 16500000) : val_main_v58 (F := Ideal) ei (ix2 e 0) = endp ei 1 e := by
  rw [val_main_v58_apply]
  have hi : idx_main_v58 (ix2 e (0 : Fin 1)) = ix1 e := by
    funext a; match a with | ⟨0, _⟩ => rfl
  rw [hi]; exact v54_apply ei e

theorem hp_v58 (n : Fin 500000) (e : Fin 16500000) :
    lands (endp ei 1 e) n ↔ (val_main_v58 (F := Ideal) ei (ix2 e 0)).toInt = (n.val : Int) := by
  rw [v58_apply]; exact Iff.rfl

/-- The weighted in-degree. -/
theorem v59_apply (n : Fin 500000) : val_main_v59 (F := Ideal) ei ew (ix1 n) = deg ei ew n := by
  unfold val_main_v59 deg
  rw [hostScatterAdd_eq]
  rw [show scatter_S500000_S16500000x1_S16500000_n_0_0_1 = sDims1 500000 16500000 Facts₀.scatter_S500000_S16500000x1_S16500000_n_0_0_1_wf from rfl]
  rw [scatterAdd1_apply Facts₀.scatter_S500000_S16500000x1_S16500000_n_0_0_1_wf (val_main_v57 (F := Ideal)) (val_main_v58 (F := Ideal) ei) (val_main_v56 (F := Ideal) ew) n
    (fun e => lands (endp ei 1 e) n) (hp_v58 ei n)]
  rw [val_main_v57_apply, val_main_cst_11_apply, Ideal.ofBits_def]
  refine congrArg (fun s => zero + s) ?_
  exact Finset.sum_congr rfl (fun e _ => v56_apply ew e)

/-- The inverse square root of the degree. -/
theorem v65_apply (n : Fin 500000) : val_main_v65 (F := Ideal) ei ew (ix1 n) = dis ei ew n := by
  rw [val_main_v65_apply, val_main_v61_apply, val_main_v64_apply, val_main_v63_apply, v59_apply, val_main_v60_apply, val_main_v62_apply, val_main_call2_v1_apply,
    val_main_call2_v0_apply, val_main_cst_12_apply, val_main_cst_13_apply, val_main_cst_14_apply]
  exact dis_word _

theorem v71_apply (e : Fin 16500000) : val_main_v71 (F := Ideal) ei (ix2 e 0) = wrapWord (endp ei 0 e) := by
  rw [val_main_v71_apply]
  have hi : idx_main_v71 (ix2 e (0 : Fin 1)) = ix1 e := by
    funext a; match a with | ⟨0, _⟩ => rfl
  rw [hi, val_main_v70_apply, val_main_v67_apply, val_main_v69_apply, v53_apply, val_main_v66_apply, val_main_v68_apply, val_main_c_15_apply, val_main_c_16_apply]

theorem v79_apply (e : Fin 16500000) : val_main_v79 (F := Ideal) ei (ix2 e 0) = wrapWord (endp ei 1 e) := by
  rw [val_main_v79_apply]
  have hi : idx_main_v79 (ix2 e (0 : Fin 1)) = ix1 e := by
    funext a; match a with | ⟨0, _⟩ => rfl
  rw [hi, val_main_v78_apply, val_main_v75_apply, val_main_v77_apply, v54_apply, val_main_v74_apply, val_main_v76_apply, val_main_c_17_apply, val_main_c_18_apply]

/-- The inverse square root gathered at the source of an edge. -/
theorem v72_apply (e : Fin 16500000) : val_main_v72 (F := Ideal) ei ew (ix1 e) = dis ei ew (pick (endp ei 0 e)) := by
  unfold val_main_v72
  rw [show gather_S500000_S16500000x1_S16500000_n_0_n_n_0_1_1 = gDims1 500000 16500000 Facts₀.gather_S500000_S16500000x1_S16500000_n_0_n_n_0_1_1_wf from rfl]
  rw [gather1_apply (by decide) Facts₀.gather_S500000_S16500000x1_S16500000_n_0_n_n_0_1_1_wf (val_main_v65 (F := Ideal) ei ew) (val_main_v71 (F := Ideal) ei) e, v65_apply]
  refine congrArg (dis ei ew) ?_
  rw [← wrap_pick]
  refine Fin.ext ?_
  show min (val_main_v71 (F := Ideal) ei (ix2 e 0)).toInt.toNat (500000 - 1)
    = min (wrapWord (endp ei 0 e)).toInt.toNat (500000 - 1)
  rw [v71_apply]

/-- The inverse square root gathered at the target of an edge. -/
theorem v80_apply (e : Fin 16500000) : val_main_v80 (F := Ideal) ei ew (ix1 e) = dis ei ew (pick (endp ei 1 e)) := by
  unfold val_main_v80
  rw [show gather_S500000_S16500000x1_S16500000_n_0_n_n_0_1_1 = gDims1 500000 16500000 Facts₀.gather_S500000_S16500000x1_S16500000_n_0_n_n_0_1_1_wf from rfl]
  rw [gather1_apply (by decide) Facts₀.gather_S500000_S16500000x1_S16500000_n_0_n_n_0_1_1_wf (val_main_v65 (F := Ideal) ei ew) (val_main_v79 (F := Ideal) ei) e, v65_apply]
  refine congrArg (dis ei ew) ?_
  rw [← wrap_pick]
  refine Fin.ext ?_
  show min (val_main_v79 (F := Ideal) ei (ix2 e 0)).toInt.toNat (500000 - 1)
    = min (wrapWord (endp ei 1 e)).toInt.toNat (500000 - 1)
  rw [v79_apply]

/-- The symmetric normalisation of an edge. -/
theorem v81_apply (e : Fin 16500000) : val_main_v81 (F := Ideal) ei ew (ix1 e) = norm ei ew e := by
  rw [val_main_v81_apply, val_main_v73_apply, v72_apply, v56_apply, v80_apply, Ideal.mulf_def, Ideal.mulf_def]
  rfl

end Cert.RefSide

end
-- ==== Proof.RefValue3.lean ====
import proofs.«136975_j63797444214872_2_alg».proof.Proof.Gen.ReferenceIdeal.Read
import proofs.«136975_j63797444214872_2_alg».proof.Proof.Spec
import proofs.«136975_j63797444214872_2_alg».proof.Proof.LibGatherScatter
import Idealize.ShloMosaic.Lib.Pipeline.Value
import Idealize.ShloMosaic.Lib.ValueIdx
import Idealize.ShloMosaic.PureOps.Ideal.Laws
import proofs.«136975_j63797444214872_2_alg».proof.Proof.RefValue2

noncomputable section

open scoped BigOperators

namespace Cert.RefSide

open Cert.ReferenceIdeal Cert.ReferenceIdeal.Gen Cert.ReferenceIdeal.Read Idealize.ShloMosaic Idealize.ShloMosaic.ValueIdx
  Cert.GcnSpec Cert.LibGS

variable (x : (⟨2, ![500000, 1]⟩ : Shape).Idx → EReal) (ei : (⟨2, ![2, 16000000]⟩ : Shape).Idx → BitVec 32)
  (ew : (⟨1, ![16000000]⟩ : Shape).Idx → EReal) (W1 : (⟨2, ![1, 16]⟩ : Shape).Idx → EReal)
  (b1 : (⟨1, ![16]⟩ : Shape).Idx → EReal) (W2 : (⟨2, ![16, 2]⟩ : Shape).Idx → EReal) (b2 : (⟨1, ![2]⟩ : Shape).Idx → EReal)

/-! # The reference's first layer, index by index -/

/-- The first layer's linear map: a one-term contraction. -/
theorem v34_apply (n : Fin 500000) (j : Fin 16) : val_main_v34 (F := Ideal) x W1 (ix2 n j) = lin1 x W1 n j := by
  rw [val_main_v34_apply, Fin.sum_univ_one]
  have hl : lidx_main_v34 (ix2 n j) 0 = ix2 n (0 : Fin 1) := by
    funext a; match a with | ⟨0, _⟩ => rfl | ⟨1, _⟩ => rfl
  have hr : ridx_main_v34 (ix2 n j) 0 = ix2 (0 : Fin 1) j := by
    funext a; match a with | ⟨0, _⟩ => rfl | ⟨1, _⟩ => rfl
  rw [hl, hr]
  rfl

theorem v40_apply (e : Fin 16500000) : val_main_v40 (F := Ideal) ei (ix2 e 0) = wrapWord (endp ei 0 e) := by
  rw [val_main_v40_apply]
  have hi : idx_main_v40 (ix2 e (0 : Fin 1)) = ix1 e := by
    funext a; match a with | ⟨0, _⟩ => rfl
  rw [hi, val_main_v39_apply, val_main_v36_apply, val_main_v38_apply, v5_apply, val_main_v35_apply,
    val_main_v37_apply, val_main_c_7_apply, val_main_c_8_apply]

/-- The linear map gathered at the source of an edge. -/
theorem v41_apply (e : Fin 16500000) (j : Fin 16) :
    val_main_v41 (F := Ideal) x ei W1 (ix2 e j) = lin1 x W1 (pick (endp ei 0 e)) j := by
  unfold val_main_v41
  rw [show gather_S500000x16_S16500000x1_S16500000x16_1_0_n_n_0_1_116 = gDims2 500000 16 16500000 Facts₀.gather_S500000x16_S16500000x1_S16500000x16_1_0_n_n_0_1_116_wf from rfl]
  rw [gather2_apply (by decide) Facts₀.gather_S500000x16_S16500000x1_S16500000x16_1_0_n_n_0_1_116_wf (val_main_v34 (F := Ideal) x W1) (val_main_v40 (F := Ideal) ei) e j, v34_apply]
  refine congrArg (fun k => lin1 x W1 k j) ?_
  rw [← wrap_pick]
  refine Fin.ext ?_
  show min (val_main_v40 (F := Ideal) ei (ix2 e 0)).toInt.toNat (500000 - 1)
    = min (wrapWord (endp ei 0 e)).toInt.toNat (500000 - 1)
  rw [v40_apply]

/-- The normalisation broadcast along the feature axis. -/
theorem v43_apply (e : Fin 16500000) (j : Fin 16) : val_main_v43 (F := Ideal) ei ew (ix2 e j) = norm ei ew e := by
  rw [val_main_v43_apply, val_main_v42_apply]
  have hi : idx_main_v42 (idx_main_v43 (ix2 e j)) = ix1 e := by
    funext a; match a with | ⟨0, _⟩ => rfl
  rw [hi, v33_apply]

/-- The first layer's message on an edge. -/
theorem v44_apply (e : Fin 16500000) (j : Fin 16) :
    val_main_v44 (F := Ideal) x ei ew W1 (ix2 e j) = lin1 x W1 (pick (endp ei 0 e)) j * norm ei ew e := by
  rw [val_main_v44_apply, v41_apply, v43_apply, Ideal.mulf_def]

theorem v46_apply (e : Fin 16500000) : val_main_v46 (F := Ideal) ei (ix2 e 0) = endp ei 1 e := by
  rw [val_main_v46_apply]
  have hi : idx_main_v46 (ix2 e (0 : Fin 1)) = ix1 e := by
    funext a; match a with | ⟨0, _⟩ => rfl
  rw [hi]; exact v6_apply ei e

theorem hp_v46 (n : Fin 500000) (e : Fin 16500000) :
    lands (endp ei 1 e) n ↔ (val_main_v46 (F := Ideal) ei (ix2 e 0)).toInt = (n.val : Int) := by
  rw [v46_apply]; exact Iff.rfl

/-- The first layer's aggregate. -/
theorem v47_apply (n : Fin 500000) (j : Fin 16) :
    val_main_v47 (F := Ideal) x ei ew W1 (ix2 n j)
      = zero + ∑ e ∈ Finset.univ.filter (fun e => lands (endp ei 1 e) n),
          lin1 x W1 (pick (endp ei 0 e)) j * norm ei ew e := by
  unfold val_main_v47
  rw [hostScatterAdd_eq]
  rw [show scatter_S500000x16_S16500000x1_S16500000x16_1_0_0_1 = sDims2 500000 16 16500000 Facts₀.scatter_S500000x16_S16500000x1_S16500000x16_1_0_0_1_wf from rfl]
  rw [scatterAdd2_apply Facts₀.scatter_S500000x16_S16500000x1_S16500000x16_1_0_0_1_wf (val_main_v45 (F := Ideal)) (val_main_v46 (F := Ideal) ei)
    (val_main_v44 (F := Ideal) x ei ew W1) n j (fun e => lands (endp ei 1 e) n) (hp_v46 ei n)]
  rw [val_main_v45_apply, val_main_cst_9_apply, Ideal.ofBits_def]
  refine congrArg (fun s => zero + s) ?_
  exact Finset.sum_congr rfl (fun e _ => v44_apply x ei ew W1 e j)

/-- The hidden features: aggregate plus bias, rectified. -/
theorem v51_apply (n : Fin 500000) (j : Fin 16) :
    val_main_v51 (F := Ideal) x ei ew W1 b1 (ix2 n j) = hidR x ei ew W1 b1 n j := by
  rw [val_main_v51_apply, val_main_v50_apply, v47_apply, val_main_v49_apply, val_main_v48_apply,
    val_main_call1_v0_apply, val_main_call1_cst_apply, Ideal.maximumf_def, Ideal.addf_def, Ideal.ofBits_def]
  have hi : idx_main_v48 (idx_main_v49 (ix2 n j)) = ix1 j := by
    funext a; match a with | ⟨0, _⟩ => rfl
  rw [hi]
  rfl

end Cert.RefSide

end
-- ==== Proof.RefValue4.lean ====
import proofs.«136975_j63797444214872_2_alg».proof.Proof.Gen.ReferenceIdeal.Read
import proofs.«136975_j63797444214872_2_alg».proof.Proof.Spec
import proofs.«136975_j63797444214872_2_alg».proof.Proof.LibGatherScatter
import Idealize.ShloMosaic.Lib.Pipeline.Value
import Idealize.ShloMosaic.Lib.ValueIdx
import Idealize.ShloMosaic.PureOps.Ideal.Laws
import proofs.«136975_j63797444214872_2_alg».proof.Proof.RefValue3

noncomputable section

open scoped BigOperators

namespace Cert.RefSide

open Cert.ReferenceIdeal Cert.ReferenceIdeal.Gen Cert.ReferenceIdeal.Read Idealize.ShloMosaic Idealize.ShloMosaic.ValueIdx
  Cert.GcnSpec Cert.LibGS

variable (x : (⟨2, ![500000, 1]⟩ : Shape).Idx → EReal) (ei : (⟨2, ![2, 16000000]⟩ : Shape).Idx → BitVec 32)
  (ew : (⟨1, ![16000000]⟩ : Shape).Idx → EReal) (W1 : (⟨2, ![1, 16]⟩ : Shape).Idx → EReal)
  (b1 : (⟨1, ![16]⟩ : Shape).Idx → EReal) (W2 : (⟨2, ![16, 2]⟩ : Shape).Idx → EReal) (b2 : (⟨1, ![2]⟩ : Shape).Idx → EReal)

/-! # The reference's second layer and its node sum, index by index -/

/-- The second layer's linear map: a contraction over the sixteen hidden features. -/
theorem v82_apply (n : Fin 500000) (c : Fin 2) :
    val_main_v82 (F := Ideal) x ei ew W1 b1 W2 (ix2 n c) = lin2 x ei ew W1 b1 W2 n c := by
  rw [val_main_v82_apply]
  unfold lin2
  refine Finset.sum_congr rfl (fun k _ => ?_)
  have hl : lidx_main_v82 (ix2 n c) k = ix2 n k := by
    funext a; match a with | ⟨0, _⟩ => rfl | ⟨1, _⟩ => rfl
  have hr : ridx_main_v82 (ix2 n c) k = ix2 k c := by
    funext a; match a with | ⟨0, _⟩ => rfl | ⟨1, _⟩ => rfl
  rw [hl, hr, v51_apply]

theorem v88_apply (e : Fin 16500000) : val_main_v88 (F := Ideal) ei (ix2 e 0) = wrapWord (endp ei 0 e) := by
  rw [val_main_v88_apply]
  have hi : idx_main_v88 (ix2 e (0 : Fin 1)) = ix1 e := by
    funext a; match a with | ⟨0, _⟩ => rfl
  rw [hi, val_main_v87_apply, val_main_v84_apply, val_main_v86_apply, v53_apply, val_main_v83_apply,
    val_main_v85_apply, val_main_c_19_apply, val_main_c_20_apply]

/-- The linear map gathered at the source of an edge. -/
theorem v89_apply (e : Fin 16500000) (c : Fin 2) :
    val_main_v89 (F := Ideal) x ei ew W1 b1 W2 (ix2 e c) = lin2 x ei ew W1 b1 W2 (pick (endp ei 0 e)) c := by
  unfold val_main_v89
  rw [show gather_S500000x2_S16500000x1_S16500000x2_1_0_n_n_0_1_12 = gDims2 500000 2 16500000 Facts₀.gather_S500000x2_S16500000x1_S16500000x2_1_0_n_n_0_1_12_wf from rfl]
  rw [gather2_apply (by decide) Facts₀.gather_S500000x2_S16500000x1_S16500000x2_1_0_n_n_0_1_12_wf (val_main_v82 (F := Ideal) x ei ew W1 b1 W2) (val_main_v88 (F := Ideal) ei) e c,
    v82_apply]
  refine congrArg (fun k => lin2 x ei ew W1 b1 W2 k c) ?_
  rw [← wrap_pick]
  refine Fin.ext ?_
  show min (val_main_v88 (F := Ideal) ei (ix2 e 0)).toInt.toNat (500000 - 1)
    = min (wrapWord (endp ei 0 e)).toInt.toNat (500000 - 1)
  rw [v88_apply]

/-- The normalisation broadcast along the class axis. -/
theorem v91_apply (e : Fin 16500000) (c : Fin 2) : val_main_v91 (F := Ideal) ei ew (ix2 e c) = norm ei ew e := by
  rw [val_main_v91_apply, val_main_v90_apply]
  have hi : idx_main_v90 (idx_main_v91 (ix2 e c)) = ix1 e := by
    funext a; match a with | ⟨0, _⟩ => rfl
  rw [hi, v81_apply]

/-- The second layer's message on an edge. -/
theorem v92_apply (e : Fin 16500000) (c : Fin 2) :
    val_main_v92 (F := Ideal) x ei ew W1 b1 W2 (ix2 e c)
      = lin2 x ei ew W1 b1 W2 (pick (endp ei 0 e)) c * norm ei ew e := by
  rw [val_main_v92_apply, v89_apply, v91_apply, Ideal.mulf_def]

theorem v94_apply (e : Fin 16500000) : val_main_v94 (F := Ideal) ei (ix2 e 0) = endp ei 1 e := by
  rw [val_main_v94_apply]
  have hi : idx_main_v94 (ix2 e (0 : Fin 1)) = ix1 e := by
    funext a; match a with | ⟨0, _⟩ => rfl
  rw [hi]; exact v54_apply ei e

theorem hp_v94 (n : Fin 500000) (e : Fin 16500000) :
    lands (endp ei 1 e) n ↔ (val_main_v94 (F := Ideal) ei (ix2 e 0)).toInt = (n.val : Int) := by
  rw [v94_apply]; exact Iff.rfl

/-- The second layer's aggregate. -/
theorem v95_apply (n : Fin 500000) (c : Fin 2) :
    val_main_v95 (F := Ideal) x ei ew W1 b1 W2 (ix2 n c)
      = zero + ∑ e ∈ Finset.univ.filter (fun e => lands (endp ei 1 e) n),
          lin2 x ei ew W1 b1 W2 (pick (endp ei 0 e)) c * norm ei ew e := by
  unfold val_main_v95
  rw [hostScatterAdd_eq]
  rw [show scatter_S500000x2_S16500000x1_S16500000x2_1_0_0_1 = sDims2 500000 2 16500000 Facts₀.scatter_S500000x2_S16500000x1_S16500000x2_1_0_0_1_wf from rfl]
  rw [scatterAdd2_apply Facts₀.scatter_S500000x2_S16500000x1_S16500000x2_1_0_0_1_wf (val_main_v93 (F := Ideal)) (val_main_v94 (F := Ideal) ei)
    (val_main_v92 (F := Ideal) x ei ew W1 b1 W2) n c (fun e => lands (endp ei 1 e) n) (hp_v94 ei n)]
  rw [val_main_v93_apply, val_main_cst_21_apply, Ideal.ofBits_def]
  refine congrArg (fun s => zero + s) ?_
  exact Finset.sum_congr rfl (fun e _ => v92_apply x ei ew W1 b1 W2 e c)

/-- The second layer: aggregate plus bias. -/
theorem v98_apply (n : Fin 500000) (c : Fin 2) :
    val_main_v98 (F := Ideal) x ei ew W1 b1 W2 b2 (ix2 n c) = out2 x ei ew W1 b1 W2 b2 n c := by
  rw [val_main_v98_apply, v95_apply, val_main_v97_apply, val_main_v96_apply, Ideal.addf_def]
  have hi : idx_main_v96 (idx_main_v97 (ix2 n c)) = ix1 c := by
    funext a; match a with | ⟨0, _⟩ => rfl
  rw [hi]
  rfl

/-- The second layer summed over the nodes. -/
theorem v99_apply (c : Fin 2) :
    val_main_v99 (F := Ideal) x ei ew W1 b1 W2 b2 (ix1 c) = logitR x ei ew W1 b1 W2 b2 c := by
  rw [val_main_v99_apply, val_main_cst_22_apply, Ideal.ofBits_def]
  unfold logitR
  refine congrArg (fun s => zero + s) ?_
  refine Finset.sum_congr rfl (fun k _ => ?_)
  have hi : idx_main_v99 (ix1 c) k = ix2 k c := by
    funext a; match a with | ⟨0, _⟩ => rfl | ⟨1, _⟩ => rfl
  rw [hi, v98_apply]

end Cert.RefSide

end
-- ==== Proof.RefValue5.lean ====
import proofs.«136975_j63797444214872_2_alg».proof.Proof.Gen.ReferenceIdeal.Read
import proofs.«136975_j63797444214872_2_alg».proof.Proof.Spec
import proofs.«136975_j63797444214872_2_alg».proof.Proof.LibGatherScatter
import Idealize.ShloMosaic.Lib.Pipeline.Value
import Idealize.ShloMosaic.Lib.ValueIdx
import Idealize.ShloMosaic.PureOps.Ideal.Laws
import proofs.«136975_j63797444214872_2_alg».proof.Proof.RefValue4

noncomputable section

open scoped BigOperators

namespace Cert.RefSide

open Cert.ReferenceIdeal Cert.ReferenceIdeal.Gen Cert.ReferenceIdeal.Read Idealize.ShloMosaic Idealize.ShloMosaic.ValueIdx
  Cert.GcnSpec Cert.LibGS

variable (x : (⟨2, ![500000, 1]⟩ : Shape).Idx → EReal) (ei : (⟨2, ![2, 16000000]⟩ : Shape).Idx → BitVec 32)
  (ew : (⟨1, ![16000000]⟩ : Shape).Idx → EReal) (W1 : (⟨2, ![1, 16]⟩ : Shape).Idx → EReal)
  (b1 : (⟨1, ![16]⟩ : Shape).Idx → EReal) (W2 : (⟨2, ![16, 2]⟩ : Shape).Idx → EReal) (b2 : (⟨1, ![2]⟩ : Shape).Idx → EReal)

/-! # The reference's soft maximum and its run, against the specification -/

/-- A fold of a commutative, associative operation over two values. -/
theorem fold_univ_fin2 {α : Type} (f : α → α → α) [Std.Commutative f] [Std.Associative f] (b : α) (g : Fin 2 → α) :
    (Finset.univ : Finset (Fin 2)).fold f b g = f (g 0) (f (g 1) b) := by
  simp only [Fin.univ_succ, Finset.fold_cons, Finset.fold_map, Finset.univ_unique, Finset.fold_singleton]
  rfl

/-- The float word of minus infinity is the least extended real. -/
theorem ofBits_neg_inf : Ideal.ofBits .f32 0xFF800000#32 = (⊥ : EReal) := by simp [Ideal.ofBits, Ideal.ieee]

/-- The logits as a row. -/
theorem v100_apply (c : Fin 2) :
    val_main_v100 (F := Ideal) x ei ew W1 b1 W2 b2 (ix2 (0 : Fin 1) c) = logitR x ei ew W1 b1 W2 b2 c := by
  rw [val_main_v100_apply]
  have hi : idx_main_v100 (ix2 (0 : Fin 1) c) = ix1 c := by
    funext a; match a with | ⟨0, _⟩ => rfl
  rw [hi, v99_apply]

/-- The larger logit: a maximum reduction from minus infinity over the two classes. -/
theorem v101_apply :
    val_main_v101 (F := Ideal) x ei ew W1 b1 W2 b2 (ix1 (0 : Fin 1))
      = max (logitR x ei ew W1 b1 W2 b2 0) (logitR x ei ew W1 b1 W2 b2 1) := by
  unfold val_main_v101
  have hR : S1x2.Reduces [1] S1 := by decide
  rw [Host.reduce_eq_fold_single FloatOps.maximumf _ _ reducesTo_S1x2_S1_d1 hR h_S_]
  have hl0 : hR.lift (ix1 (0 : Fin 1)) (⟨0, by decide⟩ : Fin (S1x2.size 1)) = ix2 (0 : Fin 1) (0 : Fin 2) := by
    funext a; apply Fin.ext; rw [hR.lift_val]; fin_cases a <;> rfl
  have hl1 : hR.lift (ix1 (0 : Fin 1)) (⟨1, by decide⟩ : Fin (S1x2.size 1)) = ix2 (0 : Fin 1) (1 : Fin 2) := by
    funext a; apply Fin.ext; rw [hR.lift_val]; fin_cases a <;> rfl
  refine (fold_univ_fin2 (FloatOps.maximumf (F := Ideal) (φ := .f32)) _
    (fun k : Fin 2 => val_main_v100 (F := Ideal) x ei ew W1 b1 W2 b2 (hR.lift (ix1 (0 : Fin 1)) k))).trans ?_
  show FloatOps.maximumf (F := Ideal) (φ := .f32)
      (val_main_v100 (F := Ideal) x ei ew W1 b1 W2 b2 (hR.lift (ix1 (0 : Fin 1)) (⟨0, by decide⟩ : Fin (S1x2.size 1))))
      (FloatOps.maximumf (F := Ideal) (φ := .f32)
        (val_main_v100 (F := Ideal) x ei ew W1 b1 W2 b2 (hR.lift (ix1 (0 : Fin 1)) (⟨1, by decide⟩ : Fin (S1x2.size 1))))
        (val_main_cst_23 (F := Ideal) (Shape.Idx.first h_S_))) = _
  rw [hl0, hl1, v100_apply, v100_apply, val_main_cst_23_apply, Ideal.maximumf_def, Ideal.maximumf_def, Ideal.ofBits_def,
    ofBits_neg_inf, max_bot_right]

/-- The shift of the soft maximum. -/
theorem v105_apply (c : Fin 2) :
    val_main_v105 (F := Ideal) x ei ew W1 b1 W2 b2 (ix2 (0 : Fin 1) c)
      = max (logitR x ei ew W1 b1 W2 b2 0) (logitR x ei ew W1 b1 W2 b2 1) := by
  rw [val_main_v105_apply, val_main_v104_apply, val_main_v103_apply, val_main_v102_apply, val_main_cst_24_apply]
  have hi : idx_main_v104 (idx_main_v105 (ix2 (0 : Fin 1) c)) = ix1 (0 : Fin 1) := by
    funext a; match a with | ⟨0, _⟩ => rfl
  rw [hi, v101_apply, Ideal.maximumf_def, Ideal.ofBits_def, ofBits_neg_inf, max_bot_left]

/-- The exponential of the shifted logit. -/
theorem v107_apply (c : Fin 2) :
    val_main_v107 (F := Ideal) x ei ew W1 b1 W2 b2 (ix2 (0 : Fin 1) c)
      = Ideal.exp (logitR x ei ew W1 b1 W2 b2 c
          - max (logitR x ei ew W1 b1 W2 b2 0) (logitR x ei ew W1 b1 W2 b2 1)) := by
  rw [val_main_v107_apply, val_main_v106_apply, v100_apply, v105_apply, Ideal.hostUnary_exp_def, Ideal.subf_def]

/-- The sum of the two exponentials. -/
theorem v110_apply (c : Fin 2) :
    val_main_v110 (F := Ideal) x ei ew W1 b1 W2 b2 (ix2 (0 : Fin 1) c)
      = Ideal.exp (logitR x ei ew W1 b1 W2 b2 0
          - max (logitR x ei ew W1 b1 W2 b2 0) (logitR x ei ew W1 b1 W2 b2 1))
        + Ideal.exp (logitR x ei ew W1 b1 W2 b2 1
          - max (logitR x ei ew W1 b1 W2 b2 0) (logitR x ei ew W1 b1 W2 b2 1)) := by
  rw [val_main_v110_apply, val_main_v109_apply, val_main_v108_apply, val_main_cst_25_apply, Ideal.ofBits_def,
    Ideal.ofBits_zero_f32, zero_add, Fin.sum_univ_two]
  have h0 : idx_main_v108 (idx_main_v109 (idx_main_v110 (ix2 (0 : Fin 1) c))) 0 = ix2 (0 : Fin 1) (0 : Fin 2) := by
    funext a; match a with | ⟨0, _⟩ => rfl | ⟨1, _⟩ => rfl
  have h1 : idx_main_v108 (idx_main_v109 (idx_main_v110 (ix2 (0 : Fin 1) c))) 1 = ix2 (0 : Fin 1) (1 : Fin 2) := by
    funext a; match a with | ⟨0, _⟩ => rfl | ⟨1, _⟩ => rfl
  rw [h0, h1, v107_apply, v107_apply]

/-- The reference's result is the specification's. -/
theorem v111_eq : val_main_v111 (F := Ideal) x ei ew W1 b1 W2 b2 = refOut x ei ew W1 b1 W2 b2 := by
  funext i
  obtain ⟨a, c, rfl⟩ : ∃ a c, i = ix2 a c := ⟨i 0, i 1, eq_ix2 i⟩
  obtain rfl : a = (0 : Fin 1) := Subsingleton.elim _ _
  rw [val_main_v111_apply, v107_apply, v110_apply, Ideal.hostDivf_def]
  rfl

open Idealize.ShloMosaic.TcCoe Idealize.SL.Sem Idealize.ShloMosaic.StableHlo in
/-- Every weakly fair execution of the reference terminates with its result at the specification's value of the
    arguments, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v111)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun r h c => by
    have hc := h c
    refine ⟨?_, hc.2⟩
    rw [hc.1, val_main_v111_eq]
    exact v111_eq _ _ _ _ _ _ _) (Cert.ReferenceIdeal.Value.run (F := Ideal) m ρ)

end Cert.RefSide

end
-- ==== Proof.SpecAlgebra1.lean ====
import Mathlib

/-!
# The linear algebra behind the two arrangements of the graph convolution, over the reals

Edges `e` run from a node `s e` to a node `d e` and carry a real weight `nrm e`. The statements here are about
arbitrary finite index types; nothing is evaluated.
-/

namespace Cert.GcnSpec.Core

open Finset

variable {E N J C : Type*} [Fintype E] [Fintype N] [DecidableEq N] [Fintype J] [Fintype C]
  (s d : E → N) (nrm : E → ℝ)

/-- Summing over all nodes the sum over the edges that end at the node, plus a constant, gives the sum over all
    edges plus the constant once per node. -/
theorem sum_fiber_add (f : E → ℝ) (b : ℝ) :
    ∑ n : N, ((∑ e ∈ univ.filter (fun e => d e = n), f e) + b) = ∑ e, f e + (Fintype.card N : ℝ) * b := by
  rw [Finset.sum_add_distrib, Finset.sum_fiberwise, Finset.sum_const, Finset.card_univ, nsmul_eq_mul]

/-- A node function weighted by the total weight of the edges leaving the node, summed over the nodes, is the sum
    over the edges of the weight times the function at the source. -/
theorem sum_fiber_mul (h : N → ℝ) :
    ∑ n : N, (∑ e ∈ univ.filter (fun e => s e = n), nrm e) * h n = ∑ e, nrm e * h (s e) := by
  rw [← Finset.sum_fiberwise (s := univ) (g := s) (f := fun e => nrm e * h (s e))]
  refine Finset.sum_congr rfl fun n _ => ?_
  rw [Finset.sum_mul]
  refine Finset.sum_congr rfl fun e he => ?_
  rw [(Finset.mem_filter.mp he).2]

/-- The first layer: a sixteen-wide message `(x · w) · nrm` summed is the scalar message `x · nrm` summed, times `w`. -/
theorem hid_eq (xr : N → ℝ) (w1 b1 : J → ℝ) (n : N) (j : J) :
    max ((∑ e ∈ univ.filter (fun e => d e = n), (xr (s e) * w1 j) * nrm e) + b1 j) 0
      = max ((∑ e ∈ univ.filter (fun e => d e = n), xr (s e) * nrm e) * w1 j + b1 j) 0 := by
  congr 2
  rw [Finset.sum_mul]
  exact Finset.sum_congr rfl fun e _ => by ring

/-- The node sum of the second layer, by linearity. -/
theorem logit_eq (h : N → J → ℝ) (w2 : J → C → ℝ) (b2 : C → ℝ) (c : C) :
    ∑ n : N, ((∑ e ∈ univ.filter (fun e => d e = n), (∑ j, h (s e) j * w2 j c) * nrm e) + b2 c)
      = (∑ j, (∑ n : N, (∑ e ∈ univ.filter (fun e => s e = n), nrm e) * h n j) * w2 j c)
        + (Fintype.card N : ℝ) * b2 c := by
  rw [sum_fiber_add]
  congr 1
  have h1 : ∀ j, ∑ n : N, (∑ e ∈ univ.filter (fun e => s e = n), nrm e) * h n j = ∑ e, nrm e * h (s e) j :=
    fun j => sum_fiber_mul s nrm (fun n => h n j)
  simp_rw [h1, Finset.sum_mul]
  rw [Finset.sum_comm]
  refine Finset.sum_congr rfl fun j _ => ?_
  refine Finset.sum_congr rfl fun e _ => ?_
  ring

end Cert.GcnSpec.Core
-- ==== Proof.SpecAlgebra2.lean ====
import proofs.«136975_j63797444214872_2_alg».proof.Proof.Spec

/-!
# Endpoint words that are node numbers

When an index word, read signed, lies in the node range, the scattered sum's test and the gathered read's wrapping and
clamping name the same node.
-/

namespace Cert.GcnSpec

open Idealize.ShloMosaic Idealize.ShloMosaic.ValueIdx

/-- A word in the node range is read by a gather without wrapping or clamping. -/
theorem pick_val_of_small (v : BitVec 32) (h0 : 0 ≤ v.toInt) (h1 : v.toInt < 500000) :
    (pick v).val = v.toInt.toNat := by
  unfold pick
  simp only [not_lt.mpr h0, if_false]
  omega

/-- For a word in the node range, landing on `n` is being read as `n`. -/
theorem lands_iff_pick (v : BitVec 32) (h0 : 0 ≤ v.toInt) (h1 : v.toInt < 500000) (n : Fin 500000) :
    lands v n ↔ pick v = n := by
  rw [Fin.ext_iff, pick_val_of_small v h0 h1]
  unfold lands
  omega

variable (ei : (⟨2, ![2, 16000000]⟩ : Shape).Idx → BitVec 32)

/-- Every endpoint of the extended edge list, the self loops included, is a word in the node range. -/
theorem endp_small (hei : ∀ i, 0 ≤ (ei i).toInt ∧ (ei i).toInt < 500000) (r : Fin 2) (e : Fin 16500000) :
    0 ≤ (endp ei r e).toInt ∧ (endp ei r e).toInt < 500000 := by
  unfold endp
  split
  · exact hei _
  · have hlt : e.val - 16000000 < 500000 := by omega
    have h2 : (BitVec.ofNat 32 (e.val - 16000000)).toNat = e.val - 16000000 := by
      rw [BitVec.toNat_ofNat]; omega
    rw [BitVec.toInt_eq_toNat_cond, h2]
    split <;> omega

/-- The filter of the edges landing on `n` is the filter of the edges read as `n`. -/
theorem filter_lands (hei : ∀ i, 0 ≤ (ei i).toInt ∧ (ei i).toInt < 500000) (r : Fin 2) (n : Fin 500000) :
    Finset.univ.filter (fun e => lands (endp ei r e) n)
      = Finset.univ.filter (fun e => pick (endp ei r e) = n) := by
  refine Finset.filter_congr fun e _ => ?_
  exact lands_iff_pick _ (endp_small ei hei r e).1 (endp_small ei hei r e).2 n

end Cert.GcnSpec
-- ==== Proof.SpecAlgebra3.lean ====
import proofs.«136975_j63797444214872_2_alg».proof.Proof.SpecAlgebra2

/-!
# Every quantity of the specification is a real number

With finite inputs the degrees are finite sums of reals, the inverse square roots are taken at positive reals (the degree
is first raised to a positive floor), and so the edge normalisations are reals.
-/

namespace Cert.GcnSpec

open Idealize.ShloMosaic Idealize.ShloMosaic.ValueIdx

/-! ## The literals -/

theorem lit_one : Ideal.ofBits .f32 0x3F800000#32 = ((1 : ℝ) : EReal) := by
  simp [Ideal.ofBits, Ideal.ieee, -EReal.coe_mul]; norm_num

/-- The literal `0x48F42400` is the number of nodes. -/
theorem lit_nodes : Ideal.ofBits .f32 0x48F42400#32 = ((500000 : ℝ) : EReal) := by
  simp [Ideal.ofBits, Ideal.ieee, -EReal.coe_mul]; norm_num

/-- The floor under the degree, `9223372 · 2⁻⁶³`. -/
theorem lit_floor : Ideal.ofBits .f32 0x2B8CBCCC#32 = (((9223372 : ℝ) * (2:ℝ)^(-63 : ℤ) : ℝ) : EReal) := by
  simp [Ideal.ofBits, Ideal.ieee, -EReal.coe_mul]

theorem zero_eq : zero = ((0 : ℝ) : EReal) := by
  unfold zero; rw [Ideal.ofBits_zero_f32]; rfl

/-! ## Coercion of finite sums and of maxima -/

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-! ## Being a real number -/

/-- An extended real that is a real. -/
def IsReal (a : EReal) : Prop := ∃ r : ℝ, a = (r : EReal)

theorem IsReal.add {a b : EReal} (ha : IsReal a) (hb : IsReal b) : IsReal (a + b) := by
  obtain ⟨r, rfl⟩ := ha; obtain ⟨s, rfl⟩ := hb; exact ⟨r + s, (EReal.coe_add r s).symm⟩

theorem IsReal.mul {a b : EReal} (ha : IsReal a) (hb : IsReal b) : IsReal (a * b) := by
  obtain ⟨r, rfl⟩ := ha; obtain ⟨s, rfl⟩ := hb; exact ⟨r * s, (EReal.coe_mul r s).symm⟩

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

theorem isReal_zero : IsReal zero := ⟨0, zero_eq⟩

variable (ei : (⟨2, ![2, 16000000]⟩ : Shape).Idx → BitVec 32) (ew : (⟨1, ![16000000]⟩ : Shape).Idx → EReal)

theorem isReal_wt (hew : ∀ i, ∃ r : ℝ, ew i = (r : EReal)) (e : Fin 16500000) : IsReal (wt ew e) := by
  unfold wt
  split
  · exact hew _
  · exact ⟨1, lit_one⟩

theorem isReal_deg (hew : ∀ i, ∃ r : ℝ, ew i = (r : EReal)) (n : Fin 500000) : IsReal (deg ei ew n) :=
  isReal_zero.add (IsReal.sum _ _ fun e _ => isReal_wt ew hew e)

/-- The inverse square root of a positive real is a real. -/
theorem isReal_rsqrt_pos (p : ℝ) (hp : 0 < p) : IsReal (Ideal.rsqrt (p : EReal)) := by
  refine ⟨(Real.sqrt p)⁻¹, ?_⟩
  rw [Ideal.rsqrt_coe, if_neg (not_lt.mpr hp.le), if_neg hp.ne']

theorem isReal_dis (hew : ∀ i, ∃ r : ℝ, ew i = (r : EReal)) (n : Fin 500000) : IsReal (dis ei ew n) := by
  unfold dis
  split
  · obtain ⟨r, hr⟩ := isReal_deg ei ew hew n
    rw [hr, lit_floor, ← coe_max]
    exact isReal_rsqrt_pos _ (lt_max_of_lt_right (by positivity))
  · exact isReal_zero

theorem isReal_norm (hew : ∀ i, ∃ r : ℝ, ew i = (r : EReal)) (e : Fin 16500000) : IsReal (norm ei ew e) :=
  ((isReal_dis ei ew hew _).mul (isReal_wt ew hew e)).mul (isReal_dis ei ew hew _)

end Cert.GcnSpec
-- ==== Proof.SpecAlgebra4.lean ====
import proofs.«136975_j63797444214872_2_alg».proof.Proof.SpecAlgebra1
import proofs.«136975_j63797444214872_2_alg».proof.Proof.SpecAlgebra3

/-!
# The two arrangements agree

With real witnesses for the inputs and for the edge normalisations, each stage of either arrangement is the coercion
of a real expression over the node-valued endpoints `srcN`, `dstN`; the real expressions agree by linearity.
-/

namespace Cert.GcnSpec

open Idealize.ShloMosaic Idealize.ShloMosaic.ValueIdx Finset

/-- The 125 blocks of 4000 rows enumerate the nodes. -/
theorem sum_node {M : Type*} [AddCommMonoid M] (F : Fin 500000 → M) :
    ∑ t : Fin 125, ∑ r : Fin 4000, F (node t r) = ∑ n, F n := by
  rw [← Fintype.sum_prod_type' (f := fun t r => F (node t r))]
  refine Fintype.sum_equiv (finProdFinEquiv.trans (finCongr (by norm_num))) _ _ ?_
  rintro ⟨t, r⟩
  congr 1
  ext
  simp [node, finProdFinEquiv]
  omega

variable (x : (⟨2, ![500000, 1]⟩ : Shape).Idx → EReal) (ei : (⟨2, ![2, 16000000]⟩ : Shape).Idx → BitVec 32)
  (ew : (⟨1, ![16000000]⟩ : Shape).Idx → EReal) (W1 : (⟨2, ![1, 16]⟩ : Shape).Idx → EReal)
  (b1 : (⟨1, ![16]⟩ : Shape).Idx → EReal) (W2 : (⟨2, ![16, 2]⟩ : Shape).Idx → EReal) (b2 : (⟨1, ![2]⟩ : Shape).Idx → EReal)

/-- The source node of an edge. -/
def srcN (e : Fin 16500000) : Fin 500000 := pick (endp ei 0 e)
/-- The target node of an edge. -/
def dstN (e : Fin 16500000) : Fin 500000 := pick (endp ei 1 e)

variable (xr : Fin 500000 → ℝ) (w1 b1r : Fin 16 → ℝ) (w2 : Fin 16 → Fin 2 → ℝ) (b2r : Fin 2 → ℝ)
  (nrm : Fin 16500000 → ℝ)

/-- The hidden features over the reals, the layers as written. -/
def hidReal (n : Fin 500000) (j : Fin 16) : ℝ :=
  max ((∑ e ∈ univ.filter (fun e => dstN ei e = n), (xr (srcN ei e) * w1 j) * nrm e) + b1r j) 0

section
variable (hei : ∀ i, 0 ≤ (ei i).toInt ∧ (ei i).toInt < 500000)
  (hxr : ∀ n, x (ix2 n 0) = (xr n : EReal)) (hw1 : ∀ j, W1 (ix2 0 j) = (w1 j : EReal))
  (hb1r : ∀ j, b1 (ix1 j) = (b1r j : EReal)) (hw2 : ∀ j c, W2 (ix2 j c) = (w2 j c : EReal))
  (hb2r : ∀ c, b2 (ix1 c) = (b2r c : EReal)) (hnrm : ∀ e, norm ei ew e = (nrm e : EReal))
include hei hxr hw1 hb1r hnrm

theorem hidR_coe (n : Fin 500000) (j : Fin 16) :
    hidR x ei ew W1 b1 n j = (hidReal ei xr w1 b1r nrm n j : EReal) := by
  unfold hidR lin1 hidReal
  rw [filter_lands ei hei]
  simp only [hxr, hw1, hb1r, hnrm, zero_eq, coe_max, EReal.coe_add, coe_sum, EReal.coe_mul, EReal.coe_zero, zero_add,
    srcN, dstN] <;> rfl

theorem hidK_coe (n : Fin 500000) (j : Fin 16) :
    hidK x ei ew W1 b1 n j = (hidReal ei xr w1 b1r nrm n j : EReal) := by
  unfold hidReal
  rw [Core.hid_eq]
  unfold hidK agg
  rw [filter_lands ei hei]
  simp only [hxr, hw1, hb1r, hnrm, zero_eq, coe_max, EReal.coe_add, coe_sum, EReal.coe_mul, EReal.coe_zero, zero_add,
    srcN, dstN] <;> rfl

include hw2 hb2r

theorem logitR_coe (c : Fin 2) :
    logitR x ei ew W1 b1 W2 b2 c
      = ((∑ n : Fin 500000, ((∑ e ∈ univ.filter (fun e => dstN ei e = n),
            (∑ j, hidReal ei xr w1 b1r nrm (srcN ei e) j * w2 j c) * nrm e) + b2r c) : ℝ) : EReal) := by
  unfold logitR out2 lin2
  simp only [filter_lands ei hei, hidR_coe x ei ew W1 b1 xr w1 b1r nrm hei hxr hw1 hb1r hnrm]
  simp only [hw2, hb2r, hnrm, zero_eq, EReal.coe_add, coe_sum, EReal.coe_mul, EReal.coe_zero, zero_add,
    srcN, dstN] <;> rfl

theorem logitK_coe (c : Fin 2) :
    logitK x ei ew W1 b1 W2 b2 c
      = (((∑ j, (∑ n : Fin 500000, (∑ e ∈ univ.filter (fun e => srcN ei e = n), nrm e)
            * hidReal ei xr w1 b1r nrm n j) * w2 j c) + 500000 * b2r c : ℝ) : EReal) := by
  have hacc : ∀ j, acc x ei ew W1 b1 j = zero + ∑ n, wsrc ei ew n * hidK x ei ew W1 b1 n j := fun j => by
    unfold acc; rw [sum_node (fun n => wsrc ei ew n * hidK x ei ew W1 b1 n j)]
  unfold logitK
  simp only [hacc]
  unfold wsrc
  simp only [filter_lands ei hei, hidK_coe x ei ew W1 b1 xr w1 b1r nrm hei hxr hw1 hb1r hnrm, lit_nodes]
  simp only [hw2, hb2r, hnrm, zero_eq, EReal.coe_add, coe_sum, EReal.coe_mul, EReal.coe_zero, zero_add,
    srcN, dstN] <;> rfl

theorem logitK_eq_logitR_of_witnesses (c : Fin 2) :
    logitK x ei ew W1 b1 W2 b2 c = logitR x ei ew W1 b1 W2 b2 c := by
  rw [logitK_coe x ei ew W1 b1 W2 b2 xr w1 b1r w2 b2r nrm hei hxr hw1 hb1r hw2 hb2r hnrm,
    logitR_coe x ei ew W1 b1 W2 b2 xr w1 b1r w2 b2r nrm hei hxr hw1 hb1r hw2 hb2r hnrm,
    Core.logit_eq (srcN ei) (dstN ei) nrm (hidReal ei xr w1 b1r nrm) w2 b2r c]
  simp only [Fintype.card_fin, Nat.cast_ofNat]

end

end Cert.GcnSpec
-- ==== Proof.SpecAlgebra.lean ====
import proofs.«136975_j63797444214872_2_alg».proof.Proof.SpecAlgebra4

/-!
# The scalar-message arrangement computes what the layers as written compute

For finite inputs and endpoints that are node numbers.
-/

namespace Cert.GcnSpec

open Idealize.ShloMosaic Idealize.ShloMosaic.ValueIdx

variable (x : (⟨2, ![500000, 1]⟩ : Shape).Idx → EReal) (ei : (⟨2, ![2, 16000000]⟩ : Shape).Idx → BitVec 32)
  (ew : (⟨1, ![16000000]⟩ : Shape).Idx → EReal) (W1 : (⟨2, ![1, 16]⟩ : Shape).Idx → EReal)
  (b1 : (⟨1, ![16]⟩ : Shape).Idx → EReal) (W2 : (⟨2, ![16, 2]⟩ : Shape).Idx → EReal) (b2 : (⟨1, ![2]⟩ : Shape).Idx → EReal)

/-- The class logits of the two arrangements agree. -/
theorem logitK_eq_logitR
    (hx : ∀ i, ∃ r : ℝ, x i = (r : EReal)) (hew : ∀ i, ∃ r : ℝ, ew i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (hei : ∀ i, 0 ≤ (ei i).toInt ∧ (ei i).toInt < 500000) (c : Fin 2) :
    logitK x ei ew W1 b1 W2 b2 c = logitR x ei ew W1 b1 W2 b2 c := by
  choose xr hxr using fun n : Fin 500000 => hx (ix2 n 0)
  choose w1 hw1 using fun j : Fin 16 => hW1 (ix2 0 j)
  choose b1r hb1r using fun j : Fin 16 => hb1 (ix1 j)
  choose w2 hw2 using fun (j : Fin 16) (c : Fin 2) => hW2 (ix2 j c)
  choose b2r hb2r using fun c : Fin 2 => hb2 (ix1 c)
  choose nrm hnrm using fun e => isReal_norm ei ew hew e
  exact logitK_eq_logitR_of_witnesses x ei ew W1 b1 W2 b2 xr w1 b1r w2 b2r nrm hei hxr hw1 hb1r hw2 hb2r hnrm c

/-- The two arrangements give the same network result. -/
theorem kerOut_eq_refOut
    (hx : ∀ i, ∃ r : ℝ, x i = (r : EReal)) (hew : ∀ i, ∃ r : ℝ, ew i = (r : EReal))
    (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (hei : ∀ i, 0 ≤ (ei i).toInt ∧ (ei i).toInt < 500000) :
    kerOut x ei ew W1 b1 W2 b2 = refOut x ei ew W1 b1 W2 b2 := by
  have h : logitK x ei ew W1 b1 W2 b2 = logitR x ei ew W1 b1 W2 b2 :=
    funext fun c => logitK_eq_logitR x ei ew W1 b1 W2 b2 hx hew hW1 hb1 hW2 hb2 hei c
  funext i
  unfold kerOut refOut
  rw [h]

end Cert.GcnSpec
-- ==== Proof.PreFacts.lean ====
import proofs.«136975_j63797444214872_2_alg».proof.Pre_finite_inputs
import Idealize.ShloMosaic.PureOps.Ideal
import Idealize.ShloMosaic.PureOps.Ideal.Laws
import Idealize.ShloMosaic.Lib.ReduceAll
import Idealize.ShloMosaic.Lib.ValueIdx

/-!
# The precondition, decoded

The test module's precondition conjoins, for every float input, "every entry has absolute value below plus infinity"
and, for the edge list, "every entry is at least 0" and "every entry is below 500000". At the extended reals an entry
whose absolute value is below plus infinity is a real number.
-/

noncomputable section

namespace Cert.PreFacts

open Idealize.ShloMosaic Cert.Pre_finite_inputs

/-- The rank-zero shape has one index. -/
instance : Subsingleton S_.Idx := ⟨fun a b => funext fun d => d.elim0⟩

theorem ofBool_eq_one (b : Bool) : BitVec.ofBool b = 1#1 ↔ b = true := by cases b <;> decide

/-- The pattern `0x7F800000` is plus infinity. -/
theorem inf_bits : Ideal.ofBits .f32 0x7F800000#32 = (⊤ : EReal) := by simp [Ideal.ofBits, Ideal.ieee]

/-- An extended real whose absolute value is below plus infinity is a real. -/
theorem real_of_abs_lt (a : EReal) (h : Ideal.cmp .olt (max a (-a)) (Ideal.ofBits .f32 0x7F800000#32) = 1#1) :
    ∃ r : ℝ, a = (r : EReal) := by
  rw [inf_bits] at h
  have h' : max a (-a) < ⊤ := by simpa [Ideal.cmp, ofBool_eq_one] using h
  induction a using EReal.rec with
  | bot => simp at h'
  | coe r => exact ⟨r, rfl⟩
  | top => simp at h'

/-- `jnp.all(|a| < inf)` read back: every entry of `a` is a real. -/
theorem all_real {s : Shape} {axes : List (Fin s.rank)} (a : FVec Ideal s .f32) (hb : S_.BroadcastsInDim s ![])
    (hr : s.ReducesTo axes S_) (h0 : 0 < S_.numel)
    (e : Host.reduce IntOp.andi (cmpf .olt (Host.absf a) (broadcastInDim s ![] hb (constant S_ .f32 0x7F800000#32)))
      (constantI S_ 1 1#1) hr h0 ValueIdx.ix0 = 1#1) (i : s.Idx) : ∃ r : ℝ, a i = (r : EReal) :=
  real_of_abs_lt (a i) (Host.reduce_andi_all _ _ hr h0 ValueIdx.ix0 e i)

theorem of_pre [Facts] (x : S500000x1.Idx → EReal) (ei : S2x16000000.Idx → BitVec 32) (ew : S16000000.Idx → EReal)
    (W1 : S1x16.Idx → EReal) (b1 : S16.Idx → EReal) (W2 : S16x2.Idx → EReal) (b2 : S2.Idx → EReal)
    (h : fn (F := Ideal) x ei ew W1 b1 W2 b2 = fun _ => 1#1) :
    (∀ i, ∃ r : ℝ, x i = (r : EReal)) ∧ (∀ i, ∃ r : ℝ, ew i = (r : EReal)) ∧ (∀ i, ∃ r : ℝ, W1 i = (r : EReal))
      ∧ (∀ i, ∃ r : ℝ, b1 i = (r : EReal)) ∧ (∀ i, ∃ r : ℝ, W2 i = (r : EReal)) ∧ (∀ i, ∃ r : ℝ, b2 i = (r : EReal))
      ∧ (∀ i, 0 ≤ (ei i).toInt ∧ (ei i).toInt < 500000) := by
  have e := congrFun h ValueIdx.ix0
  unfold fn fn_part1 fn_part2 at e
  simp only [andi, IntOp.andi_eq_one] at e
  obtain ⟨⟨⟨⟨⟨⟨⟨h3, h7⟩, h12⟩, h17⟩, h22⟩, h27⟩, h31⟩, h35⟩ := e
  refine ⟨all_real x _ _ _ h3, all_real ew _ _ _ h7, all_real W1 _ _ _ h12, all_real b1 _ _ _ h17,
    all_real W2 _ _ _ h22, all_real b2 _ _ _ h27, fun i => ⟨?_, ?_⟩⟩
  · have h0 : IntOp.cmpi .sge (ei i) (0#32) = 1#1 := Host.reduce_andi_all _ _ _ _ ValueIdx.ix0 h31 i
    rw [IntOp.cmpi_sge] at h0
    have hz : (0#32 : BitVec 32).toInt = 0 := by decide
    omega
  · have h5 : IntOp.cmpi .slt (ei i) (500000#32) = 1#1 := Host.reduce_andi_all _ _ _ _ ValueIdx.ix0 h35 i
    rw [IntOp.cmpi_slt] at h5
    have hn : (500000#32 : BitVec 32).toInt = 500000 := by decide
    omega

end Cert.PreFacts

end
-- ==== Proof.lean ====
/- The proof of `Cert.Claim`: the word-level kernel and its idealization run to the end, fault nowhere and leave
   their argument arrays unchanged; so does the idealized reference; the idealization rewrote nothing; and at the
   ideal instance, from memories agreeing on the arguments, kernel and reference end with equal results.

   The mathematics. Both programs compute a two-layer graph convolution on 500000 nodes and 16500000 edges (the
   given edges and one self loop per node), the sum of the second layer over the nodes, and a soft maximum over the two
   classes. The reference follows the layers as written. The kernel uses that the input feature is one number per
   node — the first layer's messages are scalars — and that only the node sum of the second layer is needed, which by
   linearity is a weighted node sum of the hidden features followed by one small matrix product; the dense node-wise
   passes are two kernel regions (the first pointwise over blocks of 4000 nodes, the second accumulating 125 block
   sums and finishing at the last block). Both sides are read, index by index, to the two arrangements stated in
   Proof/Spec.lean; the arrangements agree when every input is a real number and every edge endpoint is a node
   number (Proof/SpecAlgebra.lean: distributivity and the exchange of finite sums hold over the reals, and a scattered
   sum and a gathered read then address the same node). -/
import proofs.«136975_j63797444214872_2_alg».proof.Defs
import proofs.«136975_j63797444214872_2_alg».proof.Proof.Gen.Kernel
import proofs.«136975_j63797444214872_2_alg».proof.Proof.Gen.KernelIdeal
import proofs.«136975_j63797444214872_2_alg».proof.Proof.Gen.ReferenceIdeal
import proofs.«136975_j63797444214872_2_alg».proof.Proof.Gen.Pre_finite_inputs
import proofs.«136975_j63797444214872_2_alg».proof.Proof.Gen.ReferenceIdeal.Run
import proofs.«136975_j63797444214872_2_alg».proof.Proof.KArgs
import proofs.«136975_j63797444214872_2_alg».proof.Proof.KIArgs
import proofs.«136975_j63797444214872_2_alg».proof.Proof.KIValue
import proofs.«136975_j63797444214872_2_alg».proof.Proof.RefValue5
import proofs.«136975_j63797444214872_2_alg».proof.Proof.SpecAlgebra
import proofs.«136975_j63797444214872_2_alg».proof.Proof.PreFacts
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame_all (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame_all (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- At the ideal instance the kernel's result array ends at the scalar-message arrangement of the arguments and the
    reference's at the layers as written, of arguments that agree; under the precondition the two arrangements are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.GcnSpec.kerOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.kernel_run m ρ, ?_⟩
  refine (θ_run Cert.ReferenceIdeal.defs _ _).mono (fun _ h c => ⟨(h c).1.trans ?_, (h c).2⟩) (Cert.RefSide.run_spec m' ρ')
  obtain ⟨hx, hew, hW1, hb1, hW2, hb2, hei⟩ := Cert.PreFacts.of_pre _ _ _ _ _ _ _ (hpre c)
  rw [(hagree c).1, (hagree c).2.1, (hagree c).2.2.1, (hagree c).2.2.2.1, (hagree c).2.2.2.2.1, (hagree c).2.2.2.2.2.1, (hagree c).2.2.2.2.2.2]
  exact (Cert.GcnSpec.kerOut_eq_refOut _ _ _ _ _ _ _ hx hew hW1 hb1 hW2 hb2 hei).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
